-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 1024]⟩ ⟨3, ![4, 256, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 1024]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x1024 : Shape := ⟨3, ![1, 256, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel

variable [Facts]

def fn {F : FTy → Type} [FloatOps F] (main_arg0 : FVec F S1x256x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  main_v3
-- ==== Pre_finite_inputs_ReferenceIdeal.lean ====
abbrev S4x256x1024 : Shape := ⟨3, ![4, 256, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel

variable [Facts]

def fn {F : FTy → Type} [FloatOps F] (main_arg0 : FVec F S4x256x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  main_v3
-- ==== Kernel.lean ====
abbrev S1x256x1024 : Shape := ⟨3, ![1, 256, 1024]⟩
abbrev S256x256 : Shape := ⟨2, ![256, 256]⟩
abbrev S3x256x256 : Shape := ⟨3, ![3, 256, 256]⟩
abbrev S3 : Shape := ⟨1, ![3]⟩
abbrev S_ : Shape := ⟨0, ![]⟩
abbrev S1x256x256 : Shape := ⟨3, ![1, 256, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x256x1024, .f32⟩
  | .hbm, ⟨1, _⟩ => ⟨S256x256, .f32⟩
  | .local _ .vmem, ⟨0, _⟩ => ⟨S1x256x1024, .f32⟩
  | .local _ .vmem, ⟨1, _⟩ => ⟨S256x256, .f32⟩
  | .local _ .vmem, ⟨2, _⟩ => ⟨S3x256x256, .bf16⟩
  | .local _ .vmem, ⟨3, _⟩ => ⟨S3x256x256, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  { ofTc nBuf bufTy 1 8 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c4_i32_11 : BitVec 32 := 4#32
  let v23 : BitVec 32 := Scalar.muli v20 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v27 : BitVec 32 := Scalar.addi v5 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c4_i32_23 : BitVec 32 := 4#32
  let v40 : BitVec 32 := Scalar.muli v37 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v44 : BitVec 32 := Scalar.addi v5 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c4_i32_34 : BitVec 32 := 4#32
  let v57 : BitVec 32 := Scalar.muli v54 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k0_off1 (d0 : Dev nD) (c1_i32_36 : BitVec 32) : Fin 3 → Nat :=
  let c0 : Index := 0#32
  let c0_43 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v61 : BitVec 32 := Scalar.addi v5 c1_i32_36
  let c4_i32_37 : BitVec 32 := 4#32
  let c0_i32_38 : BitVec 32 := 0#32
  let v62 : BitVec 1 := Scalar.cmpi .eq c4_i32_37 c0_i32_38
  let c1_i32_39 : BitVec 32 := 1#32
  let v63 : BitVec 32 := Scalar.select v62 c1_i32_39 c4_i32_37
  let v64 : BitVec 32 := Scalar.remsi v61 v63
  let c0_i32_41 : BitVec 32 := 0#32
  let v66 : BitVec 1 := Scalar.cmpi .slt v64 c0_i32_41
  let c0_i32_42 : BitVec 32 := 0#32
  let v67 : BitVec 1 := Scalar.cmpi .slt v63 c0_i32_42
  let v68 : BitVec 1 := Scalar.xori v66 v67
  let c0_i32_40 : BitVec 32 := 0#32
  let v65 : BitVec 1 := Scalar.cmpi .ne v64 c0_i32_40
  let v69 : BitVec 1 := Scalar.andi v68 v65
  let v70 : BitVec 32 := Scalar.addi v64 v63
  let v71 : BitVec 32 := Scalar.select v69 v70 v64
  let c256_i32 : BitVec 32 := 256#32
  let v72 : BitVec 32 := Scalar.muli v71 c256_i32
  let v73 : Index := Scalar.indexCast v72
  ![0, 0, v73.toNat]
def k0_dev4 (d0 : Dev nD) : Nat :=
  let c0_i32_84 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_83 : BitVec 32 := 16#32
  let v129 : BitVec 32 := Scalar.muli v2 c16_i32_83
  let v130 : BitVec 32 := Scalar.addi c0_i32_84 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v118 : BitVec 32 := Scalar.addi v5 c1_i32_72
  let c4_i32_73 : BitVec 32 := 4#32
  let c0_i32_74 : BitVec 32 := 0#32
  let v119 : BitVec 1 := Scalar.cmpi .eq c4_i32_73 c0_i32_74
  let c1_i32_75 : BitVec 32 := 1#32
  let v120 : BitVec 32 := Scalar.select v119 c1_i32_75 c4_i32_73
  let v121 : BitVec 32 := Scalar.remsi v118 v120
  let c0_i32_77 : BitVec 32 := 0#32
  let v123 : BitVec 1 := Scalar.cmpi .slt v121 c0_i32_77
  let c0_i32_78 : BitVec 32 := 0#32
  let v124 : BitVec 1 := Scalar.cmpi .slt v120 c0_i32_78
  let v125 : BitVec 1 := Scalar.xori v123 v124
  let c0_i32_76 : BitVec 32 := 0#32
  let v122 : BitVec 1 := Scalar.cmpi .ne v121 c0_i32_76
  let v126 : BitVec 1 := Scalar.andi v125 v122
  let v127 : BitVec 32 := Scalar.addi v121 v120
  let v128 : BitVec 32 := Scalar.select v126 v127 v121
  let c4_i32_85 : BitVec 32 := 4#32
  let v131 : BitVec 32 := Scalar.muli v128 c4_i32_85
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v133 : BitVec 32 := Scalar.muli v8 c1_i32_86
  let v134 : BitVec 32 := Scalar.addi v132 v133
  v134.toNat
def k0_dev5 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_102 : BitVec 32 := 16#32
  let v154 : BitVec 32 := Scalar.muli v2 c16_i32_102
  let v155 : BitVec 32 := Scalar.addi c0_i32_103 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_91 : BitVec 32 := 2#32
  let v143 : BitVec 32 := Scalar.addi v5 c2_i32_91
  let c4_i32_92 : BitVec 32 := 4#32
  let c0_i32_93 : BitVec 32 := 0#32
  let v144 : BitVec 1 := Scalar.cmpi .eq c4_i32_92 c0_i32_93
  let c1_i32_94 : BitVec 32 := 1#32
  let v145 : BitVec 32 := Scalar.select v144 c1_i32_94 c4_i32_92
  let v146 : BitVec 32 := Scalar.remsi v143 v145
  let c0_i32_96 : BitVec 32 := 0#32
  let v148 : BitVec 1 := Scalar.cmpi .slt v146 c0_i32_96
  let c0_i32_97 : BitVec 32 := 0#32
  let v149 : BitVec 1 := Scalar.cmpi .slt v145 c0_i32_97
  let v150 : BitVec 1 := Scalar.xori v148 v149
  let c0_i32_95 : BitVec 32 := 0#32
  let v147 : BitVec 1 := Scalar.cmpi .ne v146 c0_i32_95
  let v151 : BitVec 1 := Scalar.andi v150 v147
  let v152 : BitVec 32 := Scalar.addi v146 v145
  let v153 : BitVec 32 := Scalar.select v151 v152 v146
  let c4_i32_104 : BitVec 32 := 4#32
  let v156 : BitVec 32 := Scalar.muli v153 c4_i32_104
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v158 : BitVec 32 := Scalar.muli v8 c1_i32_105
  let v159 : BitVec 32 := Scalar.addi v157 v158
  v159.toNat
def k0_dev6 (d0 : Dev nD) : Nat :=
  let c0_i32_122 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_121 : BitVec 32 := 16#32
  let v179 : BitVec 32 := Scalar.muli v2 c16_i32_121
  let v180 : BitVec 32 := Scalar.addi c0_i32_122 v179
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_110 : BitVec 32 := 3#32
  let v168 : BitVec 32 := Scalar.addi v5 c3_i32_110
  let c4_i32_111 : BitVec 32 := 4#32
  let c0_i32_112 : BitVec 32 := 0#32
  let v169 : BitVec 1 := Scalar.cmpi .eq c4_i32_111 c0_i32_112
  let c1_i32_113 : BitVec 32 := 1#32
  let v170 : BitVec 32 := Scalar.select v169 c1_i32_113 c4_i32_111
  let v171 : BitVec 32 := Scalar.remsi v168 v170
  let c0_i32_115 : BitVec 32 := 0#32
  let v173 : BitVec 1 := Scalar.cmpi .slt v171 c0_i32_115
  let c0_i32_116 : BitVec 32 := 0#32
  let v174 : BitVec 1 := Scalar.cmpi .slt v170 c0_i32_116
  let v175 : BitVec 1 := Scalar.xori v173 v174
  let c0_i32_114 : BitVec 32 := 0#32
  let v172 : BitVec 1 := Scalar.cmpi .ne v171 c0_i32_114
  let v176 : BitVec 1 := Scalar.andi v175 v172
  let v177 : BitVec 32 := Scalar.addi v171 v170
  let v178 : BitVec 32 := Scalar.select v176 v177 v171
  let c4_i32_123 : BitVec 32 := 4#32
  let v181 : BitVec 32 := Scalar.muli v178 c4_i32_123
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v183 : BitVec 32 := Scalar.muli v8 c1_i32_124
  let v184 : BitVec 32 := Scalar.addi v182 v183
  v184.toNat
def k0_off2 (d0 : Dev nD) : Fin 3 → Nat :=
  let c0_130 : Index := 0#32
  let c0_131 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_129 : BitVec 32 := 256#32
  let v193 : BitVec 32 := Scalar.muli v5 c256_i32_129
  let v194 : Index := Scalar.indexCast v193
  ![0, 0, v194.toNat]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S1x256x256 : 0 < S1x256x256.numel
  shapeCasts_S1x256x256_S256x256 : S1x256x256.ShapeCasts S256x256
  bitsLt_bf16_f32 : FTy.bits .bf16 < FTy.bits .f32
  inb_S3x256x256_S1x256x256_0_0_0 : ∀ a, (![0, 0, 0] : Fin 3 → Nat) a + S1x256x256.size a ≤ S3x256x256.size a
  shapeCasts_S256x256_S1x256x256 : S256x256.ShapeCasts S1x256x256
  packedbf16_S3x256x256_S1x256x256_0_0_0 : (Rect.unit (s := S3x256x256) ![0, 0, 0] S1x256x256.size inb_S3x256x256_S1x256x256_0_0_0).PackedRows (EltTy.packing .bf16)
  inb_S3x256x256_S1x256x256_1_0_0 : ∀ a, (![1, 0, 0] : Fin 3 → Nat) a + S1x256x256.size a ≤ S3x256x256.size a
  packedbf16_S3x256x256_S1x256x256_1_0_0 : (Rect.unit (s := S3x256x256) ![1, 0, 0] S1x256x256.size inb_S3x256x256_S1x256x256_1_0_0).PackedRows (EltTy.packing .bf16)
  inb_S3x256x256_S1x256x256_2_0_0 : ∀ a, (![2, 0, 0] : Fin 3 → Nat) a + S1x256x256.size a ≤ S3x256x256.size a
  packedbf16_S3x256x256_S1x256x256_2_0_0 : (Rect.unit (s := S3x256x256) ![2, 0, 0] S1x256x256.size inb_S3x256x256_S1x256x256_2_0_0).PackedRows (EltTy.packing .bf16)
  hamt_3 : (3#32 : BitVec 32).msb = false
  inb_S3_S1_0 : ∀ a, (![0] : Fin 1 → Nat) a + S1.size a ≤ S3.size a
  squeezes_S1_S_ : S1.Squeezes S_
  squeezes_S1x256x256_S256x256 : S1x256x256.Squeezes S256x256
  wordsbf16_S3x256x256_S1x256x256_0_0_0 : (Rect.unit (s := S3x256x256) ![0, 0, 0] S1x256x256.size inb_S3x256x256_S1x256x256_0_0_0).WholeWords (EltTy.packing .bf16)
  inb_S3_S1_1 : ∀ a, (![1] : Fin 1 → Nat) a + S1.size a ≤ S3.size a
  wordsbf16_S3x256x256_S1x256x256_1_0_0 : (Rect.unit (s := S3x256x256) ![1, 0, 0] S1x256x256.size inb_S3x256x256_S1x256x256_1_0_0).WholeWords (EltTy.packing .bf16)
  inb_S3_S1_2 : ∀ a, (![2] : Fin 1 → Nat) a + S1.size a ≤ S3.size a
  wordsbf16_S3x256x256_S1x256x256_2_0_0 : (Rect.unit (s := S3x256x256) ![2, 0, 0] S1x256x256.size inb_S3x256x256_S1x256x256_2_0_0).WholeWords (EltTy.packing .bf16)
  inb_S256x256_S256x256_0_0 : ∀ a, (![0, 0] : Fin 2 → Nat) a + S256x256.size a ≤ S256x256.size a
  h_S256x256 : 0 < S256x256.numel
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 3), ∀ a, (k0_off1 d0 (BitVec.ofNat 32 (1 + r.val))) a + S1x256x256.size a ≤ S1x256x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off2_inb : ∀ d0 : Dev nD, ∀ a, (k0_off2 d0) a + S1x256x256.size a ≤ S1x256x1024.size a
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S_, .f32⟩
  | .hbm, ⟨2, _⟩ => ⟨S256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S4x256x1024_S256x1024_d0 : S4x256x1024.ReducesTo [0] S256x1024
  h_S_ : 0 < S_.numel

variable [Facts₀]

class Facts : Prop extends Facts₀ where

variable [Facts]
-- ==== Proof.KernelIdealMesh.lean ====
/-
  The mesh of the reduce-scatter along the y axis. The 32 devices are numbered row-major over (x, y, z) = (2, 4, 4):
  device c sits at x = c / 16, y = c / 4 % 4, z = c % 4. The kernel on device c talks to the three other devices of its
  (x, z) line: for j = 0, 1, 2 its j-th peer is the device whose y coordinate is y + j + 1 modulo 4. The j-th peer map is
  a permutation of the devices, with inverse the (2 - j)-th.
-/
import proofs.«900474_g7700000000000475_dist_rs_v7x_xyz2x4x4_y_m256_n256_bf16_1_alg».proof.Proof.Gen.KernelIdeal

namespace Cert.KernelIdeal.RS

open Cert.KernelIdeal Cert.KernelIdeal.Gen
open Idealize.ShloMosaic

/-- The y coordinate of a device. -/
def ycoord (c : Dev nD) : Fin 4 := ⟨c.val / 4 % 4, Nat.mod_lt _ (by decide)⟩

/-- The device at the same x and z whose y coordinate is y + j + 1 modulo 4. -/
def peer (j : Fin 3) (c : Dev nD) : Dev nD :=
  ⟨c.val / 16 * 16 + (c.val / 4 % 4 + j.val + 1) % 4 * 4 + c.val % 4, by
    have h0 : c.val < 32 := c.isLt
    have h1 : c.val / 16 < 2 := by omega
    have h2 : (c.val / 4 % 4 + j.val + 1) % 4 < 4 := Nat.mod_lt _ (by decide)
    have h3 : c.val % 4 < 4 := Nat.mod_lt _ (by decide)
    show _ < 32
    omega⟩

/-- The index of the inverse shift: shifting by j + 1 and then by (2 - j) + 1 is shifting by 4. -/
def rev (j : Fin 3) : Fin 3 := ⟨2 - j.val, by omega⟩

theorem rev_rev (j : Fin 3) : rev (rev j) = j := by revert j; decide
theorem peer_rev (j : Fin 3) (c : Dev nD) : peer (rev j) (peer j c) = c := by revert j c; decide
theorem rev_peer (j : Fin 3) (c : Dev nD) : peer j (peer (rev j) c) = c := by revert j c; decide
theorem peer_ne (j : Fin 3) (c : Dev nD) : peer j c ≠ c := by revert j c; decide
theorem peer_inj (j k : Fin 3) (c : Dev nD) (h : peer j c = peer k c) : j = k := by revert j k c; decide
theorem ycoord_peer (j : Fin 3) (c : Dev nD) : (ycoord (peer j c)).val = ((ycoord c).val + j.val + 1) % 4 := by revert j c; decide

/-- The j-th peer map as a permutation of the devices. -/
def peerEquiv (j : Fin 3) : Dev nD ≃ Dev nD := ⟨peer j, peer (rev j), peer_rev j, rev_peer j⟩

/-- The device ids the kernel computes: the three signals and the three copies each address the j-th peer. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-- The column offset of the block a device sends to its j-th peer: the peer's y coordinate times 256. -/
theorem off1_eq (c : Dev nD) (j : Fin 3) :
    k0_off1 c (BitVec.ofNat 32 (1 + j.val)) = ![0, 0, 256 * (ycoord (peer j c)).val] := by revert c j; decide +kernel
/-- The column offset of a device's own block: its y coordinate times 256. -/
theorem off2_eq (c : Dev nD) : k0_off2 c = ![0, 0, 256 * (ycoord c).val] := k0_off2_eq c

end Cert.KernelIdeal.RS
-- ==== Proof.KernelIdealSched.lean ====
/-
  The protocol of the reduce-scatter along y, as a schedule of rounds.

  Device c owns seven semaphore cells: its barrier cell, three send cells and three receive cells (one pair per peer
  index j). Everything happens in round 0.
  * The barrier cell of c has three duties of one unit each; duty k is paid by the device whose k-th peer is c, that
    is by peer (rev k) c. With its unit that device hands c the slot of its own receive buffer into which c will copy
    (slot rev k of device peer (rev k) c), and the fact that its receive cell for that slot has reached round 0.
  * The j-th copy of c reads slot j of c's send buffer and writes slot j of the receive buffer of peer j c. It pays
    the one duty of c's j-th send cell (payload: the send slot back) and the one duty of the j-th receive cell of
    peer j c (payload: the receive slot, holding what the copy wrote: a load of that slot reads the block the sender
    stored into its send slot).
-/
import proofs.«900474_g7700000000000475_dist_rs_v7x_xyz2x4x4_y_m256_n256_bf16_1_alg».proof.Proof.KernelIdealMesh
import proofs.«900474_g7700000000000475_dist_rs_v7x_xyz2x4x4_y_m256_n256_bf16_1_alg».proof.Proof.Gen.KernelIdeal.Skeleton
import proofs.«900474_g7700000000000475_dist_rs_v7x_xyz2x4x4_y_m256_n256_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duty names Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Memrefs, slots, cells -/

abbrev xM : Memref sig .tc .vmem S1x256x1024 .f32 := Memref.whole cc0_stg0_0
abbrev oM : Memref sig .tc .vmem S256x256 .f32 := Memref.whole cc0_stg1_0
abbrev sB : Memref sig .tc .vmem S3x256x256 .bf16 := Memref.whole cc0_scratch0
abbrev rB : Memref sig .tc .vmem S3x256x256 .bf16 := Memref.whole cc0_scratch1

theorem slot_inb (j : Fin 3) : ∀ a, (![j.val, 0, 0] : Fin 3 → Nat) a + S1x256x256.size a ≤ S3x256x256.size a := by
  revert j; decide

/-- Slot j of a 3 × 256 × 256 buffer: the rectangle [j, j+1) × [0, 256) × [0, 256). -/
abbrev slotR (j : Fin 3) : Rect S3x256x256 := Rect.unit (s := S3x256x256) ![j.val, 0, 0] S1x256x256.size (slot_inb j)

/-- Slot j of the send buffer and of the receive buffer, as the 256 × 256 memrefs the copies go through. -/
abbrev sSlot (j : Fin 3) : Memref sig .tc .vmem S256x256 .bf16 :=
  (sB.slice (slotR j) (fun _ => rfl)).squeeze S256x256 squeezes_S1x256x256_S256x256
abbrev rSlot (j : Fin 3) : Memref sig .tc .vmem S256x256 .bf16 :=
  (rB.slice (slotR j) (fun _ => rfl)).squeeze S256x256 squeezes_S1x256x256_S256x256

abbrev barS : Sem sig := (SemArray.scalar (sig.barrier 0 rfl) : Sems sig S_).sem
abbrev sSem (j : Fin 3) : DmaSem sig := ⟨j.val + 2, by have := j.isLt; show _ < 8; omega⟩
abbrev rSem (j : Fin 3) : DmaSem sig := ⟨j.val + 5, by have := j.isLt; show _ < 8; omega⟩

abbrev barCell (c : Dev nD) : GSem nD τ sig := ((c : Thread nD τ), .reg barS)
abbrev sendCell (c : Dev nD) (j : Fin 3) : GSem nD τ sig := ((c : Thread nD τ), .dma (sSem j))
abbrev recvCell (c : Dev nD) (j : Fin 3) : GSem nD τ sig := ((c : Thread nD τ), .dma (rSem j))

/-- The credit of one 256 × 256 bf16 slot. -/
abbrev N : ℕ := (rSlot 0).view.dmaCredit
theorem N_pos : 0 < N := View.dmaCredit_pos _ (by decide)
theorem credit_r (j : Fin 3) : (rSlot j).view.dmaCredit = N := by revert j; decide
theorem credit_s (j : Fin 3) : (sSlot j).view.dmaCredit = N := by revert j; decide

/-! ## Contents -/

/-- Device c's block of x, as staged. -/
def xstg (c : Dev nD) : (cc0_stg0_0 : Ref sig .tc).ty.Contents (Elt F) :=
  (win0_0.blk (0 : Fin 1)).view.read (Elt F) (m ((c : Thread nD τ).loc main_arg0))

/-- The columns of x device c sends to its j-th peer: that peer's block of 256 columns. -/
abbrev xRect (c : Dev nD) (j : Fin 3) : Rect S1x256x1024 :=
  Rect.unit (s := S1x256x1024) (k0_off1 c (BitVec.ofNat 32 (1 + j.val))) S1x256x256.size (k0_off1_inb c j)
/-- The columns of x device c keeps: its own block. -/
abbrev xOwn (c : Dev nD) : Rect S1x256x1024 :=
  Rect.unit (s := S1x256x1024) (k0_off2 c) S1x256x256.size (k0_off2_inb c)

/-- What device c stores into slot j of its send buffer: its block of x at the j-th peer's columns, in bf16. -/
def sv (c : Dev nD) (j : Fin 3) : FVec F S1x256x256 .bf16 :=
  k0_pay1 ((xM : Memref sig .tc .vmem S1x256x1024 .f32).view.readAt (Elt F) (xRect c j).toLoadRect (xstg m c))

/-- The send buffer of device c after its three stores, from contents f0. -/
def sendBuf (c : Dev nD) (f0 : Buf (Elt F) ((c : Thread nD τ).loc cc0_scratch0)) : Buf (Elt F) ((c : Thread nD τ).loc cc0_scratch0) :=
  ((sB.access (slotR 2) : View sig .tc _ _ _).write (Elt F)
    ((sB.access (slotR 1) : View sig .tc _ _ _).write (Elt F)
      ((sB.access (slotR 0) : View sig .tc _ _ _).write (Elt F) f0 (sv m c 0) Finset.univ)
      (sv m c 1) Finset.univ)
    (sv m c 2) Finset.univ)

/-- What a load of slot j of device c's receive buffer reads once the copy has landed: what its sender stored. -/
def rv (c : Dev nD) (j : Fin 3) : FVec F S1x256x256 .bf16 := sv m (peer (rev j) c) j

/-- The kernel's result on device c: its own block of columns of its x, plus the three received blocks in turn. -/
def outAt (c : Dev nD) : (cc0_stg1_0 : Ref sig .tc).ty.Contents (Elt F) :=
  k0_pay6 (k0_pay5 (k0_pay4 ((xM : Memref sig .tc .vmem S1x256x1024 .f32).view.readAt (Elt F) (xOwn c).toLoadRect (xstg m c)))
    (rv m c 0) (rv m c 1)) (rv m c 2)

def sPts (c : Dev nD) (j : Fin 3) (f : Buf (Elt F) ((sSlot j).view.loc (c : Thread nD τ))) : sProp 𝕄 :=
  (sSlot j).view.loc (c : Thread nD τ) ↦[(sSlot j).view.set]{fullShare} f
def rPts (c : Dev nD) (j : Fin 3) (f : Buf (Elt F) ((rSlot j).view.loc (c : Thread nD τ))) : sProp 𝕄 :=
  (rSlot j).view.loc (c : Thread nD τ) ↦[(rSlot j).view.set]{fullShare} f

omit [FloatOps F] in
instance sPts_storable (c : Dev nD) (j : Fin 3) (f) : BI.Storable (upEmb : UEmb _ 𝕄) (sPts (F := F) c j f) := by unfold sPts; infer_instance
omit [FloatOps F] in
instance rPts_storable (c : Dev nD) (j : Fin 3) (f) : BI.Storable (upEmb : UEmb _ 𝕄) (rPts (F := F) c j f) := by unfold rPts; infer_instance

/-! ## The schedule -/

/-- Duty k of p's barrier cell: the receive slot of the device c' = peer (rev k) p into which p copies, and that the
    receive cell of that slot has reached round 0. -/
def barPay (p : Dev nD) (k : Fin 3) : sProp 𝕄 :=
  iprop((∃ f, rPts (peer (rev k) p) (rev k) f) ∗ reached ER (recvCell (peer (rev k) p) (rev k)) 0)
/-- The receive slot j of c, a load of which reads what its sender stored. -/
def recvPay (c : Dev nD) (j : Fin 3) : sProp 𝕄 :=
  iprop(∃ f, rPts c j f ∗ ⌜(rB : Memref sig .tc .vmem S3x256x256 .bf16).view.readAt (Elt F) (slotR j).toLoadRect f = rv m c j⌝)
/-- The send slot j of c back. -/
def sendPay (c : Dev nD) (j : Fin 3) : sProp 𝕄 := iprop(∃ f, sPts c j f)

theorem q_lt_s {q : DmaSem sig} (h : ¬ 5 ≤ q.val) (h2 : 2 ≤ q.val) : q.val - 2 < 3 := by omega
theorem q_lt_r {q : DmaSem sig} (h : 5 ≤ q.val) : q.val - 5 < 3 := by have : q.val < 8 := q.isLt; omega

def rsRd : Rounds.Schedule (GSem nD τ sig) (Fin 3) 𝕄 where
  duties g r := if r = 0 ∧ g.1.2 = .tc then (match g.2 with | .reg _ => Finset.univ | .dma q => if 2 ≤ q.val then {0} else ∅) else ∅
  unitless _ := False
  amount g _ _ := match g.2 with | .reg _ => 1 | .dma _ => N
  payload g _ d := match g.2 with
    | .reg _ => barPay g.1.1 d
    | .dma q => if h : 5 ≤ q.val then recvPay m g.1.1 ⟨q.val - 5, q_lt_r h⟩
        else if h2 : 2 ≤ q.val then sendPay g.1.1 ⟨q.val - 2, q_lt_s h h2⟩ else iprop(emp)
  amount_pos g _ _ _ := by
    cases g.2 with
    | reg _ => exact Nat.one_pos
    | dma _ => exact N_pos

instance rsRd_payload_storable (g : GSem nD τ sig) (r : ℕ) (d : Fin 3) :
    BI.Storable (upEmb : UEmb _ 𝕄) ((rsRd (F := F) m).payload g r d) := by
  obtain ⟨t, s⟩ := g
  cases s with
  | reg s => show BI.Storable upEmb (barPay t.1 d); unfold barPay; infer_instance
  | dma q =>
    show BI.Storable upEmb (if h : 5 ≤ q.val then recvPay m t.1 ⟨q.val - 5, q_lt_r h⟩
        else if h2 : 2 ≤ q.val then sendPay t.1 ⟨q.val - 2, q_lt_s h h2⟩ else iprop(emp))
    unfold recvPay sendPay
    (repeat' split) <;> infer_instance

section Sched
variable (c : Dev nD) (j : Fin 3)

theorem duties_bar : (rsRd (F := F) m).duties (barCell c) 0 = Finset.univ := by dsimp only [rsRd]; exact if_pos ⟨rfl, rfl⟩
theorem duties_send : (rsRd (F := F) m).duties (sendCell c j) 0 = {0} := by
  dsimp only [rsRd]; rw [if_pos ⟨rfl, rfl⟩]; exact if_pos (Nat.le_add_left _ _)
theorem duties_recv : (rsRd (F := F) m).duties (recvCell c j) 0 = {0} := by
  dsimp only [rsRd]; rw [if_pos ⟨rfl, rfl⟩]; exact if_pos (by show 2 ≤ j.val + 5; omega)
theorem duties_later (g : GSem nD τ sig) : ∀ r, 1 ≤ r → (rsRd (F := F) m).duties g r = ∅ :=
  fun r hr => by dsimp only [rsRd]; rw [if_neg fun h => by omega]

theorem amount_bar (d : Fin 3) : (rsRd (F := F) m).amount (barCell c) 0 d = 1 := rfl
theorem amount_send (d : Fin 3) : (rsRd (F := F) m).amount (sendCell c j) 0 d = N := rfl
theorem amount_recv (d : Fin 3) : (rsRd (F := F) m).amount (recvCell c j) 0 d = N := rfl

theorem expect_bar : (rsRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (rsRd (F := F) m).expect (sendCell c j) 0 = N := by
  unfold Schedule.expect Schedule.amountOf; rw [duties_send, Finset.sum_singleton, amount_send]
theorem expect_recv : (rsRd (F := F) m).expect (recvCell c j) 0 = N := by
  unfold Schedule.expect Schedule.amountOf; rw [duties_recv, Finset.sum_singleton, amount_recv]

theorem payload_bar (k : Fin 3) : (rsRd (F := F) m).payload (barCell c) 0 k = barPay c k := rfl
theorem payload_send (d : Fin 3) : (rsRd (F := F) m).payload (sendCell c j) 0 d = sendPay c j := by
  dsimp only [rsRd]
  rw [dif_neg (by show ¬ 5 ≤ j.val + 2; omega), dif_pos (by show 2 ≤ j.val + 2; omega)]
  rfl
theorem payload_recv (d : Fin 3) : (rsRd (F := F) m).payload (recvCell c j) 0 d = recvPay m c j := by
  dsimp only [rsRd]
  rw [dif_pos (by show 5 ≤ j.val + 5; omega)]
  rfl

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The whole round of the barrier cell: the three payloads. -/
theorem rest_bar : bigSep ((rsRd (F := F) m).duties (barCell c) 0 \ ∅) (fun d => (rsRd (F := F) m).payload (barCell c) 0 d)
    = iprop(barPay c 0 ∗ barPay c 1 ∗ barPay c 2) := by
  rw [Finset.sdiff_empty, duties_bar, bigSep_fin3]; rfl
theorem rest_send : bigSep ((rsRd (F := F) m).duties (sendCell c j) 0 \ ∅) (fun d => (rsRd (F := F) m).payload (sendCell c j) 0 d) = sendPay c j := by
  rw [Finset.sdiff_empty, duties_send, bigSep_singleton, payload_send]
theorem rest_recv : bigSep ((rsRd (F := F) m).duties (recvCell c j) 0 \ ∅) (fun d => (rsRd (F := F) m).payload (recvCell c j) 0 d) = recvPay m c j := by
  rw [Finset.sdiff_empty, duties_recv, bigSep_singleton, payload_recv]

end Sched

end Cert.KernelIdeal.RS

end
-- ==== Proof.KernelIdealData.lean ====
/-
  The proof data of the reduce-scatter: what each device owes at launch, the levels of the cells, the ghost state a
  device's body starts from, and the body's pre- and postcondition.

  Device c owes one unit to the barrier cell of each of its three peers and one slot's credit to the j-th receive
  cell of its j-th peer. Barrier cells sit at level 1, receive cells at level 2, everything else at level 0: a device
  waits on its barrier while it still owes receive credits, and on its receive cells only once it owes nothing.
-/
import proofs.«900474_g7700000000000475_dist_rs_v7x_xyz2x4x4_y_m256_n256_bf16_1_alg».proof.Proof.KernelIdealSched

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven cells of a device, indexed -/

/-- 0: the barrier; 1, 2, 3: the send cells; 4, 5, 6: the receive cells. -/
abbrev csem : Fin 7 → SemLoc sig := fun k => match k with
  | ⟨0, _⟩ => .reg barS
  | ⟨n + 1, h⟩ => .dma ⟨n + 2, by show n + 2 < 8; omega⟩
abbrev kcell (ck : Dev nD × Fin 7) : GSem nD τ sig := ((ck.1 : Thread nD τ), csem ck.2)
abbrev sIdx (j : Fin 3) : Fin 7 := ⟨j.val + 1, by omega⟩
abbrev rIdx (j : Fin 3) : Fin 7 := ⟨j.val + 4, by omega⟩

/-! ## What each device owes at launch, summed in the order it pays -/

def O6 (c : Dev nD) : CellTallies nD τ sig Unit := tallyAt (recvCell (peer 2 c) 2) () N
def O5 (c : Dev nD) : CellTallies nD τ sig Unit := O6 c + tallyAt (recvCell (peer 1 c) 1) () N
def O4 (c : Dev nD) : CellTallies nD τ sig Unit := O5 c + tallyAt (recvCell (peer 0 c) 0) () N
def O3 (c : Dev nD) : CellTallies nD τ sig Unit := O4 c + tallyAt (barCell (peer 2 c)) () 1
def O2 (c : Dev nD) : CellTallies nD τ sig Unit := O3 c + tallyAt (barCell (peer 1 c)) () 1
def O₀ (c : Dev nD) : CellTallies nD τ sig Unit := O2 c + tallyAt (barCell (peer 0 c)) () 1

def L (g : GSem nD τ sig) : Finset Unit := if g.1.2 = .tc then {()} else ∅
/-- Barrier cells at 1, receive cells at 2, the rest (staging, send) at 0. -/
def lv (g : GSem nD τ sig) (_ : Unit) : ℕ := match g.2 with | .reg _ => 1 | .dma q => if 5 ≤ q.val then 2 else 0

/-! ## The ghost state a device starts from -/

/-- The cell invariants device c's body opens: its own seven, its peers' barrier cells, its peers' receive cells. -/
def invs (K : Dev nD × Fin 7 → ℕ) (c : Dev nD) : sProp 𝕄 :=
  iprop(cellInv ER (rsRd m) (K (c, 0)) (barCell c)
    ∗ (bigSep Finset.univ fun j : Fin 3 => cellInv ER (rsRd m) (K (c, sIdx j)) (sendCell c j))
    ∗ (bigSep Finset.univ fun j : Fin 3 => cellInv ER (rsRd m) (K (c, rIdx j)) (recvCell c j))
    ∗ (bigSep Finset.univ fun j : Fin 3 => cellInv ER (rsRd m) (K (peer j c, 0)) (barCell (peer j c)))
    ∗ (bigSep Finset.univ fun j : Fin 3 => cellInv ER (rsRd m) (K (peer j c, rIdx j)) (recvCell (peer j c) j)))

instance invs_persistent (K : Dev nD × Fin 7 → ℕ) (c : Dev nD) : BI.Persistent (invs m K c) := by unfold invs; infer_instance

/-- What is known reached: round 0 of the cells c pays and of its own send and receive cells. -/
def marks (c : Dev nD) : sProp 𝕄 :=
  iprop((bigSep Finset.univ fun j : Fin 3 => reached ER (barCell (peer j c)) 0)
    ∗ (bigSep Finset.univ fun j : Fin 3 => reached ER (recvCell (peer j c) j) 0)
    ∗ (bigSep Finset.univ fun j : Fin 3 => reached ER (sendCell c j) 0)
    ∗ (bigSep Finset.univ fun j : Fin 3 => reached ER (recvCell c j) 0))

omit [FloatOps F] in
instance marks_persistent (c : Dev nD) : BI.Persistent (marks (F := F) c) := by unfold marks; infer_instance

/-- The positions of c on its own seven cells. -/
def posns (c : Dev nD) : sProp 𝕄 :=
  iprop(atPos ER (barCell c) 0 ∅ 0
    ∗ (bigSep Finset.univ fun j : Fin 3 => atPos ER (sendCell c j) 0 ∅ 0)
    ∗ (bigSep Finset.univ fun j : Fin 3 => atPos ER (recvCell c j) 0 ∅ 0))

/-- The tokens of the duties c pays: duty j of its j-th peer's barrier cell, the duty of its j-th peer's j-th
    receive cell, the duty of its own j-th send cell. -/
def payToks (c : Dev nD) : sProp 𝕄 :=
  iprop((bigSep Finset.univ fun j : Fin 3 => dutyTok ER (barCell (peer j c)) 0 j)
    ∗ (bigSep Finset.univ fun j : Fin 3 => dutyTok ER (recvCell (peer j c) j) 0 0)
    ∗ (bigSep Finset.univ fun j : Fin 3 => dutyTok ER (sendCell c j) 0 0))

def ghost (K : Dev nD × Fin 7 → ℕ) (c : Dev nD) : sProp 𝕄 :=
  iprop(invs m K c ∗ marks c ∗ posns c ∗ payToks c)

/-- What device c's body starts from: the ghost state at some names, the credit tokens for what the others owe its
    barrier cell (three units) and its three receive cells (a slot's credit each), and the level facts. -/
def start (c : Dev nD) : sProp 𝕄 :=
  iprop((∃ K, ghost m K c) ∗ cred (tallyAt (barCell c) () 3)
    ∗ (bigSep Finset.univ fun j : Fin 3 => cred (tallyAt (recvCell c j) () N)) ∗ levAts L lv)

/-- Before the point: that, and the two scratch buffers at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two scratch buffers at some contents and the six own DMA cells at zero, closed. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun j : Fin 3 => semVal (sendCell c j) 0)
    ∗ (bigSep Finset.univ fun j : Fin 3 => semVal (recvCell c j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.KernelIdeal.RS

end
-- ==== Proof.KernelIdealBody.lean ====
/-
  The body of the reduce-scatter on one device, stepped from the device's ghost state: three signals to the peers'
  barrier cells (each handing over one slot of the own receive buffer), the three blocks stored into the send buffer,
  the wait for the three peers' signals (each bringing the slot to copy into), the three copies, the own block
  loaded, then per slot the wait for the landing and the load of what landed, the sum stored, and the three waits
  for the copies' departures. What the geometry of the two scratch buffers provides is taken as hypotheses (Geom).
-/
import proofs.«900474_g7700000000000475_dist_rs_v7x_xyz2x4x4_y_m256_n256_bf16_1_alg».proof.Proof.KernelIdealData

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What the body needs of the two scratch buffers' geometry: a whole buffer is its three slots, a load of slot j
    stays inside slot j, and a load of a slot after a copy has landed there reads what the sender stored. -/
structure Geom (m : (ℓ : Loc nD τ sig) → Buf (Elt F) ℓ) : Prop where
  sB_split : ∀ (c : Dev nD) (f : Buf (Elt F) ((c : Thread nD τ).loc cc0_scratch0)),
    ((((c : Thread nD τ).loc cc0_scratch0) ↦{fullShare} f) : sProp 𝕄) ⊢ iprop(sPts c 0 f ∗ sPts c 1 f ∗ sPts c 2 f)
  sB_join : ∀ (c : Dev nD) (f0 f1 f2 : Buf (Elt F) ((c : Thread nD τ).loc cc0_scratch0)),
    iprop(sPts c 0 f0 ∗ sPts c 1 f1 ∗ sPts c 2 f2) ⊢ (∃ f : Buf (Elt F) ((c : Thread nD τ).loc cc0_scratch0), (((c : Thread nD τ).loc cc0_scratch0) ↦{fullShare} f) : sProp 𝕄)
  rB_split : ∀ (c : Dev nD) (f : Buf (Elt F) ((c : Thread nD τ).loc cc0_scratch1)),
    ((((c : Thread nD τ).loc cc0_scratch1) ↦{fullShare} f) : sProp 𝕄) ⊢ iprop(rPts c 0 f ∗ rPts c 1 f ∗ rPts c 2 f)
  rB_join : ∀ (c : Dev nD) (f0 f1 f2 : Buf (Elt F) ((c : Thread nD τ).loc cc0_scratch1)),
    iprop(rPts c 0 f0 ∗ rPts c 1 f1 ∗ rPts c 2 f2) ⊢ (∃ f : Buf (Elt F) ((c : Thread nD τ).loc cc0_scratch1), (((c : Thread nD τ).loc cc0_scratch1) ↦{fullShare} f) : sProp 𝕄)
  load_sub : ∀ j : Fin 3, (rB : Memref sig .tc .vmem S3x256x256 .bf16).view.setOn (slotR j).toLoadRect.set ⊆ (rSlot j).view.set
  landed_read : ∀ (j : Fin 3) (c : Dev nD) (f0 : Buf (Elt F) ((c : Thread nD τ).loc cc0_scratch0))
    (fd : Buf (Elt F) ((rSlot j).view.loc ((peer j c : Dev nD) : Thread nD τ))),
    (rB : Memref sig .tc .vmem S3x256x256 .bf16).view.readAt (Elt F) (slotR j).toLoadRect
      ((rSlot j).view.write (Elt F) fd ((sSlot j).view.read (Elt F) (sendBuf m c f0)) Finset.univ) = sv m c j

variable (m : (ℓ : Loc nD τ sig) → Buf (Elt F) ℓ)

/-! ## Waiting on the barrier while the three receive credits are still owed -/

theorem L_tc (c : Dev nD) (sm : SemLoc sig) : L ((c : Thread nD τ), sm) = {()} := if_pos rfl

theorem O4_pos {c : Dev nD} {g : GSem nD τ sig} {u : Unit} (h : 0 < O4 c g u) :
    g = recvCell (peer 2 c) 2 ∨ g = recvCell (peer 1 c) 1 ∨ g = recvCell (peer 0 c) 0 := by
  unfold O4 O5 O6 at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

omit [FloatOps F] in
/-- At its barrier wait a device owes its peers' receive cells only, and those sit above the barrier cells. -/
theorem mayWait_bar (c : Dev nD) :
    (levAts L lv : sProp 𝕄) ⊢ MayWait (c : Thread nD τ) (.reg barS) () (O4 c) :=
  MayOwe.of_cut (L := L) (lev := lv) 1 (fun p hp => by rw [Finset.mem_singleton.mp hp, L_tc]; exact Finset.mem_singleton_self _)
    (fun g u hg => by rcases O4_pos hg with rfl | rfl | rfl <;> (rw [L_tc]; exact Finset.mem_singleton_self _))
    (fun p hp => by rw [Finset.mem_singleton.mp hp]; exact le_refl _)
    (fun g u hg => by rcases O4_pos hg with rfl | rfl | rfl <;> exact (by decide : (1 : ℕ) < 2))

/-! ## The j-th copy -/

/-- The copy of send slot j of c into receive slot j of its j-th peer n: it pays the duty of c's j-th send cell with
    the send slot and the duty of n's j-th receive cell with the receive slot as written. -/
theorem wp_send_rs (hg : Geom m) (K : Dev nD × Fin 7 → ℕ) (j : Fin 3) (c n : Dev nD) (hn : n = peer j c)
    {hsc : (rSlot j : Memref sig (Dev.tc n : Thread nD τ).2.kind .vmem S256x256 .bf16).view.ref.isScScratch = false}
    {hsrc : (sSlot j : Memref sig .tc .vmem S256x256 .bf16).view.WordExact} {hdst : (rSlot j : Memref sig .tc .vmem S256x256 .bf16).view.WordExact}
    {hsem : DmaTarget.Typed .vmem (.dma (rSem j)) (.remote (Dev.tc n : Thread nD τ) (rSlot j : Memref sig .tc .vmem S256x256 .bf16) (.dma (sSem j)) hsc)}
    {α : Type} {Q : α → sProp 𝕄} {k : PUnit → Prog (TpuEff nD τ sig (Elt F) Λ₀ .tc) α}
    (f0 : Buf (Elt F) ((c : Thread nD τ).loc cc0_scratch0)) (fn : Buf (Elt F) ((rSlot j).view.loc ((peer j c : Dev nD) : Thread nD τ)))
    (O : CellTallies nD τ sig Unit) (W : Waits sig Unit) :
    iprop(cellInv ER (rsRd m) (K (c, sIdx j)) (sendCell c j) ∗ cellInv ER (rsRd m) (K (peer j c, rIdx j)) (recvCell (peer j c) j)
        ∗ sPts c j (sendBuf m c f0) ∗ rPts (peer j c) j fn
        ∗ owes (c : Thread nD τ) (O + tallyAt (recvCell (peer j c) j) () N) W
        ∗ dutyTok ER (sendCell c j) 0 0 ∗ reached ER (sendCell c j) 0
        ∗ dutyTok ER (recvCell (peer j c) j) 0 0 ∗ reached ER (recvCell (peer j c) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot j) (.remote (Dev.tc n : Thread nD τ) (rSlot j) (.dma (sSem j)) hsc) (.dma (rSem j)) hsrc hdst hsem) k) Q) := by
  subst hn
  unfold sPts rPts
  exact Rounds.wp_send_pointsTo 𝒱₀ ER (rsRd m) (c : Thread nD τ) none (κ₁ := K (c, sIdx j)) (κ₂ := K (peer j c, rIdx j))
    (r₁ := 0) (r₂ := 0) (d₁ := 0) (d₂ := 0) (fd := fn) (sS := .dma (sSem j)) (sem := .dma (rSem j))
    (src := sSlot j) (dst := rSlot j) (c' := ((peer j c : Dev nD) : Thread nD τ)) (q := fullShare) (fs := sendBuf m c f0)
    (by rw [duties_send]; exact Finset.mem_singleton_self _) (by rw [duties_recv]; exact Finset.mem_singleton_self _)
    () () N (credit_r j) (amount_send m c j 0) (amount_recv m (peer j c) j 0) O rfl (W := W)
    (by rw [payload_send]; unfold sendPay sPts; iintro H; iexists _; iexact H)
    (by
      rw [payload_recv]; unfold recvPay rPts rv; rw [peer_rev]
      iintro H; iexists _
      isplitl; · iexact H
      ipureintro; exact hg.landed_read j c f0 fn)

/-! ## The result's store -/

abbrev rOut : Rect S256x256 := Rect.unit (s := S256x256) ![0, 0] S256x256.size inb_S256x256_S256x256_0_0

omit [FloatOps F] in
theorem hz2 : (![0, 0] : Fin 2 → Nat) = fun _ => 0 := funext fun a => by fin_cases a <;> rfl
omit [FloatOps F] in
theorem write_out (f w : (cc0_stg1_0 : Ref sig .tc).ty.Contents (Elt F)) :
    ((oM : Memref sig .tc .vmem S256x256 .f32).access rOut : View sig .tc _ _ _).write (Elt F) f w Finset.univ = w :=
  Memref.write_access_unit_zero_univ (Elt F) cc0_stg1_0 hz2 _ f w

/-! ## The body -/

set_option maxHeartbeats 1600000 in
/-- The body, stepped from `bodyPre`, one rule per effect in program order, to `bodyPost`. -/
theorem sound_body (hg : Geom m) (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre Φ₀ start ghost invs marks posns payToks
  simp only [bigSep_fin3]
  iintro ⟨⟨⟨⟨⟨%K, ⟨#HIb, ⟨#HIs0, #HIs1, #HIs2⟩, ⟨#HIr0, #HIr1, #HIr2⟩, ⟨#HIbp0, #HIbp1, #HIbp2⟩, #HIrp0, #HIrp1, #HIrp2⟩,
      ⟨⟨#Hrb0, #Hrb1, #Hrb2⟩, ⟨#Hrr0, #Hrr1, #Hrr2⟩, ⟨#Hrs0, #Hrs1, #Hrs2⟩, #Hro0, #Hro1, #Hro2⟩,
      ⟨HatB, ⟨HatS0, HatS1, HatS2⟩, HatR0, HatR1, HatR2⟩,
      ⟨HtB0, HtB1, HtB2⟩, ⟨HtR0, HtR1, HtR2⟩, HtS0, HtS1, HtS2⟩, HcB, ⟨HcR0, HcR1, HcR2⟩, #Hlev⟩, ⟨%fs0, Hs⟩, ⟨%fr0, Hr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c, dev2_eq c, dev3_eq c]
  -- the receive buffer by slots: each signal hands one over
  ihave Hr3 := (hg.rB_split c fr0) $$ Hr
  icases Hr3 with ⟨Hr0, Hr1, Hr2⟩
  -- the signal to the barrier of peer 0: its duty 0, handing over receive slot 2 and that its cell is at round 0
  iapply (Rounds.wp_signal 𝒱₀ ER (rsRd m) (c : Thread nD τ) none (dst := ((peer 0 c : Dev nD) : Thread nD τ)) (κ := K (peer 0 c, 0))
      (d := (0 : Fin 3)) (by rw [duties_bar]; exact Finset.mem_univ _) ((amount_bar m (peer 0 c) 0).trans (by decide)) () (O2 c) rfl)
    $$ [HO HtB0 Hr2]
  · isplitr; · iexact HIbp0
    isplitl [HO]; · iexact HO
    isplitl [HtB0]; · iexact HtB0
    isplitl [Hr2]
    · rw [payload_bar]; unfold barPay; rw [peer_rev]
      isplitl [Hr2]; · iexists fr0; iexact Hr2
      iexact Hro2
    · iexact Hrb0
  iintro HO
  -- the signal to the barrier of peer 1: its duty 1, handing over receive slot 1 and that its cell is at round 0
  iapply (Rounds.wp_signal 𝒱₀ ER (rsRd m) (c : Thread nD τ) none (dst := ((peer 1 c : Dev nD) : Thread nD τ)) (κ := K (peer 1 c, 0))
      (d := (1 : Fin 3)) (by rw [duties_bar]; exact Finset.mem_univ _) ((amount_bar m (peer 1 c) 1).trans (by decide)) () (O3 c) rfl)
    $$ [HO HtB1 Hr1]
  · isplitr; · iexact HIbp1
    isplitl [HO]; · iexact HO
    isplitl [HtB1]; · iexact HtB1
    isplitl [Hr1]
    · rw [payload_bar]; unfold barPay; rw [peer_rev]
      isplitl [Hr1]; · iexists fr0; iexact Hr1
      iexact Hro1
    · iexact Hrb1
  iintro HO
  -- the signal to the barrier of peer 2: its duty 2, handing over receive slot 0 and that its cell is at round 0
  iapply (Rounds.wp_signal 𝒱₀ ER (rsRd m) (c : Thread nD τ) none (dst := ((peer 2 c : Dev nD) : Thread nD τ)) (κ := K (peer 2 c, 0))
      (d := (2 : Fin 3)) (by rw [duties_bar]; exact Finset.mem_univ _) ((amount_bar m (peer 2 c) 2).trans (by decide)) () (O4 c) rfl)
    $$ [HO HtB2 Hr0]
  · isplitr; · iexact HIbp2
    isplitl [HO]; · iexact HO
    isplitl [HtB2]; · iexact HtB2
    isplitl [Hr0]
    · rw [payload_bar]; unfold barPay; rw [peer_rev]
      isplitl [Hr0]; · iexists fr0; iexact Hr0
      iexact Hro0
    · iexact Hrb2
  iintro HO
  -- the block for peer 0: loaded from x, stored into send slot 0
  iapply (wp_load 𝒱₀ (c : Thread nD τ) none Set.univ (m := xM) (Finset.subset_univ _)) $$ Hx; iintro Hx
  iapply (wp_load 𝒱₀ (c : Thread nD τ) none Set.univ (m := sB) (Finset.subset_univ _)) $$ Hs; iintro Hs
  iapply (wp_store 𝒱₀ (c : Thread nD τ) none Set.univ (m := sB) (r := slotR 0) (Mk := Finset.univ) (Finset.subset_univ _)) $$ Hs; iintro Hs
  -- the block for peer 1: loaded from x, stored into send slot 1
  iapply (wp_load 𝒱₀ (c : Thread nD τ) none Set.univ (m := xM) (Finset.subset_univ _)) $$ Hx; iintro Hx
  iapply (wp_load 𝒱₀ (c : Thread nD τ) none Set.univ (m := sB) (Finset.subset_univ _)) $$ Hs; iintro Hs
  iapply (wp_store 𝒱₀ (c : Thread nD τ) none Set.univ (m := sB) (r := slotR 1) (Mk := Finset.univ) (Finset.subset_univ _)) $$ Hs; iintro Hs
  -- the block for peer 2: loaded from x, stored into send slot 2
  iapply (wp_load 𝒱₀ (c : Thread nD τ) none Set.univ (m := xM) (Finset.subset_univ _)) $$ Hx; iintro Hx
  iapply (wp_load 𝒱₀ (c : Thread nD τ) none Set.univ (m := sB) (Finset.subset_univ _)) $$ Hs; iintro Hs
  iapply (wp_store 𝒱₀ (c : Thread nD τ) none Set.univ (m := sB) (r := slotR 2) (Mk := Finset.univ) (Finset.subset_univ _)) $$ Hs; iintro Hs
  -- the wait for the three peers' signals, owing the three receive credits: the three slots to copy into come with it
  iapply (Rounds.wp_wait_rest_token 𝒱₀ ER (rsRd m) (c : Thread nD τ) none (κ := K (c, 0))
      (wpE_semWait_eq 𝒱₀ (c : Thread nD τ) none Set.univ) (Set.mem_univ _) () (O := O4 c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨⟨%fn2, Hd2⟩, #Hq2⟩, ⟨⟨%fn1, Hd1⟩, #Hq1⟩, ⟨%fn0, Hd0⟩, #Hq0⟩
  -- the send buffer by slots
  ihave Hs' : iprop((((c : Thread nD τ).loc cc0_scratch0) ↦{fullShare} sendBuf m c fs0)) $$ [Hs]; · iexact Hs
  ihave Hs3 := (hg.sB_split c (sendBuf m c fs0)) $$ Hs'
  icases Hs3 with ⟨Hs0, Hs1, Hs2⟩
  -- the copy of send slot 0 into receive slot 0 of peer 0
  iapply (wp_send_rs m hg K 0 c _ (dev4_eq c) fs0 fn0 (O5 c) (insert (SemLoc.reg barS, ()) W)) $$ [Hs0 Hd0 HO HtS0 HtR0]
  · isplitr; · iexact HIs0
    isplitr; · iexact HIrp0
    isplitl [Hs0]; · iexact Hs0
    isplitl [Hd0]; · iexact Hd0
    isplitl [HO]; · iexact HO
    isplitl [HtS0]; · iexact HtS0
    isplitr; · iexact Hrs0
    isplitl [HtR0]; · iexact HtR0
    iexact Hrr0
  iintro ⟨HcS0, HO⟩
  -- the copy of send slot 1 into receive slot 1 of peer 1
  iapply (wp_send_rs m hg K 1 c _ (dev5_eq c) fs0 fn1 (O6 c) (insert (SemLoc.reg barS, ()) W)) $$ [Hs1 Hd1 HO HtS1 HtR1]
  · isplitr; · iexact HIs1
    isplitr; · iexact HIrp1
    isplitl [Hs1]; · iexact Hs1
    isplitl [Hd1]; · iexact Hd1
    isplitl [HO]; · iexact HO
    isplitl [HtS1]; · iexact HtS1
    isplitr; · iexact Hrs1
    isplitl [HtR1]; · iexact HtR1
    iexact Hrr1
  iintro ⟨HcS1, HO⟩
  -- the copy of send slot 2 into receive slot 2 of peer 2
  iapply (wp_send_rs m hg K 2 c _ (dev6_eq c) fs0 fn2 (0) (insert (SemLoc.reg barS, ()) W)) $$ [Hs2 Hd2 HO HtS2 HtR2]
  · isplitr; · iexact HIs2
    isplitr; · iexact HIrp2
    isplitl [Hs2]; · iexact Hs2
    isplitl [Hd2]; · iexact Hd2
    isplitl [HO]; · rw [zero_add]; iexact HO
    isplitl [HtS2]; · iexact HtS2
    isplitr; · iexact Hrs2
    isplitl [HtR2]; · iexact HtR2
    iexact Hrr2
  iintro ⟨HcS2, HO⟩
  -- the own block of x
  iapply (wp_load 𝒱₀ (c : Thread nD τ) none Set.univ (m := xM) (Finset.subset_univ _)) $$ Hx; iintro Hx
  -- the wait for the landing in receive slot 0, and the load of what landed
  iapply (Rounds.wp_wait_rest_token 𝒱₀ ER (rsRd m) (c : Thread nD τ) none (κ := K (c, rIdx 0)) (sm := .dma (rSem 0))
      (wpE_waitDma2_eq 𝒱₀ (c : Thread nD τ) none Set.univ) (Set.mem_univ _) () (O := 0) (W := (insert (SemLoc.reg barS, ()) W)) (R := 0) (m := 0) (T := ∅)
      (by rw [Nat.zero_add]; exact (credit_r 0).trans (expect_recv m c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hp := (Entails.of_eq (rest_recv m c 0)) $$ Hpay
  unfold recvPay
  icases Hp with ⟨%fl0, Hl0, %hl0⟩
  unfold rPts
  iapply (wp_load 𝒱₀ (c : Thread nD τ) none Set.univ (m := rB) (r := (slotR 0).toLoadRect) (hg.load_sub 0)) $$ Hl0; iintro Hl0
  rw [hl0]
  -- the wait for the landing in receive slot 1, and the load of what landed
  iapply (Rounds.wp_wait_rest_token 𝒱₀ ER (rsRd m) (c : Thread nD τ) none (κ := K (c, rIdx 1)) (sm := .dma (rSem 1))
      (wpE_waitDma2_eq 𝒱₀ (c : Thread nD τ) none Set.univ) (Set.mem_univ _) () (O := 0) (W := (insert (SemLoc.dma (rSem 0), ()) (insert (SemLoc.reg barS, ()) W))) (R := 0) (m := 0) (T := ∅)
      (by rw [Nat.zero_add]; exact (credit_r 1).trans (expect_recv m c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hp := (Entails.of_eq (rest_recv m c 1)) $$ Hpay
  unfold recvPay
  icases Hp with ⟨%fl1, Hl1, %hl1⟩
  unfold rPts
  iapply (wp_load 𝒱₀ (c : Thread nD τ) none Set.univ (m := rB) (r := (slotR 1).toLoadRect) (hg.load_sub 1)) $$ Hl1; iintro Hl1
  rw [hl1]
  -- the wait for the landing in receive slot 2, and the load of what landed
  iapply (Rounds.wp_wait_rest_token 𝒱₀ ER (rsRd m) (c : Thread nD τ) none (κ := K (c, rIdx 2)) (sm := .dma (rSem 2))
      (wpE_waitDma2_eq 𝒱₀ (c : Thread nD τ) none Set.univ) (Set.mem_univ _) () (O := 0) (W := (insert (SemLoc.dma (rSem 1), ()) (insert (SemLoc.dma (rSem 0), ()) (insert (SemLoc.reg barS, ()) W)))) (R := 0) (m := 0) (T := ∅)
      (by rw [Nat.zero_add]; exact (credit_r 2).trans (expect_recv m c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hp := (Entails.of_eq (rest_recv m c 2)) $$ Hpay
  unfold recvPay
  icases Hp with ⟨%fl2, Hl2, %hl2⟩
  unfold rPts
  iapply (wp_load 𝒱₀ (c : Thread nD τ) none Set.univ (m := rB) (r := (slotR 2).toLoadRect) (hg.load_sub 2)) $$ Hl2; iintro Hl2
  rw [hl2]
  -- the result stored
  iapply (wp_load 𝒱₀ (c : Thread nD τ) none Set.univ (m := oM) (Finset.subset_univ _)) $$ Hout; iintro Hout
  iapply (wp_store 𝒱₀ (c : Thread nD τ) none Set.univ (m := oM) (r := rOut) (Mk := Finset.univ) (Finset.subset_univ _)) $$ Hout; iintro Hout
  rw [write_out]
  -- the wait for the departure of copy 0: send slot 0 back
  iapply (Rounds.wp_wait_rest_token 𝒱₀ ER (rsRd m) (c : Thread nD τ) none (κ := K (c, sIdx 0)) (sm := .dma (sSem 0))
      (wpE_waitDma2_eq 𝒱₀ (c : Thread nD τ) none Set.univ) (Set.mem_univ _) () (O := 0) (W := (insert (SemLoc.dma (rSem 2), ()) (insert (SemLoc.dma (rSem 1), ()) (insert (SemLoc.dma (rSem 0), ()) (insert (SemLoc.reg barS, ()) W))))) (R := 0) (m := 0) (T := ∅)
      (by rw [Nat.zero_add]; exact (credit_s 0).trans (expect_send m c 0).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hp := (Entails.of_eq (rest_send m c 0)) $$ Hpay
  unfold sendPay
  icases Hp with ⟨%fb0, Hb0⟩
  -- the wait for the departure of copy 1: send slot 1 back
  iapply (Rounds.wp_wait_rest_token 𝒱₀ ER (rsRd m) (c : Thread nD τ) none (κ := K (c, sIdx 1)) (sm := .dma (sSem 1))
      (wpE_waitDma2_eq 𝒱₀ (c : Thread nD τ) none Set.univ) (Set.mem_univ _) () (O := 0) (W := (insert (SemLoc.dma (sSem 0), ()) (insert (SemLoc.dma (rSem 2), ()) (insert (SemLoc.dma (rSem 1), ()) (insert (SemLoc.dma (rSem 0), ()) (insert (SemLoc.reg barS, ()) W)))))) (R := 0) (m := 0) (T := ∅)
      (by rw [Nat.zero_add]; exact (credit_s 1).trans (expect_send m c 1).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hp := (Entails.of_eq (rest_send m c 1)) $$ Hpay
  unfold sendPay
  icases Hp with ⟨%fb1, Hb1⟩
  -- the wait for the departure of copy 2: send slot 2 back
  iapply (Rounds.wp_wait_rest_token 𝒱₀ ER (rsRd m) (c : Thread nD τ) none (κ := K (c, sIdx 2)) (sm := .dma (sSem 2))
      (wpE_waitDma2_eq 𝒱₀ (c : Thread nD τ) none Set.univ) (Set.mem_univ _) () (O := 0) (W := (insert (SemLoc.dma (sSem 1), ()) (insert (SemLoc.dma (sSem 0), ()) (insert (SemLoc.dma (rSem 2), ()) (insert (SemLoc.dma (rSem 1), ()) (insert (SemLoc.dma (rSem 0), ()) (insert (SemLoc.reg barS, ()) W))))))) (R := 0) (m := 0) (T := ∅)
      (by rw [Nat.zero_add]; exact (credit_s 2).trans (expect_send m c 2).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hp := (Entails.of_eq (rest_send m c 2)) $$ Hpay
  unfold sendPay
  icases Hp with ⟨%fb2, Hb2⟩
  -- the six own cells close: their counters at zero are the core's again
  imod (Rounds.cell_close ER (rsRd m) (Set.mem_univ (K (c, sIdx 0))) (fun h => h) (R := 0 + 1) (duties_later m (sendCell c 0))) $$ [HatS0] with HzS0
  · isplitr; · iexact HIs0
    iexact HatS0
  imod (Rounds.cell_close ER (rsRd m) (Set.mem_univ (K (c, sIdx 1))) (fun h => h) (R := 0 + 1) (duties_later m (sendCell c 1))) $$ [HatS1] with HzS1
  · isplitr; · iexact HIs1
    iexact HatS1
  imod (Rounds.cell_close ER (rsRd m) (Set.mem_univ (K (c, sIdx 2))) (fun h => h) (R := 0 + 1) (duties_later m (sendCell c 2))) $$ [HatS2] with HzS2
  · isplitr; · iexact HIs2
    iexact HatS2
  imod (Rounds.cell_close ER (rsRd m) (Set.mem_univ (K (c, rIdx 0))) (fun h => h) (R := 0 + 1) (duties_later m (recvCell c 0))) $$ [HatR0] with HzR0
  · isplitr; · iexact HIr0
    iexact HatR0
  imod (Rounds.cell_close ER (rsRd m) (Set.mem_univ (K (c, rIdx 1))) (fun h => h) (R := 0 + 1) (duties_later m (recvCell c 1))) $$ [HatR1] with HzR1
  · isplitr; · iexact HIr1
    iexact HatR1
  imod (Rounds.cell_close ER (rsRd m) (Set.mem_univ (K (c, rIdx 2))) (fun h => h) (R := 0 + 1) (duties_later m (recvCell c 2))) $$ [HatR2] with HzR2
  · isplitr; · iexact HIr2
    iexact HatR2
  rw [wp_ret]; imodintro
  iapply Hk
  unfold bodyPost Φ₁ Dat.owesAt Pipeline.owesWithin
  rw [show (dats m 0 c).owed t₀.succ = 0 from rfl]
  simp only [bigSep_fin3]
  isplitl [Hb0 Hb1 Hb2 Hl0 Hl1 Hl2 HzS0 HzS1 HzS2 HzR0 HzR1 HzR2]
  · isplitl [Hb0 Hb1 Hb2]
    · iapply (hg.sB_join c fb0 fb1 fb2)
      unfold sPts
      isplitl [Hb0]; · iexact Hb0
      isplitl [Hb1]; · iexact Hb1
      iexact Hb2
    isplitl [Hl0 Hl1 Hl2]
    · iapply (hg.rB_join c fl0 fl1 fl2)
      unfold rPts
      isplitl [Hl0]; · iexact Hl0
      isplitl [Hl1]; · iexact Hl1
      iexact Hl2
    isplitl [HzS0 HzS1 HzS2]
    · isplitl [HzS0]; · iexact HzS0
      isplitl [HzS1]; · iexact HzS1
      iexact HzS2
    isplitl [HzR0]; · iexact HzR0
    isplitl [HzR1]; · iexact HzR1
    iexact HzR2
  isplitl [HO]
  · iexists (insert (SemLoc.dma (sSem 2), ()) (insert (SemLoc.dma (sSem 1), ()) (insert (SemLoc.dma (sSem 0), ()) (insert (SemLoc.dma (rSem 2), ()) (insert (SemLoc.dma (rSem 1), ()) (insert (SemLoc.dma (rSem 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The pipeline's body obligation on device c, at its one grid point. -/
theorem body_obligation (hg : Geom m) (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  iintro H
  iapply (sound_body m hg c fun _ => bodyPost m c)
  isplitl [H]; · iexact H
  iintro H; iexact H

/-- info: 'Cert.KernelIdeal.RS.body_obligation' depends on axioms: [propext, Classical.choice, Quot.sound] -/
#guard_msgs in #print axioms body_obligation

end Cert.KernelIdeal.RS

end
-- ==== Proof.KernelIdealGeom.lean ====
/-
  The geometry of the two 3 × 256 × 256 scratch buffers, and the one value fact about a landed copy.

  Slot j of such a buffer is the rectangle [j, j+1) × [0, 256) × [0, 256): an index lies in slot j exactly when its
  leading coordinate is j. So the three slots are pairwise disjoint and cover the buffer, and a points-to of the whole
  buffer is the three points-tos of its slots: with one contents it splits into them, and three slots held at three
  contents join into the buffer at the contents that agrees with each on its slot. A load of slot j through the whole
  buffer touches slot j's elements only. After the j-th copy from a device has landed in slot j of its peer's receive
  buffer, a load of that slot reads what the device stored into slot j of its send buffer.
-/
import proofs.«900474_g7700000000000475_dist_rs_v7x_xyz2x4x4_y_m256_n256_bf16_1_alg».proof.Proof.KernelIdealSched
import Idealize.ShloMosaic.Rules.PointsTo
import Idealize.ShloMosaic.Lib.Pipeline.Value

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The element sets of the slots -/

theorem sSlot_set (j : Fin 3) : (sSlot j).view.set = (slotR j).set := by
  show (((View.whole cc0_scratch0 : View sig .tc _ _ _).slice (slotR j)).reshape S256x256 _).set = _
  rw [View.set_reshape, View.set_slice_whole]

theorem rSlot_set (j : Fin 3) : (rSlot j).view.set = (slotR j).set := by
  show (((View.whole cc0_scratch1 : View sig .tc _ _ _).slice (slotR j)).reshape S256x256 _).set = _
  rw [View.set_reshape, View.set_slice_whole]

/-- An index lies in slot j exactly when its leading coordinate is j. -/
theorem mem_slotR (j : Fin 3) (i : S3x256x256.Idx) : i ∈ (slotR j).set ↔ (i 0).val = j.val := by
  rw [Rect.mem_set_unit]
  constructor
  · intro h
    have h0 := h 0
    have e1 : (![j.val, 0, 0] : Fin 3 → Nat) 0 = j.val := rfl
    have e2 : S1x256x256.size 0 = 1 := rfl
    rw [e1, e2] at h0
    omega
  · intro h a
    have ha : (i a).val < S3x256x256.size a := (i a).isLt
    revert ha
    refine Fin.cases ?_ (fun a => Fin.cases ?_ (fun a => Fin.cases ?_ (fun a => a.elim0) a) a) a
    · intro _
      show j.val ≤ (i 0).val ∧ (i 0).val < j.val + 1
      omega
    · intro ha
      exact ⟨Nat.zero_le _, by simpa using ha⟩
    · intro ha
      exact ⟨Nat.zero_le _, by simpa using ha⟩

/-- Two different slots share no index. -/
theorem slotR_disjoint (j k : Fin 3) (h : j ≠ k) : Disjoint (slotR j).set (slotR k).set := by
  rw [Finset.disjoint_left]
  intro i hj hk
  rw [mem_slotR] at hj hk
  exact h (Fin.ext (hj.symm.trans hk))

/-- Every index lies in the slot its leading coordinate names. -/
theorem slotR_cover : (Finset.univ : Finset (Fin 3)).biUnion (fun j => (slotR j).set) = Finset.univ := by
  ext i
  simp only [Finset.mem_biUnion, Finset.mem_univ, true_and, iff_true]
  exact ⟨⟨(i 0).val, (i 0).isLt⟩, (mem_slotR _ i).mpr rfl⟩

/-! ## A whole buffer and its three slots -/

omit [FloatOps F] in
/-- A send slot's points-to, over the whole buffer's index type. -/
theorem sPts_eq (c : Dev nD) (j : Fin 3) (f : Buf (Elt F) ((c : Thread nD τ).loc cc0_scratch0)) :
    sPts c j f = ((((c : Thread nD τ).loc cc0_scratch0) ↦[(slotR j).set]{fullShare} f) : sProp 𝕄) :=
  congrArg (fun S => ((((c : Thread nD τ).loc cc0_scratch0) ↦[S]{fullShare} f) : sProp 𝕄)) (sSlot_set j)

omit [FloatOps F] in
/-- A whole send buffer is its three slots (same contents). -/
theorem sB_split (c : Dev nD) (f : Buf (Elt F) ((c : Thread nD τ).loc cc0_scratch0)) :
    ((((c : Thread nD τ).loc cc0_scratch0) ↦{fullShare} f) : sProp 𝕄) ⊢ iprop(sPts c 0 f ∗ sPts c 1 f ∗ sPts c 2 f) := by
  have h := pointsTo_biUnion (Val := Elt F) (Name := ℕ) (U := UU) (Lvl := ℕ) (Ix := Unit)
    (ℓ := (c : Thread nD τ).loc cc0_scratch0) (q := fullShare) (f := f)
    (Finset.univ : Finset (Fin 3)) (fun j => (slotR j).set) (fun j _ k _ hjk => slotR_disjoint j k hjk)
  rw [slotR_cover, bigSep_fin3] at h
  rw [sPts_eq c 0 f, sPts_eq c 1 f, sPts_eq c 2 f]
  exact Entails.of_eq h

omit [FloatOps F] in
/-- Three send slots, each at its own contents, are the whole send buffer at the contents that agrees with each on
    its slot. -/
theorem sB_join (c : Dev nD) (f0 f1 f2 : Buf (Elt F) ((c : Thread nD τ).loc cc0_scratch0)) :
    iprop(sPts c 0 f0 ∗ sPts c 1 f1 ∗ sPts c 2 f2)
      ⊢ (iprop(∃ f : Buf (Elt F) ((c : Thread nD τ).loc cc0_scratch0), ((c : Thread nD τ).loc cc0_scratch0) ↦{fullShare} f) : sProp 𝕄) := by
  have h := pointsTo_biUnion_join (Val := Elt F) (Name := ℕ) (U := UU) (Lvl := ℕ) (Ix := Unit)
    (ℓ := (c : Thread nD τ).loc cc0_scratch0) (q := fullShare)
    (Finset.univ : Finset (Fin 3)) (fun j => (slotR j).set) (fun j => ![f0, f1, f2] j) f0
    (fun j _ k _ hjk => slotR_disjoint j k hjk)
  rw [slotR_cover, bigSep_fin3] at h
  have e0 : (![f0, f1, f2] : Fin 3 → Buf (Elt F) ((c : Thread nD τ).loc cc0_scratch0)) 0 = f0 := rfl
  have e1 : (![f0, f1, f2] : Fin 3 → Buf (Elt F) ((c : Thread nD τ).loc cc0_scratch0)) 1 = f1 := rfl
  have e2 : (![f0, f1, f2] : Fin 3 → Buf (Elt F) ((c : Thread nD τ).loc cc0_scratch0)) 2 = f2 := rfl
  rw [e0, e1, e2] at h
  rw [sPts_eq c 0 f0, sPts_eq c 1 f1, sPts_eq c 2 f2]
  refine h.trans ?_
  iintro ⟨%g, %hg, H⟩
  iexists g
  iexact H

omit [FloatOps F] in
/-- A receive slot's points-to, over the whole buffer's index type. -/
theorem rPts_eq (c : Dev nD) (j : Fin 3) (f : Buf (Elt F) ((c : Thread nD τ).loc cc0_scratch1)) :
    rPts c j f = ((((c : Thread nD τ).loc cc0_scratch1) ↦[(slotR j).set]{fullShare} f) : sProp 𝕄) :=
  congrArg (fun S => ((((c : Thread nD τ).loc cc0_scratch1) ↦[S]{fullShare} f) : sProp 𝕄)) (rSlot_set j)

omit [FloatOps F] in
/-- A whole receive buffer is its three slots (same contents). -/
theorem rB_split (c : Dev nD) (f : Buf (Elt F) ((c : Thread nD τ).loc cc0_scratch1)) :
    ((((c : Thread nD τ).loc cc0_scratch1) ↦{fullShare} f) : sProp 𝕄) ⊢ iprop(rPts c 0 f ∗ rPts c 1 f ∗ rPts c 2 f) := by
  have h := pointsTo_biUnion (Val := Elt F) (Name := ℕ) (U := UU) (Lvl := ℕ) (Ix := Unit)
    (ℓ := (c : Thread nD τ).loc cc0_scratch1) (q := fullShare) (f := f)
    (Finset.univ : Finset (Fin 3)) (fun j => (slotR j).set) (fun j _ k _ hjk => slotR_disjoint j k hjk)
  rw [slotR_cover, bigSep_fin3] at h
  rw [rPts_eq c 0 f, rPts_eq c 1 f, rPts_eq c 2 f]
  exact Entails.of_eq h

omit [FloatOps F] in
/-- Three receive slots, each at its own contents, are the whole receive buffer at the contents that agrees with each on
    its slot. -/
theorem rB_join (c : Dev nD) (f0 f1 f2 : Buf (Elt F) ((c : Thread nD τ).loc cc0_scratch1)) :
    iprop(rPts c 0 f0 ∗ rPts c 1 f1 ∗ rPts c 2 f2)
      ⊢ (iprop(∃ f : Buf (Elt F) ((c : Thread nD τ).loc cc0_scratch1), ((c : Thread nD τ).loc cc0_scratch1) ↦{fullShare} f) : sProp 𝕄) := by
  have h := pointsTo_biUnion_join (Val := Elt F) (Name := ℕ) (U := UU) (Lvl := ℕ) (Ix := Unit)
    (ℓ := (c : Thread nD τ).loc cc0_scratch1) (q := fullShare)
    (Finset.univ : Finset (Fin 3)) (fun j => (slotR j).set) (fun j => ![f0, f1, f2] j) f0
    (fun j _ k _ hjk => slotR_disjoint j k hjk)
  rw [slotR_cover, bigSep_fin3] at h
  have e0 : (![f0, f1, f2] : Fin 3 → Buf (Elt F) ((c : Thread nD τ).loc cc0_scratch1)) 0 = f0 := rfl
  have e1 : (![f0, f1, f2] : Fin 3 → Buf (Elt F) ((c : Thread nD τ).loc cc0_scratch1)) 1 = f1 := rfl
  have e2 : (![f0, f1, f2] : Fin 3 → Buf (Elt F) ((c : Thread nD τ).loc cc0_scratch1)) 2 = f2 := rfl
  rw [e0, e1, e2] at h
  rw [rPts_eq c 0 f0, rPts_eq c 1 f1, rPts_eq c 2 f2]
  refine h.trans ?_
  iintro ⟨%g, %hg, H⟩
  iexists g
  iexact H

/-- A load of slot j through the whole receive buffer touches only slot j's elements. -/
theorem load_sub (j : Fin 3) :
    (rB : Memref sig .tc .vmem S3x256x256 .bf16).view.setOn (slotR j).toLoadRect.set ⊆ (rSlot j).view.set := by
  rw [rSlot_set]
  intro i hi
  unfold View.setOn at hi
  rw [Finset.mem_map] at hi
  obtain ⟨i', hi', rfl⟩ := hi
  exact hi'

/-! ## What a landed copy reads -/

/-- A slot index is 0, 1 or 2. -/
theorem fin3_cases (j : Fin 3) : j = 0 ∨ j = 1 ∨ j = 2 := by revert j; decide

/-- The send buffer after the three stores, at an element of slot j: what was stored into slot j (the other two
    stores go to other slots and leave it alone). -/
theorem sendBuf_slot (m : (ℓ : Loc nD τ sig) → Buf (Elt F) ℓ) (c : Dev nD)
    (f0 : Buf (Elt F) ((c : Thread nD τ).loc cc0_scratch0)) (j : Fin 3) (x : (slotR j).shape.Idx) :
    (View.whole cc0_scratch0 : View sig .tc _ _ _).read (Elt F) (sendBuf m c f0) ((slotR j).emb x) = sv m c j x := by
  have hne : ∀ k : Fin 3, k ≠ j →
      (slotR j).emb x ∉ (Finset.univ : Finset (slotR k).shape.Idx).map (slotR k).emb := by
    intro k hk hmem
    rw [Rect.map_emb_univ] at hmem
    have hx : (slotR j).emb x ∈ (slotR j).set := by
      rw [← Rect.map_emb_univ]; exact Finset.mem_map_of_mem _ (Finset.mem_univ x)
    exact Finset.disjoint_left.mp (slotR_disjoint j k (Ne.symm hk)) hx hmem
  have hj : j = 0 ∨ j = 1 ∨ j = 2 := fin3_cases j
  unfold sendBuf
  rcases hj with rfl | rfl | rfl
  · rw [View.read_slice_write_of_not_mem (slotR 2) _ _ _ (hne 2 (by decide)),
      View.read_slice_write_of_not_mem (slotR 1) _ _ _ (hne 1 (by decide))]
    exact View.read_slice_write_emb (slotR 0) _ _ (Finset.mem_univ x)
  · rw [View.read_slice_write_of_not_mem (slotR 2) _ _ _ (hne 2 (by decide))]
    exact View.read_slice_write_emb (slotR 1) _ _ (Finset.mem_univ x)
  · exact View.read_slice_write_emb (slotR 2) _ _ (Finset.mem_univ x)

/-- What a load of slot j reads after the j-th copy from device c has landed there: what c stored into its send
    slot j. Both the slot read through the squeezed slice and the load through the whole buffer see the same elements
    in the same order, so the load reads the copied payload, which is the send buffer read at slot j. -/
theorem landed_read (m : (ℓ : Loc nD τ sig) → Buf (Elt F) ℓ) (j : Fin 3) (c : Dev nD)
    (f0 : Buf (Elt F) ((c : Thread nD τ).loc cc0_scratch0))
    (fd : Buf (Elt F) ((rSlot j).view.loc ((peer j c : Dev nD) : Thread nD τ))) :
    (rB : Memref sig .tc .vmem S3x256x256 .bf16).view.readAt (Elt F) (slotR j).toLoadRect
      ((rSlot j).view.write (Elt F) fd ((sSlot j).view.read (Elt F) (sendBuf m c f0)) Finset.univ) = sv m c j := by
  have hA : (rSlot j).view.read (Elt F)
      ((rSlot j).view.write (Elt F) fd ((sSlot j).view.read (Elt F) (sendBuf m c f0)) Finset.univ)
        = (sSlot j).view.read (Elt F) (sendBuf m c f0) := View.read_write_univ _ _
  have hR := Memref.read_squeeze_slice (Val := Elt F) (rB : Memref sig .tc .vmem S3x256x256 .bf16) (slotR j) (fun _ => rfl)
    squeezes_S1x256x256_S256x256 shapeCasts_S1x256x256_S256x256
    ((rSlot j).view.write (Elt F) fd ((sSlot j).view.read (Elt F) (sendBuf m c f0)) Finset.univ)
  have hS := Memref.read_squeeze_slice (Val := Elt F) (sB : Memref sig .tc .vmem S3x256x256 .bf16) (slotR j) (fun _ => rfl)
    squeezes_S1x256x256_S256x256 shapeCasts_S1x256x256_S256x256 (sendBuf m c f0)
  have hC := hR.symm.trans (hA.trans hS)
  have hB := congrArg (fun v => shapeCast S1x256x256 v shapeCasts_S256x256_S1x256x256) hC
  refine ((shapeCast_shapeCast _ shapeCasts_S1x256x256_S256x256 shapeCasts_S256x256_S1x256x256).symm.trans
    (hB.trans (shapeCast_shapeCast _ shapeCasts_S1x256x256_S256x256 shapeCasts_S256x256_S1x256x256))).trans ?_
  funext x
  exact sendBuf_slot m c f0 j x

end Cert.KernelIdeal.RS

end

namespace Cert.KernelIdeal.RS

/-- info: 'Cert.KernelIdeal.RS.sB_split' depends on axioms: [propext, Classical.choice, Quot.sound] -/
#guard_msgs in #print axioms sB_split

/-- info: 'Cert.KernelIdeal.RS.sB_join' depends on axioms: [propext, Classical.choice, Quot.sound] -/
#guard_msgs in #print axioms sB_join

/-- info: 'Cert.KernelIdeal.RS.rB_split' depends on axioms: [propext, Classical.choice, Quot.sound] -/
#guard_msgs in #print axioms rB_split

/-- info: 'Cert.KernelIdeal.RS.rB_join' depends on axioms: [propext, Classical.choice, Quot.sound] -/
#guard_msgs in #print axioms rB_join

/-- info: 'Cert.KernelIdeal.RS.load_sub' depends on axioms: [propext, Classical.choice, Quot.sound] -/
#guard_msgs in #print axioms load_sub

/-- info: 'Cert.KernelIdeal.RS.landed_read' depends on axioms: [propext, Classical.choice, Quot.sound] -/
#guard_msgs in #print axioms landed_read

end Cert.KernelIdeal.RS
-- ==== Proof.KernelIdealLaunch.lean ====
/-
  The launch of the reduce-scatter: from the proof of one device's body to the run of the whole mesh.

  The launch mints, per device, the round state, positions and duty tokens of its seven cells; allocates the cells'
  invariants for all devices at once; deals each device the tokens of the duties it pays (duty j of its j-th peer's
  barrier cell, the duty of its j-th peer's j-th receive cell, the duty of its own j-th send cell); and hands each
  device the credit for what the others owe its barrier cell (three units) and its three receive cells (a slot each).
-/
import proofs.«900474_g7700000000000475_dist_rs_v7x_xyz2x4x4_y_m256_n256_bf16_1_alg».proof.Proof.KernelIdealData
import proofs.«900474_g7700000000000475_dist_rs_v7x_xyz2x4x4_y_m256_n256_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens the launch mints -/

/-- The six semaphores of the kernel's own: the three send and the three receive semaphores. -/
abbrev osem : Fin 3 ⊕ Fin 3 → SemLoc sig := Sum.elim (fun j => .dma (sSem j)) (fun j => .dma (rSem j))

theorem ownSemFacts : Pipeline.OwnSemFacts cfg0.spec osem := by decide

theorem share_eq (c : Dev nD) (w : Fin cfg0.W) : (dats m 0 c).share w = fullShare := by unfold Dat.share; split <;> rfl

theorem csem_injective : ∀ k k' : Fin 7, csem k = csem k' → k = k' := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective k k' h2
  subst this; rfl
def rsCells : Finset (GSem nD τ sig) := Finset.univ.map ⟨kcell, kcell_injective⟩

/-- The duty tokens of a device's own cells, by kind (0: the barrier cell's duty j; 1: the j-th send cell's duty;
    2: the j-th receive cell's duty). -/
abbrev tokKey (kj : Fin 3 × Fin 3) : SemLoc sig × Fin 3 := match kj.1 with
  | 0 => (.reg barS, kj.2) | 1 => (.dma (sSem kj.2), 0) | 2 => (.dma (rSem kj.2), 0)
theorem tokKey_injective : ∀ a b : Fin 3 × Fin 3, tokKey a = tokKey b → a = b := by decide
abbrev tokOf (cj : Dev nD × Fin 3 × Fin 3) : GSem nD τ sig × ℕ × Fin 3 := (((cj.1 : Thread nD τ), (tokKey cj.2).1), 0, (tokKey cj.2).2)
theorem tokOf_injective : Function.Injective (tokOf : Dev nD × Fin 3 × Fin 3 → GSem nD τ sig × ℕ × Fin 3) := by
  rintro ⟨c, kj⟩ ⟨c', kj'⟩ h
  have h1 : c = c' := by have := congrArg (fun x : GSem nD τ sig × ℕ × Fin 3 => x.1.1.1) h; exact this
  subst h1
  have h2 : tokKey kj = tokKey kj' :=
    Prod.ext (congrArg (fun x : GSem nD τ sig × ℕ × Fin 3 => x.1.2) h) (congrArg (fun x : GSem nD τ sig × ℕ × Fin 3 => x.2.2) h)
  have : kj = kj' := tokKey_injective kj kj' h2
  subst this; rfl
def rsToks : Finset (GSem nD τ sig × ℕ × Fin 3) := Finset.univ.map ⟨tokOf, tokOf_injective⟩

def u₀ : UU :=
  (initOf (Pipeline.cells cfgs cellOf_inj) (Pipeline.launchToks cfgs cellOf_inj), initOf rsCells rsToks)

/-- The duty tokens of device c's own cells. -/
def toks (c : Dev nD) : sProp 𝕄 :=
  iprop((bigSep Finset.univ fun j : Fin 3 => dutyTok ER (barCell c) 0 j)
    ∗ (bigSep Finset.univ fun j : Fin 3 => dutyTok ER (sendCell c j) 0 0)
    ∗ (bigSep Finset.univ fun j : Fin 3 => dutyTok ER (recvCell c j) 0 0))

/-- What the launch element deals device c. -/
def G (c : Dev nD) : sProp 𝕄 :=
  iprop((bigSep Finset.univ fun k : Fin 7 => roundState ER (rsRd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_rs : BI.own (ER (initOf rsCells rsToks)) ⊢ (|==> bigSep Finset.univ (G m) : sProp 𝕄) := by
  have hX (Φ : GSem nD τ sig → sProp 𝕄) : bigSep rsCells Φ = bigSep Finset.univ fun c : Dev nD => bigSep Finset.univ fun k : Fin 7 => Φ (kcell (c, k)) := by
    unfold rsCells; rw [bigSep_map, bigSep_univ_prod]; rfl
  have hT : bigSep rsToks (fun x => (dutyTok ER x.1 x.2.1 x.2.2 : sProp 𝕄)) = bigSep Finset.univ fun c : Dev nD => toks c := by
    unfold rsToks; rw [bigSep_map, bigSep_univ_prod]
    exact bigSep_congr fun c _ => by unfold toks; rw [bigSep_univ_prod, bigSep_fin3]; rfl
  iintro HX
  imod (Rounds.fund ER (rsRd m) rsCells rsToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants, allocated for all devices at once -/

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 3 => semVal (sendCell c j) 0) ∗ (bigSep Finset.univ fun j : Fin 3 => semVal (recvCell c j) 0)) := by
  unfold Pipeline.ownSems0; rw [bigSep_univ_sum]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7, bigSep_fin3, bigSep_fin3]
  iintro ⟨⟨⟨S0, S1, S2⟩, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rsRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rsRd m) (kcell (c, k)) 0)
      ⊢ (|={Set.univ}=> bigSep Finset.univ fun k => iprop(∃ κ : ℕ, cellInv ER (rsRd m) κ (kcell (c, k))) : sProp 𝕄) from by
        rw [← bigSep_sep']
        exact (bigSep_mono fun k _ => (Rounds.body_intro ER (rsRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of all cells under the names K, and that every cell has reached round 0. -/
def records (K : Dev nD × Fin 7 → ℕ) : sProp 𝕄 :=
  iprop((bigSep Finset.univ fun ck : Dev nD × Fin 7 => cellInv ER (rsRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (rsRd m) (K ck) (kcell ck) : sProp 𝕄)) ⊢ cellInv ER (rsRd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: its positions, and the tokens of the duties it pays. -/
def linear (c : Dev nD) : sProp 𝕄 := iprop(posns c ∗ payToks c)

theorem ghost_intro (K : Dev nD × Fin 7 → ℕ) (c : Dev nD) : iprop(records m K ∗ linear c) ⊢ G' m c := by
  unfold records linear G' ghost invs marks
  simp only [bigSep_fin3]
  iintro ⟨⟨#HI, #HR⟩, Hp, Ht⟩
  iexists K
  isplitr
  · isplitr; · iapply (inv_at m K (c, 0)); iexact HI
    isplitr
    · isplitr; · iapply (inv_at m K (c, sIdx 0)); iexact HI
      isplitr; · iapply (inv_at m K (c, sIdx 1)); iexact HI
      iapply (inv_at m K (c, sIdx 2)); iexact HI
    isplitr
    · isplitr; · iapply (inv_at m K (c, rIdx 0)); iexact HI
      isplitr; · iapply (inv_at m K (c, rIdx 1)); iexact HI
      iapply (inv_at m K (c, rIdx 2)); iexact HI
    isplitr
    · isplitr; · iapply (inv_at m K (peer 0 c, 0)); iexact HI
      isplitr; · iapply (inv_at m K (peer 1 c, 0)); iexact HI
      iapply (inv_at m K (peer 2 c, 0)); iexact HI
    · isplitr; · iapply (inv_at m K (peer 0 c, rIdx 0)); iexact HI
      isplitr; · iapply (inv_at m K (peer 1 c, rIdx 1)); iexact HI
      iapply (inv_at m K (peer 2 c, rIdx 2)); iexact HI
  isplitr
  · isplitr
    · isplitr; · iapply (reached_at (F := F) (peer 0 c, 0)); iexact HR
      isplitr; · iapply (reached_at (F := F) (peer 1 c, 0)); iexact HR
      iapply (reached_at (F := F) (peer 2 c, 0)); iexact HR
    isplitr
    · isplitr; · iapply (reached_at (F := F) (peer 0 c, rIdx 0)); iexact HR
      isplitr; · iapply (reached_at (F := F) (peer 1 c, rIdx 1)); iexact HR
      iapply (reached_at (F := F) (peer 2 c, rIdx 2)); iexact HR
    isplitr
    · isplitr; · iapply (reached_at (F := F) (c, sIdx 0)); iexact HR
      isplitr; · iapply (reached_at (F := F) (c, sIdx 1)); iexact HR
      iapply (reached_at (F := F) (c, sIdx 2)); iexact HR
    · isplitr; · iapply (reached_at (F := F) (c, rIdx 0)); iexact HR
      isplitr; · iapply (reached_at (F := F) (c, rIdx 1)); iexact HR
      iapply (reached_at (F := F) (c, rIdx 2)); iexact HR
  isplitl [Hp]; · iexact Hp
  iexact Ht

omit [FloatOps F] in
/-- The tokens dealt to their payers: duty j of a device's barrier cell goes to the device whose j-th peer it is, and
    so does the duty of its j-th receive cell; the send duties stay. -/
theorem toks_around : (bigSep Finset.univ fun c : Dev nD => (toks c : sProp 𝕄)) ⊢ bigSep Finset.univ fun c : Dev nD => payToks c := by
  unfold toks payToks
  simp only [bigSep_fin3, bigSep_sep']
  rw [bigSep_univ_equiv (peerEquiv 0) (fun c : Dev nD => (dutyTok ER (barCell c) 0 (0 : Fin 3) : sProp 𝕄)),
    bigSep_univ_equiv (peerEquiv 1) (fun c : Dev nD => (dutyTok ER (barCell c) 0 (1 : Fin 3) : sProp 𝕄)),
    bigSep_univ_equiv (peerEquiv 2) (fun c : Dev nD => (dutyTok ER (barCell c) 0 (2 : Fin 3) : sProp 𝕄)),
    bigSep_univ_equiv (peerEquiv 0) (fun c : Dev nD => (dutyTok ER (recvCell c 0) 0 (0 : Fin 3) : sProp 𝕄)),
    bigSep_univ_equiv (peerEquiv 1) (fun c : Dev nD => (dutyTok ER (recvCell c 1) 0 (0 : Fin 3) : sProp 𝕄)),
    bigSep_univ_equiv (peerEquiv 2) (fun c : Dev nD => (dutyTok ER (recvCell c 2) 0 (0 : Fin 3) : sProp 𝕄))]
  iintro ⟨⟨B0, B1, B2⟩, ⟨S0, S1, S2⟩, R0, R1, R2⟩
  isplitl [B0 B1 B2]
  · isplitl [B0]; · iexact B0
    isplitl [B1]; · iexact B1
    iexact B2
  isplitl [R0 R1 R2]
  · isplitl [R0]; · iexact R0
    isplitl [R1]; · iexact R1
    iexact R2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) :
    iprop((bigSep Finset.univ fun k : Fin 7 => (atPos ER (kcell (c, k)) 0 ∅ 0 : sProp 𝕄)) ∗ payToks c) ⊢ linear c := by
  unfold linear posns
  rw [bigSep_fin7, bigSep_fin3, bigSep_fin3]
  iintro ⟨⟨A0, A1, A2, A3, A4, A5, A6⟩, Ht⟩
  isplitr [Ht]
  · isplitl [A0]; · iexact A0
    isplitl [A1 A2 A3]
    · isplitl [A1]; · iexact A1
      isplitl [A2]; · iexact A2
      iexact A3
    isplitl [A4]; · iexact A4
    isplitl [A5]; · iexact A5
    iexact A6
  iexact Ht

theorem regroup :
    (bigSep Finset.univ fun c : Dev nD => iprop((bigSep Finset.univ fun k => iprop(∃ κ : ℕ, cellInv ER (rsRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (rsRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rsRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => linear_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem O₀_eq : (O₀ : Dev nD → CellTallies nD τ sig Unit) = fun d =>
    tallyAt (recvCell (peer 2 d) 2) () N + tallyAt (recvCell (peer 1 d) 1) () N + tallyAt (recvCell (peer 0 d) 0) () N
      + tallyAt (barCell (peer 2 d)) () 1 + tallyAt (barCell (peer 1 d)) () 1 + tallyAt (barCell (peer 0 d)) () 1 := rfl

omit [FloatOps F] in
/-- Three single units on one cell are its credit of three. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

omit [FloatOps F] in
/-- Each device is the j-th peer of exactly one device, for each j: so the others owe its barrier cell three units
    and each of its receive cells one slot's credit. -/
theorem creds (c : Dev nD) :
    (Pipeline.launchCred O₀ c : sProp 𝕄)
      ⊢ iprop(cred (tallyAt (barCell c) () 3) ∗ bigSep Finset.univ fun j : Fin 3 => cred (tallyAt (recvCell c j) () N)) := by
  rw [O₀_eq, Pipeline.launchCred_add, Pipeline.launchCred_add, Pipeline.launchCred_add, Pipeline.launchCred_add, Pipeline.launchCred_add, bigSep_fin3]
  iintro ⟨⟨⟨⟨⟨R2, R1⟩, R0⟩, B2⟩, B1⟩, B0⟩
  ihave r2 := (Pipeline.launchCred_tallyAt (.dma (rSem 2)) (peer 2) (peer (rev 2)) (rev_peer 2) (peer_rev 2) () N c) $$ R2
  ihave r1 := (Pipeline.launchCred_tallyAt (.dma (rSem 1)) (peer 1) (peer (rev 1)) (rev_peer 1) (peer_rev 1) () N c) $$ R1
  ihave r0 := (Pipeline.launchCred_tallyAt (.dma (rSem 0)) (peer 0) (peer (rev 0)) (rev_peer 0) (peer_rev 0) () N c) $$ R0
  ihave b2 := (Pipeline.launchCred_tallyAt (.reg barS) (peer 2) (peer (rev 2)) (rev_peer 2) (peer_rev 2) () 1 c) $$ B2
  ihave b1 := (Pipeline.launchCred_tallyAt (.reg barS) (peer 1) (peer (rev 1)) (rev_peer 1) (peer_rev 1) () 1 c) $$ B1
  ihave b0 := (Pipeline.launchCred_tallyAt (.reg barS) (peer 0) (peer (rev 0)) (rev_peer 0) (peer_rev 0) () 1 c) $$ B0
  isplitl [b0 b1 b2]
  · iapply (cred_three (F := F) (barCell c))
    isplitl [b0]; · iexact b0
    isplitl [b1]; · iexact b1
    iexact b2
  isplitl [r0]; · iexact r0
  isplitl [r1]; · iexact r1
  iexact r2

/-! ## The levels: the pipeline's own waits -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl
omit [FloatOps F] in
theorem lv_bar (c : Dev nD) (u : Unit) : lv (barCell c) u = 1 := rfl
omit [FloatOps F] in
theorem lv_recv (c : Dev nD) (j : Fin 3) (u : Unit) : lv (recvCell c j) u = 2 := by
  dsimp only [lv]; exact if_pos (by show 5 ≤ j.val + 5; omega)

omit [FloatOps F] in
/-- Whatever a device owes at launch it owes to a receive cell or a barrier cell of a peer. -/
theorem O₀_pos {c : Dev nD} {g : GSem nD τ sig} {u : Unit} (h : 0 < O₀ c g u) :
    (∃ j, g = recvCell (peer j c) j) ∨ (∃ j, g = barCell (peer j c)) := by
  rw [O₀_eq] at h
  simp only [Pi.add_apply, Finsupp.add_apply, tallyAt_apply] at h
  by_contra hn
  rw [not_or, not_exists, not_exists] at hn
  rw [if_neg (fun h' => hn.1 2 h'.1), if_neg (fun h' => hn.1 1 h'.1), if_neg (fun h' => hn.1 0 h'.1),
    if_neg (fun h' => hn.2 2 h'.1), if_neg (fun h' => hn.2 1 h'.1), if_neg (fun h' => hn.2 0 h'.1)] at h
  exact absurd h (by decide)

omit [FloatOps F] in
/-- A staging cell sits at level 0, below every cell a device owes to. -/
theorem mayWait_stage (c : Dev nD) (q : DmaSem sig) (hq : ¬ 5 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; dsimp only [lv]; rw [if_neg hq])
      (fun g u hg => by
        rcases O₀_pos hg with ⟨j, rfl⟩ | ⟨j, rfl⟩
        · rw [lv_recv]; decide
        · rw [lv_bar]; decide)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨H0, H1, HS, HR⟩
  isplitr; · iempintro
  isplitl [HS HR]
  · isplitl [HS] <;> iassumption
  isplitl [H0] <;> iassumption

/-! ## The run -/

/-- The arrays of device c after the run, as the proof data name them. -/
def finalA (c : Dev nD) (w : Fin cfg0.W) : Buf (Elt F) ((cfg0.win w).arr.view.loc (c : Thread nD τ)) := (dats m 0 c).arrAt w cfg0.N

set_option maxRecDepth 8000 in
/-- At the compiled mesh of thirty-two devices, for any float values, from any memory with zero counters: given the
    body's proof at every device, every weakly fair execution of @main terminates, and every final state has each
    device's arrays at the contents the proof data name. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_rs m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m c (0 : Fin 2) = m ((c : Thread nD τ).loc main_arg0) :=
  (dats (F := F) m 0 c).arrAt_in (0 : Fin 2) rfl _

/-- The result array after the run holds the body's result: the output window is written back once, whole. -/
theorem finalA_out (c : Dev nD) : finalA m c (1 : Fin 2) = outAt m c := by
  have h : finalA m c (1 : Fin 2) = _ := (dats (F := F) m 0 c).arrAt_succ (1 : Fin 2) t₀
  rw [flush0_1 t₀, if_pos rfl] at h
  have hr := View.read_write_univ (Val := Elt F) (v := ((cfg0.win (1 : Fin 2)).blk t₀).view) ((dats (F := F) m 0 c).arrAt (1 : Fin 2) t₀.val) ((dats (F := F) m 0 c).flushed (1 : Fin 2) t₀)
  rw [← h] at hr
  have hz : ((cfg0.win (1 : Fin 2)).blk t₀).view.read (Elt F) (finalA m c (1 : Fin 2)) = finalA m c (1 : Fin 2) :=
    Memref.read_access_unit_zero (Elt F) main_v1 (funext fun a => Nat.zero_mul _) _ (finalA m c (1 : Fin 2))
  exact hz.symm.trans hr

/-- info: 'Cert.KernelIdeal.RS.run_main' depends on axioms: [propext, Classical.choice, Quot.sound] -/
#guard_msgs in #print axioms run_main
/-- info: 'Cert.KernelIdeal.RS.finalA_x' depends on axioms: [propext, Classical.choice, Quot.sound] -/
#guard_msgs in #print axioms finalA_x
/-- info: 'Cert.KernelIdeal.RS.finalA_out' depends on axioms: [propext, Classical.choice, Quot.sound] -/
#guard_msgs in #print axioms finalA_out

end Cert.KernelIdeal.RS

end
-- ==== Proof.KernelMesh.lean ====
/-
  The mesh of the reduce-scatter along the y axis. The 32 devices are numbered row-major over (x, y, z) = (2, 4, 4):
  device c sits at x = c / 16, y = c / 4 % 4, z = c % 4. The kernel on device c talks to the three other devices of its
  (x, z) line: for j = 0, 1, 2 its j-th peer is the device whose y coordinate is y + j + 1 modulo 4. The j-th peer map is
  a permutation of the devices, with inverse the (2 - j)-th.
-/
import proofs.«900474_g7700000000000475_dist_rs_v7x_xyz2x4x4_y_m256_n256_bf16_1_alg».proof.Proof.Gen.Kernel

namespace Cert.Kernel.RS

open Cert.Kernel Cert.Kernel.Gen
open Idealize.ShloMosaic

/-- The y coordinate of a device. -/
def ycoord (c : Dev nD) : Fin 4 := ⟨c.val / 4 % 4, Nat.mod_lt _ (by decide)⟩

/-- The device at the same x and z whose y coordinate is y + j + 1 modulo 4. -/
def peer (j : Fin 3) (c : Dev nD) : Dev nD :=
  ⟨c.val / 16 * 16 + (c.val / 4 % 4 + j.val + 1) % 4 * 4 + c.val % 4, by
    have h0 : c.val < 32 := c.isLt
    have h1 : c.val / 16 < 2 := by omega
    have h2 : (c.val / 4 % 4 + j.val + 1) % 4 < 4 := Nat.mod_lt _ (by decide)
    have h3 : c.val % 4 < 4 := Nat.mod_lt _ (by decide)
    show _ < 32
    omega⟩

/-- The index of the inverse shift: shifting by j + 1 and then by (2 - j) + 1 is shifting by 4. -/
def rev (j : Fin 3) : Fin 3 := ⟨2 - j.val, by omega⟩

theorem rev_rev (j : Fin 3) : rev (rev j) = j := by revert j; decide
theorem peer_rev (j : Fin 3) (c : Dev nD) : peer (rev j) (peer j c) = c := by revert j c; decide
theorem rev_peer (j : Fin 3) (c : Dev nD) : peer j (peer (rev j) c) = c := by revert j c; decide
theorem peer_ne (j : Fin 3) (c : Dev nD) : peer j c ≠ c := by revert j c; decide
theorem peer_inj (j k : Fin 3) (c : Dev nD) (h : peer j c = peer k c) : j = k := by revert j k c; decide
theorem ycoord_peer (j : Fin 3) (c : Dev nD) : (ycoord (peer j c)).val = ((ycoord c).val + j.val + 1) % 4 := by revert j c; decide

/-- The j-th peer map as a permutation of the devices. -/
def peerEquiv (j : Fin 3) : Dev nD ≃ Dev nD := ⟨peer j, peer (rev j), peer_rev j, rev_peer j⟩

/-- The device ids the kernel computes: the three signals and the three copies each address the j-th peer. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-- The column offset of the block a device sends to its j-th peer: the peer's y coordinate times 256. -/
theorem off1_eq (c : Dev nD) (j : Fin 3) :
    k0_off1 c (BitVec.ofNat 32 (1 + j.val)) = ![0, 0, 256 * (ycoord (peer j c)).val] := by revert c j; decide +kernel
/-- The column offset of a device's own block: its y coordinate times 256. -/
theorem off2_eq (c : Dev nD) : k0_off2 c = ![0, 0, 256 * (ycoord c).val] := k0_off2_eq c

end Cert.Kernel.RS
-- ==== Proof.KernelSched.lean ====
/-
  The protocol of the reduce-scatter along y, as a schedule of rounds.

  Device c owns seven semaphore cells: its barrier cell, three send cells and three receive cells (one pair per peer
  index j). Everything happens in round 0.
  * The barrier cell of c has three duties of one unit each; duty k is paid by the device whose k-th peer is c, that
    is by peer (rev k) c. With its unit that device hands c the slot of its own receive buffer into which c will copy
    (slot rev k of device peer (rev k) c), and the fact that its receive cell for that slot has reached round 0.
  * The j-th copy of c reads slot j of c's send buffer and writes slot j of the receive buffer of peer j c. It pays
    the one duty of c's j-th send cell (payload: the send slot back) and the one duty of the j-th receive cell of
    peer j c (payload: the receive slot, holding what the copy wrote: a load of that slot reads the block the sender
    stored into its send slot).
-/
import proofs.«900474_g7700000000000475_dist_rs_v7x_xyz2x4x4_y_m256_n256_bf16_1_alg».proof.Proof.KernelMesh
import proofs.«900474_g7700000000000475_dist_rs_v7x_xyz2x4x4_y_m256_n256_bf16_1_alg».proof.Proof.Gen.Kernel.Skeleton
import proofs.«900474_g7700000000000475_dist_rs_v7x_xyz2x4x4_y_m256_n256_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duty names Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Memrefs, slots, cells -/

abbrev xM : Memref sig .tc .vmem S1x256x1024 .f32 := Memref.whole cc0_stg0_0
abbrev oM : Memref sig .tc .vmem S256x256 .f32 := Memref.whole cc0_stg1_0
abbrev sB : Memref sig .tc .vmem S3x256x256 .bf16 := Memref.whole cc0_scratch0
abbrev rB : Memref sig .tc .vmem S3x256x256 .bf16 := Memref.whole cc0_scratch1

theorem slot_inb (j : Fin 3) : ∀ a, (![j.val, 0, 0] : Fin 3 → Nat) a + S1x256x256.size a ≤ S3x256x256.size a := by
  revert j; decide

/-- Slot j of a 3 × 256 × 256 buffer: the rectangle [j, j+1) × [0, 256) × [0, 256). -/
abbrev slotR (j : Fin 3) : Rect S3x256x256 := Rect.unit (s := S3x256x256) ![j.val, 0, 0] S1x256x256.size (slot_inb j)

/-- Slot j of the send buffer and of the receive buffer, as the 256 × 256 memrefs the copies go through. -/
abbrev sSlot (j : Fin 3) : Memref sig .tc .vmem S256x256 .bf16 :=
  (sB.slice (slotR j) (fun _ => rfl)).squeeze S256x256 squeezes_S1x256x256_S256x256
abbrev rSlot (j : Fin 3) : Memref sig .tc .vmem S256x256 .bf16 :=
  (rB.slice (slotR j) (fun _ => rfl)).squeeze S256x256 squeezes_S1x256x256_S256x256

abbrev barS : Sem sig := (SemArray.scalar (sig.barrier 0 rfl) : Sems sig S_).sem
abbrev sSem (j : Fin 3) : DmaSem sig := ⟨j.val + 2, by have := j.isLt; show _ < 8; omega⟩
abbrev rSem (j : Fin 3) : DmaSem sig := ⟨j.val + 5, by have := j.isLt; show _ < 8; omega⟩

abbrev barCell (c : Dev nD) : GSem nD τ sig := ((c : Thread nD τ), .reg barS)
abbrev sendCell (c : Dev nD) (j : Fin 3) : GSem nD τ sig := ((c : Thread nD τ), .dma (sSem j))
abbrev recvCell (c : Dev nD) (j : Fin 3) : GSem nD τ sig := ((c : Thread nD τ), .dma (rSem j))

/-- The credit of one 256 × 256 bf16 slot. -/
abbrev N : ℕ := (rSlot 0).view.dmaCredit
theorem N_pos : 0 < N := View.dmaCredit_pos _ (by decide)
theorem credit_r (j : Fin 3) : (rSlot j).view.dmaCredit = N := by revert j; decide
theorem credit_s (j : Fin 3) : (sSlot j).view.dmaCredit = N := by revert j; decide

/-! ## Contents -/

/-- Device c's block of x, as staged. -/
def xstg (c : Dev nD) : (cc0_stg0_0 : Ref sig .tc).ty.Contents (Elt F) :=
  (win0_0.blk (0 : Fin 1)).view.read (Elt F) (m ((c : Thread nD τ).loc main_arg0))

/-- The columns of x device c sends to its j-th peer: that peer's block of 256 columns. -/
abbrev xRect (c : Dev nD) (j : Fin 3) : Rect S1x256x1024 :=
  Rect.unit (s := S1x256x1024) (k0_off1 c (BitVec.ofNat 32 (1 + j.val))) S1x256x256.size (k0_off1_inb c j)
/-- The columns of x device c keeps: its own block. -/
abbrev xOwn (c : Dev nD) : Rect S1x256x1024 :=
  Rect.unit (s := S1x256x1024) (k0_off2 c) S1x256x256.size (k0_off2_inb c)

/-- What device c stores into slot j of its send buffer: its block of x at the j-th peer's columns, in bf16. -/
def sv (c : Dev nD) (j : Fin 3) : FVec F S1x256x256 .bf16 :=
  k0_pay1 ((xM : Memref sig .tc .vmem S1x256x1024 .f32).view.readAt (Elt F) (xRect c j).toLoadRect (xstg m c))

/-- The send buffer of device c after its three stores, from contents f0. -/
def sendBuf (c : Dev nD) (f0 : Buf (Elt F) ((c : Thread nD τ).loc cc0_scratch0)) : Buf (Elt F) ((c : Thread nD τ).loc cc0_scratch0) :=
  ((sB.access (slotR 2) : View sig .tc _ _ _).write (Elt F)
    ((sB.access (slotR 1) : View sig .tc _ _ _).write (Elt F)
      ((sB.access (slotR 0) : View sig .tc _ _ _).write (Elt F) f0 (sv m c 0) Finset.univ)
      (sv m c 1) Finset.univ)
    (sv m c 2) Finset.univ)

/-- What a load of slot j of device c's receive buffer reads once the copy has landed: what its sender stored. -/
def rv (c : Dev nD) (j : Fin 3) : FVec F S1x256x256 .bf16 := sv m (peer (rev j) c) j

/-- The kernel's result on device c: its own block of columns of its x, plus the three received blocks in turn. -/
def outAt (c : Dev nD) : (cc0_stg1_0 : Ref sig .tc).ty.Contents (Elt F) :=
  k0_pay6 (k0_pay5 (k0_pay4 ((xM : Memref sig .tc .vmem S1x256x1024 .f32).view.readAt (Elt F) (xOwn c).toLoadRect (xstg m c)))
    (rv m c 0) (rv m c 1)) (rv m c 2)

def sPts (c : Dev nD) (j : Fin 3) (f : Buf (Elt F) ((sSlot j).view.loc (c : Thread nD τ))) : sProp 𝕄 :=
  (sSlot j).view.loc (c : Thread nD τ) ↦[(sSlot j).view.set]{fullShare} f
def rPts (c : Dev nD) (j : Fin 3) (f : Buf (Elt F) ((rSlot j).view.loc (c : Thread nD τ))) : sProp 𝕄 :=
  (rSlot j).view.loc (c : Thread nD τ) ↦[(rSlot j).view.set]{fullShare} f

omit [FloatOps F] in
instance sPts_storable (c : Dev nD) (j : Fin 3) (f) : BI.Storable (upEmb : UEmb _ 𝕄) (sPts (F := F) c j f) := by unfold sPts; infer_instance
omit [FloatOps F] in
instance rPts_storable (c : Dev nD) (j : Fin 3) (f) : BI.Storable (upEmb : UEmb _ 𝕄) (rPts (F := F) c j f) := by unfold rPts; infer_instance

/-! ## The schedule -/

/-- Duty k of p's barrier cell: the receive slot of the device c' = peer (rev k) p into which p copies, and that the
    receive cell of that slot has reached round 0. -/
def barPay (p : Dev nD) (k : Fin 3) : sProp 𝕄 :=
  iprop((∃ f, rPts (peer (rev k) p) (rev k) f) ∗ reached ER (recvCell (peer (rev k) p) (rev k)) 0)
/-- The receive slot j of c, a load of which reads what its sender stored. -/
def recvPay (c : Dev nD) (j : Fin 3) : sProp 𝕄 :=
  iprop(∃ f, rPts c j f ∗ ⌜(rB : Memref sig .tc .vmem S3x256x256 .bf16).view.readAt (Elt F) (slotR j).toLoadRect f = rv m c j⌝)
/-- The send slot j of c back. -/
def sendPay (c : Dev nD) (j : Fin 3) : sProp 𝕄 := iprop(∃ f, sPts c j f)

theorem q_lt_s {q : DmaSem sig} (h : ¬ 5 ≤ q.val) (h2 : 2 ≤ q.val) : q.val - 2 < 3 := by omega
theorem q_lt_r {q : DmaSem sig} (h : 5 ≤ q.val) : q.val - 5 < 3 := by have : q.val < 8 := q.isLt; omega

def rsRd : Rounds.Schedule (GSem nD τ sig) (Fin 3) 𝕄 where
  duties g r := if r = 0 ∧ g.1.2 = .tc then (match g.2 with | .reg _ => Finset.univ | .dma q => if 2 ≤ q.val then {0} else ∅) else ∅
  unitless _ := False
  amount g _ _ := match g.2 with | .reg _ => 1 | .dma _ => N
  payload g _ d := match g.2 with
    | .reg _ => barPay g.1.1 d
    | .dma q => if h : 5 ≤ q.val then recvPay m g.1.1 ⟨q.val - 5, q_lt_r h⟩
        else if h2 : 2 ≤ q.val then sendPay g.1.1 ⟨q.val - 2, q_lt_s h h2⟩ else iprop(emp)
  amount_pos g _ _ _ := by
    cases g.2 with
    | reg _ => exact Nat.one_pos
    | dma _ => exact N_pos

instance rsRd_payload_storable (g : GSem nD τ sig) (r : ℕ) (d : Fin 3) :
    BI.Storable (upEmb : UEmb _ 𝕄) ((rsRd (F := F) m).payload g r d) := by
  obtain ⟨t, s⟩ := g
  cases s with
  | reg s => show BI.Storable upEmb (barPay t.1 d); unfold barPay; infer_instance
  | dma q =>
    show BI.Storable upEmb (if h : 5 ≤ q.val then recvPay m t.1 ⟨q.val - 5, q_lt_r h⟩
        else if h2 : 2 ≤ q.val then sendPay t.1 ⟨q.val - 2, q_lt_s h h2⟩ else iprop(emp))
    unfold recvPay sendPay
    (repeat' split) <;> infer_instance

section Sched
variable (c : Dev nD) (j : Fin 3)

theorem duties_bar : (rsRd (F := F) m).duties (barCell c) 0 = Finset.univ := by dsimp only [rsRd]; exact if_pos ⟨rfl, rfl⟩
theorem duties_send : (rsRd (F := F) m).duties (sendCell c j) 0 = {0} := by
  dsimp only [rsRd]; rw [if_pos ⟨rfl, rfl⟩]; exact if_pos (Nat.le_add_left _ _)
theorem duties_recv : (rsRd (F := F) m).duties (recvCell c j) 0 = {0} := by
  dsimp only [rsRd]; rw [if_pos ⟨rfl, rfl⟩]; exact if_pos (by show 2 ≤ j.val + 5; omega)
theorem duties_later (g : GSem nD τ sig) : ∀ r, 1 ≤ r → (rsRd (F := F) m).duties g r = ∅ :=
  fun r hr => by dsimp only [rsRd]; rw [if_neg fun h => by omega]

theorem amount_bar (d : Fin 3) : (rsRd (F := F) m).amount (barCell c) 0 d = 1 := rfl
theorem amount_send (d : Fin 3) : (rsRd (F := F) m).amount (sendCell c j) 0 d = N := rfl
theorem amount_recv (d : Fin 3) : (rsRd (F := F) m).amount (recvCell c j) 0 d = N := rfl

theorem expect_bar : (rsRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (rsRd (F := F) m).expect (sendCell c j) 0 = N := by
  unfold Schedule.expect Schedule.amountOf; rw [duties_send, Finset.sum_singleton, amount_send]
theorem expect_recv : (rsRd (F := F) m).expect (recvCell c j) 0 = N := by
  unfold Schedule.expect Schedule.amountOf; rw [duties_recv, Finset.sum_singleton, amount_recv]

theorem payload_bar (k : Fin 3) : (rsRd (F := F) m).payload (barCell c) 0 k = barPay c k := rfl
theorem payload_send (d : Fin 3) : (rsRd (F := F) m).payload (sendCell c j) 0 d = sendPay c j := by
  dsimp only [rsRd]
  rw [dif_neg (by show ¬ 5 ≤ j.val + 2; omega), dif_pos (by show 2 ≤ j.val + 2; omega)]
  rfl
theorem payload_recv (d : Fin 3) : (rsRd (F := F) m).payload (recvCell c j) 0 d = recvPay m c j := by
  dsimp only [rsRd]
  rw [dif_pos (by show 5 ≤ j.val + 5; omega)]
  rfl

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The whole round of the barrier cell: the three payloads. -/
theorem rest_bar : bigSep ((rsRd (F := F) m).duties (barCell c) 0 \ ∅) (fun d => (rsRd (F := F) m).payload (barCell c) 0 d)
    = iprop(barPay c 0 ∗ barPay c 1 ∗ barPay c 2) := by
  rw [Finset.sdiff_empty, duties_bar, bigSep_fin3]; rfl
theorem rest_send : bigSep ((rsRd (F := F) m).duties (sendCell c j) 0 \ ∅) (fun d => (rsRd (F := F) m).payload (sendCell c j) 0 d) = sendPay c j := by
  rw [Finset.sdiff_empty, duties_send, bigSep_singleton, payload_send]
theorem rest_recv : bigSep ((rsRd (F := F) m).duties (recvCell c j) 0 \ ∅) (fun d => (rsRd (F := F) m).payload (recvCell c j) 0 d) = recvPay m c j := by
  rw [Finset.sdiff_empty, duties_recv, bigSep_singleton, payload_recv]

end Sched

end Cert.Kernel.RS

end
-- ==== Proof.KernelData.lean ====
/-
  The proof data of the reduce-scatter: what each device owes at launch, the levels of the cells, the ghost state a
  device's body starts from, and the body's pre- and postcondition.

  Device c owes one unit to the barrier cell of each of its three peers and one slot's credit to the j-th receive
  cell of its j-th peer. Barrier cells sit at level 1, receive cells at level 2, everything else at level 0: a device
  waits on its barrier while it still owes receive credits, and on its receive cells only once it owes nothing.
-/
import proofs.«900474_g7700000000000475_dist_rs_v7x_xyz2x4x4_y_m256_n256_bf16_1_alg».proof.Proof.KernelSched

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven cells of a device, indexed -/

/-- 0: the barrier; 1, 2, 3: the send cells; 4, 5, 6: the receive cells. -/
abbrev csem : Fin 7 → SemLoc sig := fun k => match k with
  | ⟨0, _⟩ => .reg barS
  | ⟨n + 1, h⟩ => .dma ⟨n + 2, by show n + 2 < 8; omega⟩
abbrev kcell (ck : Dev nD × Fin 7) : GSem nD τ sig := ((ck.1 : Thread nD τ), csem ck.2)
abbrev sIdx (j : Fin 3) : Fin 7 := ⟨j.val + 1, by omega⟩
abbrev rIdx (j : Fin 3) : Fin 7 := ⟨j.val + 4, by omega⟩

/-! ## What each device owes at launch, summed in the order it pays -/

def O6 (c : Dev nD) : CellTallies nD τ sig Unit := tallyAt (recvCell (peer 2 c) 2) () N
def O5 (c : Dev nD) : CellTallies nD τ sig Unit := O6 c + tallyAt (recvCell (peer 1 c) 1) () N
def O4 (c : Dev nD) : CellTallies nD τ sig Unit := O5 c + tallyAt (recvCell (peer 0 c) 0) () N
def O3 (c : Dev nD) : CellTallies nD τ sig Unit := O4 c + tallyAt (barCell (peer 2 c)) () 1
def O2 (c : Dev nD) : CellTallies nD τ sig Unit := O3 c + tallyAt (barCell (peer 1 c)) () 1
def O₀ (c : Dev nD) : CellTallies nD τ sig Unit := O2 c + tallyAt (barCell (peer 0 c)) () 1

def L (g : GSem nD τ sig) : Finset Unit := if g.1.2 = .tc then {()} else ∅
/-- Barrier cells at 1, receive cells at 2, the rest (staging, send) at 0. -/
def lv (g : GSem nD τ sig) (_ : Unit) : ℕ := match g.2 with | .reg _ => 1 | .dma q => if 5 ≤ q.val then 2 else 0

/-! ## The ghost state a device starts from -/

/-- The cell invariants device c's body opens: its own seven, its peers' barrier cells, its peers' receive cells. -/
def invs (K : Dev nD × Fin 7 → ℕ) (c : Dev nD) : sProp 𝕄 :=
  iprop(cellInv ER (rsRd m) (K (c, 0)) (barCell c)
    ∗ (bigSep Finset.univ fun j : Fin 3 => cellInv ER (rsRd m) (K (c, sIdx j)) (sendCell c j))
    ∗ (bigSep Finset.univ fun j : Fin 3 => cellInv ER (rsRd m) (K (c, rIdx j)) (recvCell c j))
    ∗ (bigSep Finset.univ fun j : Fin 3 => cellInv ER (rsRd m) (K (peer j c, 0)) (barCell (peer j c)))
    ∗ (bigSep Finset.univ fun j : Fin 3 => cellInv ER (rsRd m) (K (peer j c, rIdx j)) (recvCell (peer j c) j)))

instance invs_persistent (K : Dev nD × Fin 7 → ℕ) (c : Dev nD) : BI.Persistent (invs m K c) := by unfold invs; infer_instance

/-- What is known reached: round 0 of the cells c pays and of its own send and receive cells. -/
def marks (c : Dev nD) : sProp 𝕄 :=
  iprop((bigSep Finset.univ fun j : Fin 3 => reached ER (barCell (peer j c)) 0)
    ∗ (bigSep Finset.univ fun j : Fin 3 => reached ER (recvCell (peer j c) j) 0)
    ∗ (bigSep Finset.univ fun j : Fin 3 => reached ER (sendCell c j) 0)
    ∗ (bigSep Finset.univ fun j : Fin 3 => reached ER (recvCell c j) 0))

omit [FloatOps F] in
instance marks_persistent (c : Dev nD) : BI.Persistent (marks (F := F) c) := by unfold marks; infer_instance

/-- The positions of c on its own seven cells. -/
def posns (c : Dev nD) : sProp 𝕄 :=
  iprop(atPos ER (barCell c) 0 ∅ 0
    ∗ (bigSep Finset.univ fun j : Fin 3 => atPos ER (sendCell c j) 0 ∅ 0)
    ∗ (bigSep Finset.univ fun j : Fin 3 => atPos ER (recvCell c j) 0 ∅ 0))

/-- The tokens of the duties c pays: duty j of its j-th peer's barrier cell, the duty of its j-th peer's j-th
    receive cell, the duty of its own j-th send cell. -/
def payToks (c : Dev nD) : sProp 𝕄 :=
  iprop((bigSep Finset.univ fun j : Fin 3 => dutyTok ER (barCell (peer j c)) 0 j)
    ∗ (bigSep Finset.univ fun j : Fin 3 => dutyTok ER (recvCell (peer j c) j) 0 0)
    ∗ (bigSep Finset.univ fun j : Fin 3 => dutyTok ER (sendCell c j) 0 0))

def ghost (K : Dev nD × Fin 7 → ℕ) (c : Dev nD) : sProp 𝕄 :=
  iprop(invs m K c ∗ marks c ∗ posns c ∗ payToks c)

/-- What device c's body starts from: the ghost state at some names, the credit tokens for what the others owe its
    barrier cell (three units) and its three receive cells (a slot's credit each), and the level facts. -/
def start (c : Dev nD) : sProp 𝕄 :=
  iprop((∃ K, ghost m K c) ∗ cred (tallyAt (barCell c) () 3)
    ∗ (bigSep Finset.univ fun j : Fin 3 => cred (tallyAt (recvCell c j) () N)) ∗ levAts L lv)

/-- Before the point: that, and the two scratch buffers at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two scratch buffers at some contents and the six own DMA cells at zero, closed. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun j : Fin 3 => semVal (sendCell c j) 0)
    ∗ (bigSep Finset.univ fun j : Fin 3 => semVal (recvCell c j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.Kernel.RS

end
-- ==== Proof.KernelBody.lean ====
/-
  The body of the reduce-scatter on one device, stepped from the device's ghost state: three signals to the peers'
  barrier cells (each handing over one slot of the own receive buffer), the three blocks stored into the send buffer,
  the wait for the three peers' signals (each bringing the slot to copy into), the three copies, the own block
  loaded, then per slot the wait for the landing and the load of what landed, the sum stored, and the three waits
  for the copies' departures. What the geometry of the two scratch buffers provides is taken as hypotheses (Geom).
-/
import proofs.«900474_g7700000000000475_dist_rs_v7x_xyz2x4x4_y_m256_n256_bf16_1_alg».proof.Proof.KernelData

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What the body needs of the two scratch buffers' geometry: a whole buffer is its three slots, a load of slot j
    stays inside slot j, and a load of a slot after a copy has landed there reads what the sender stored. -/
structure Geom (m : (ℓ : Loc nD τ sig) → Buf (Elt F) ℓ) : Prop where
  sB_split : ∀ (c : Dev nD) (f : Buf (Elt F) ((c : Thread nD τ).loc cc0_scratch0)),
    ((((c : Thread nD τ).loc cc0_scratch0) ↦{fullShare} f) : sProp 𝕄) ⊢ iprop(sPts c 0 f ∗ sPts c 1 f ∗ sPts c 2 f)
  sB_join : ∀ (c : Dev nD) (f0 f1 f2 : Buf (Elt F) ((c : Thread nD τ).loc cc0_scratch0)),
    iprop(sPts c 0 f0 ∗ sPts c 1 f1 ∗ sPts c 2 f2) ⊢ (∃ f : Buf (Elt F) ((c : Thread nD τ).loc cc0_scratch0), (((c : Thread nD τ).loc cc0_scratch0) ↦{fullShare} f) : sProp 𝕄)
  rB_split : ∀ (c : Dev nD) (f : Buf (Elt F) ((c : Thread nD τ).loc cc0_scratch1)),
    ((((c : Thread nD τ).loc cc0_scratch1) ↦{fullShare} f) : sProp 𝕄) ⊢ iprop(rPts c 0 f ∗ rPts c 1 f ∗ rPts c 2 f)
  rB_join : ∀ (c : Dev nD) (f0 f1 f2 : Buf (Elt F) ((c : Thread nD τ).loc cc0_scratch1)),
    iprop(rPts c 0 f0 ∗ rPts c 1 f1 ∗ rPts c 2 f2) ⊢ (∃ f : Buf (Elt F) ((c : Thread nD τ).loc cc0_scratch1), (((c : Thread nD τ).loc cc0_scratch1) ↦{fullShare} f) : sProp 𝕄)
  load_sub : ∀ j : Fin 3, (rB : Memref sig .tc .vmem S3x256x256 .bf16).view.setOn (slotR j).toLoadRect.set ⊆ (rSlot j).view.set
  landed_read : ∀ (j : Fin 3) (c : Dev nD) (f0 : Buf (Elt F) ((c : Thread nD τ).loc cc0_scratch0))
    (fd : Buf (Elt F) ((rSlot j).view.loc ((peer j c : Dev nD) : Thread nD τ))),
    (rB : Memref sig .tc .vmem S3x256x256 .bf16).view.readAt (Elt F) (slotR j).toLoadRect
      ((rSlot j).view.write (Elt F) fd ((sSlot j).view.read (Elt F) (sendBuf m c f0)) Finset.univ) = sv m c j

variable (m : (ℓ : Loc nD τ sig) → Buf (Elt F) ℓ)

/-! ## Waiting on the barrier while the three receive credits are still owed -/

theorem L_tc (c : Dev nD) (sm : SemLoc sig) : L ((c : Thread nD τ), sm) = {()} := if_pos rfl

theorem O4_pos {c : Dev nD} {g : GSem nD τ sig} {u : Unit} (h : 0 < O4 c g u) :
    g = recvCell (peer 2 c) 2 ∨ g = recvCell (peer 1 c) 1 ∨ g = recvCell (peer 0 c) 0 := by
  unfold O4 O5 O6 at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

omit [FloatOps F] in
/-- At its barrier wait a device owes its peers' receive cells only, and those sit above the barrier cells. -/
theorem mayWait_bar (c : Dev nD) :
    (levAts L lv : sProp 𝕄) ⊢ MayWait (c : Thread nD τ) (.reg barS) () (O4 c) :=
  MayOwe.of_cut (L := L) (lev := lv) 1 (fun p hp => by rw [Finset.mem_singleton.mp hp, L_tc]; exact Finset.mem_singleton_self _)
    (fun g u hg => by rcases O4_pos hg with rfl | rfl | rfl <;> (rw [L_tc]; exact Finset.mem_singleton_self _))
    (fun p hp => by rw [Finset.mem_singleton.mp hp]; exact le_refl _)
    (fun g u hg => by rcases O4_pos hg with rfl | rfl | rfl <;> exact (by decide : (1 : ℕ) < 2))

/-! ## The j-th copy -/

/-- The copy of send slot j of c into receive slot j of its j-th peer n: it pays the duty of c's j-th send cell with
    the send slot and the duty of n's j-th receive cell with the receive slot as written. -/
theorem wp_send_rs (hg : Geom m) (K : Dev nD × Fin 7 → ℕ) (j : Fin 3) (c n : Dev nD) (hn : n = peer j c)
    {hsc : (rSlot j : Memref sig (Dev.tc n : Thread nD τ).2.kind .vmem S256x256 .bf16).view.ref.isScScratch = false}
    {hsrc : (sSlot j : Memref sig .tc .vmem S256x256 .bf16).view.WordExact} {hdst : (rSlot j : Memref sig .tc .vmem S256x256 .bf16).view.WordExact}
    {hsem : DmaTarget.Typed .vmem (.dma (rSem j)) (.remote (Dev.tc n : Thread nD τ) (rSlot j : Memref sig .tc .vmem S256x256 .bf16) (.dma (sSem j)) hsc)}
    {α : Type} {Q : α → sProp 𝕄} {k : PUnit → Prog (TpuEff nD τ sig (Elt F) Λ₀ .tc) α}
    (f0 : Buf (Elt F) ((c : Thread nD τ).loc cc0_scratch0)) (fn : Buf (Elt F) ((rSlot j).view.loc ((peer j c : Dev nD) : Thread nD τ)))
    (O : CellTallies nD τ sig Unit) (W : Waits sig Unit) :
    iprop(cellInv ER (rsRd m) (K (c, sIdx j)) (sendCell c j) ∗ cellInv ER (rsRd m) (K (peer j c, rIdx j)) (recvCell (peer j c) j)
        ∗ sPts c j (sendBuf m c f0) ∗ rPts (peer j c) j fn
        ∗ owes (c : Thread nD τ) (O + tallyAt (recvCell (peer j c) j) () N) W
        ∗ dutyTok ER (sendCell c j) 0 0 ∗ reached ER (sendCell c j) 0
        ∗ dutyTok ER (recvCell (peer j c) j) 0 0 ∗ reached ER (recvCell (peer j c) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot j) (.remote (Dev.tc n : Thread nD τ) (rSlot j) (.dma (sSem j)) hsc) (.dma (rSem j)) hsrc hdst hsem) k) Q) := by
  subst hn
  unfold sPts rPts
  exact Rounds.wp_send_pointsTo 𝒱₀ ER (rsRd m) (c : Thread nD τ) none (κ₁ := K (c, sIdx j)) (κ₂ := K (peer j c, rIdx j))
    (r₁ := 0) (r₂ := 0) (d₁ := 0) (d₂ := 0) (fd := fn) (sS := .dma (sSem j)) (sem := .dma (rSem j))
    (src := sSlot j) (dst := rSlot j) (c' := ((peer j c : Dev nD) : Thread nD τ)) (q := fullShare) (fs := sendBuf m c f0)
    (by rw [duties_send]; exact Finset.mem_singleton_self _) (by rw [duties_recv]; exact Finset.mem_singleton_self _)
    () () N (credit_r j) (amount_send m c j 0) (amount_recv m (peer j c) j 0) O rfl (W := W)
    (by rw [payload_send]; unfold sendPay sPts; iintro H; iexists _; iexact H)
    (by
      rw [payload_recv]; unfold recvPay rPts rv; rw [peer_rev]
      iintro H; iexists _
      isplitl; · iexact H
      ipureintro; exact hg.landed_read j c f0 fn)

/-! ## The result's store -/

abbrev rOut : Rect S256x256 := Rect.unit (s := S256x256) ![0, 0] S256x256.size inb_S256x256_S256x256_0_0

omit [FloatOps F] in
theorem hz2 : (![0, 0] : Fin 2 → Nat) = fun _ => 0 := funext fun a => by fin_cases a <;> rfl
omit [FloatOps F] in
theorem write_out (f w : (cc0_stg1_0 : Ref sig .tc).ty.Contents (Elt F)) :
    ((oM : Memref sig .tc .vmem S256x256 .f32).access rOut : View sig .tc _ _ _).write (Elt F) f w Finset.univ = w :=
  Memref.write_access_unit_zero_univ (Elt F) cc0_stg1_0 hz2 _ f w

/-! ## The body -/

set_option maxHeartbeats 1600000 in
/-- The body, stepped from `bodyPre`, one rule per effect in program order, to `bodyPost`. -/
theorem sound_body (hg : Geom m) (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre Φ₀ start ghost invs marks posns payToks
  simp only [bigSep_fin3]
  iintro ⟨⟨⟨⟨⟨%K, ⟨#HIb, ⟨#HIs0, #HIs1, #HIs2⟩, ⟨#HIr0, #HIr1, #HIr2⟩, ⟨#HIbp0, #HIbp1, #HIbp2⟩, #HIrp0, #HIrp1, #HIrp2⟩,
      ⟨⟨#Hrb0, #Hrb1, #Hrb2⟩, ⟨#Hrr0, #Hrr1, #Hrr2⟩, ⟨#Hrs0, #Hrs1, #Hrs2⟩, #Hro0, #Hro1, #Hro2⟩,
      ⟨HatB, ⟨HatS0, HatS1, HatS2⟩, HatR0, HatR1, HatR2⟩,
      ⟨HtB0, HtB1, HtB2⟩, ⟨HtR0, HtR1, HtR2⟩, HtS0, HtS1, HtS2⟩, HcB, ⟨HcR0, HcR1, HcR2⟩, #Hlev⟩, ⟨%fs0, Hs⟩, ⟨%fr0, Hr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c, dev2_eq c, dev3_eq c]
  -- the receive buffer by slots: each signal hands one over
  ihave Hr3 := (hg.rB_split c fr0) $$ Hr
  icases Hr3 with ⟨Hr0, Hr1, Hr2⟩
  -- the signal to the barrier of peer 0: its duty 0, handing over receive slot 2 and that its cell is at round 0
  iapply (Rounds.wp_signal 𝒱₀ ER (rsRd m) (c : Thread nD τ) none (dst := ((peer 0 c : Dev nD) : Thread nD τ)) (κ := K (peer 0 c, 0))
      (d := (0 : Fin 3)) (by rw [duties_bar]; exact Finset.mem_univ _) ((amount_bar m (peer 0 c) 0).trans (by decide)) () (O2 c) rfl)
    $$ [HO HtB0 Hr2]
  · isplitr; · iexact HIbp0
    isplitl [HO]; · iexact HO
    isplitl [HtB0]; · iexact HtB0
    isplitl [Hr2]
    · rw [payload_bar]; unfold barPay; rw [peer_rev]
      isplitl [Hr2]; · iexists fr0; iexact Hr2
      iexact Hro2
    · iexact Hrb0
  iintro HO
  -- the signal to the barrier of peer 1: its duty 1, handing over receive slot 1 and that its cell is at round 0
  iapply (Rounds.wp_signal 𝒱₀ ER (rsRd m) (c : Thread nD τ) none (dst := ((peer 1 c : Dev nD) : Thread nD τ)) (κ := K (peer 1 c, 0))
      (d := (1 : Fin 3)) (by rw [duties_bar]; exact Finset.mem_univ _) ((amount_bar m (peer 1 c) 1).trans (by decide)) () (O3 c) rfl)
    $$ [HO HtB1 Hr1]
  · isplitr; · iexact HIbp1
    isplitl [HO]; · iexact HO
    isplitl [HtB1]; · iexact HtB1
    isplitl [Hr1]
    · rw [payload_bar]; unfold barPay; rw [peer_rev]
      isplitl [Hr1]; · iexists fr0; iexact Hr1
      iexact Hro1
    · iexact Hrb1
  iintro HO
  -- the signal to the barrier of peer 2: its duty 2, handing over receive slot 0 and that its cell is at round 0
  iapply (Rounds.wp_signal 𝒱₀ ER (rsRd m) (c : Thread nD τ) none (dst := ((peer 2 c : Dev nD) : Thread nD τ)) (κ := K (peer 2 c, 0))
      (d := (2 : Fin 3)) (by rw [duties_bar]; exact Finset.mem_univ _) ((amount_bar m (peer 2 c) 2).trans (by decide)) () (O4 c) rfl)
    $$ [HO HtB2 Hr0]
  · isplitr; · iexact HIbp2
    isplitl [HO]; · iexact HO
    isplitl [HtB2]; · iexact HtB2
    isplitl [Hr0]
    · rw [payload_bar]; unfold barPay; rw [peer_rev]
      isplitl [Hr0]; · iexists fr0; iexact Hr0
      iexact Hro0
    · iexact Hrb2
  iintro HO
  -- the block for peer 0: loaded from x, stored into send slot 0
  iapply (wp_load 𝒱₀ (c : Thread nD τ) none Set.univ (m := xM) (Finset.subset_univ _)) $$ Hx; iintro Hx
  iapply (wp_load 𝒱₀ (c : Thread nD τ) none Set.univ (m := sB) (Finset.subset_univ _)) $$ Hs; iintro Hs
  iapply (wp_store 𝒱₀ (c : Thread nD τ) none Set.univ (m := sB) (r := slotR 0) (Mk := Finset.univ) (Finset.subset_univ _)) $$ Hs; iintro Hs
  -- the block for peer 1: loaded from x, stored into send slot 1
  iapply (wp_load 𝒱₀ (c : Thread nD τ) none Set.univ (m := xM) (Finset.subset_univ _)) $$ Hx; iintro Hx
  iapply (wp_load 𝒱₀ (c : Thread nD τ) none Set.univ (m := sB) (Finset.subset_univ _)) $$ Hs; iintro Hs
  iapply (wp_store 𝒱₀ (c : Thread nD τ) none Set.univ (m := sB) (r := slotR 1) (Mk := Finset.univ) (Finset.subset_univ _)) $$ Hs; iintro Hs
  -- the block for peer 2: loaded from x, stored into send slot 2
  iapply (wp_load 𝒱₀ (c : Thread nD τ) none Set.univ (m := xM) (Finset.subset_univ _)) $$ Hx; iintro Hx
  iapply (wp_load 𝒱₀ (c : Thread nD τ) none Set.univ (m := sB) (Finset.subset_univ _)) $$ Hs; iintro Hs
  iapply (wp_store 𝒱₀ (c : Thread nD τ) none Set.univ (m := sB) (r := slotR 2) (Mk := Finset.univ) (Finset.subset_univ _)) $$ Hs; iintro Hs
  -- the wait for the three peers' signals, owing the three receive credits: the three slots to copy into come with it
  iapply (Rounds.wp_wait_rest_token 𝒱₀ ER (rsRd m) (c : Thread nD τ) none (κ := K (c, 0))
      (wpE_semWait_eq 𝒱₀ (c : Thread nD τ) none Set.univ) (Set.mem_univ _) () (O := O4 c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨⟨%fn2, Hd2⟩, #Hq2⟩, ⟨⟨%fn1, Hd1⟩, #Hq1⟩, ⟨%fn0, Hd0⟩, #Hq0⟩
  -- the send buffer by slots
  ihave Hs' : iprop((((c : Thread nD τ).loc cc0_scratch0) ↦{fullShare} sendBuf m c fs0)) $$ [Hs]; · iexact Hs
  ihave Hs3 := (hg.sB_split c (sendBuf m c fs0)) $$ Hs'
  icases Hs3 with ⟨Hs0, Hs1, Hs2⟩
  -- the copy of send slot 0 into receive slot 0 of peer 0
  iapply (wp_send_rs m hg K 0 c _ (dev4_eq c) fs0 fn0 (O5 c) (insert (SemLoc.reg barS, ()) W)) $$ [Hs0 Hd0 HO HtS0 HtR0]
  · isplitr; · iexact HIs0
    isplitr; · iexact HIrp0
    isplitl [Hs0]; · iexact Hs0
    isplitl [Hd0]; · iexact Hd0
    isplitl [HO]; · iexact HO
    isplitl [HtS0]; · iexact HtS0
    isplitr; · iexact Hrs0
    isplitl [HtR0]; · iexact HtR0
    iexact Hrr0
  iintro ⟨HcS0, HO⟩
  -- the copy of send slot 1 into receive slot 1 of peer 1
  iapply (wp_send_rs m hg K 1 c _ (dev5_eq c) fs0 fn1 (O6 c) (insert (SemLoc.reg barS, ()) W)) $$ [Hs1 Hd1 HO HtS1 HtR1]
  · isplitr; · iexact HIs1
    isplitr; · iexact HIrp1
    isplitl [Hs1]; · iexact Hs1
    isplitl [Hd1]; · iexact Hd1
    isplitl [HO]; · iexact HO
    isplitl [HtS1]; · iexact HtS1
    isplitr; · iexact Hrs1
    isplitl [HtR1]; · iexact HtR1
    iexact Hrr1
  iintro ⟨HcS1, HO⟩
  -- the copy of send slot 2 into receive slot 2 of peer 2
  iapply (wp_send_rs m hg K 2 c _ (dev6_eq c) fs0 fn2 (0) (insert (SemLoc.reg barS, ()) W)) $$ [Hs2 Hd2 HO HtS2 HtR2]
  · isplitr; · iexact HIs2
    isplitr; · iexact HIrp2
    isplitl [Hs2]; · iexact Hs2
    isplitl [Hd2]; · iexact Hd2
    isplitl [HO]; · rw [zero_add]; iexact HO
    isplitl [HtS2]; · iexact HtS2
    isplitr; · iexact Hrs2
    isplitl [HtR2]; · iexact HtR2
    iexact Hrr2
  iintro ⟨HcS2, HO⟩
  -- the own block of x
  iapply (wp_load 𝒱₀ (c : Thread nD τ) none Set.univ (m := xM) (Finset.subset_univ _)) $$ Hx; iintro Hx
  -- the wait for the landing in receive slot 0, and the load of what landed
  iapply (Rounds.wp_wait_rest_token 𝒱₀ ER (rsRd m) (c : Thread nD τ) none (κ := K (c, rIdx 0)) (sm := .dma (rSem 0))
      (wpE_waitDma2_eq 𝒱₀ (c : Thread nD τ) none Set.univ) (Set.mem_univ _) () (O := 0) (W := (insert (SemLoc.reg barS, ()) W)) (R := 0) (m := 0) (T := ∅)
      (by rw [Nat.zero_add]; exact (credit_r 0).trans (expect_recv m c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hp := (Entails.of_eq (rest_recv m c 0)) $$ Hpay
  unfold recvPay
  icases Hp with ⟨%fl0, Hl0, %hl0⟩
  unfold rPts
  iapply (wp_load 𝒱₀ (c : Thread nD τ) none Set.univ (m := rB) (r := (slotR 0).toLoadRect) (hg.load_sub 0)) $$ Hl0; iintro Hl0
  rw [hl0]
  -- the wait for the landing in receive slot 1, and the load of what landed
  iapply (Rounds.wp_wait_rest_token 𝒱₀ ER (rsRd m) (c : Thread nD τ) none (κ := K (c, rIdx 1)) (sm := .dma (rSem 1))
      (wpE_waitDma2_eq 𝒱₀ (c : Thread nD τ) none Set.univ) (Set.mem_univ _) () (O := 0) (W := (insert (SemLoc.dma (rSem 0), ()) (insert (SemLoc.reg barS, ()) W))) (R := 0) (m := 0) (T := ∅)
      (by rw [Nat.zero_add]; exact (credit_r 1).trans (expect_recv m c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hp := (Entails.of_eq (rest_recv m c 1)) $$ Hpay
  unfold recvPay
  icases Hp with ⟨%fl1, Hl1, %hl1⟩
  unfold rPts
  iapply (wp_load 𝒱₀ (c : Thread nD τ) none Set.univ (m := rB) (r := (slotR 1).toLoadRect) (hg.load_sub 1)) $$ Hl1; iintro Hl1
  rw [hl1]
  -- the wait for the landing in receive slot 2, and the load of what landed
  iapply (Rounds.wp_wait_rest_token 𝒱₀ ER (rsRd m) (c : Thread nD τ) none (κ := K (c, rIdx 2)) (sm := .dma (rSem 2))
      (wpE_waitDma2_eq 𝒱₀ (c : Thread nD τ) none Set.univ) (Set.mem_univ _) () (O := 0) (W := (insert (SemLoc.dma (rSem 1), ()) (insert (SemLoc.dma (rSem 0), ()) (insert (SemLoc.reg barS, ()) W)))) (R := 0) (m := 0) (T := ∅)
      (by rw [Nat.zero_add]; exact (credit_r 2).trans (expect_recv m c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hp := (Entails.of_eq (rest_recv m c 2)) $$ Hpay
  unfold recvPay
  icases Hp with ⟨%fl2, Hl2, %hl2⟩
  unfold rPts
  iapply (wp_load 𝒱₀ (c : Thread nD τ) none Set.univ (m := rB) (r := (slotR 2).toLoadRect) (hg.load_sub 2)) $$ Hl2; iintro Hl2
  rw [hl2]
  -- the result stored
  iapply (wp_load 𝒱₀ (c : Thread nD τ) none Set.univ (m := oM) (Finset.subset_univ _)) $$ Hout; iintro Hout
  iapply (wp_store 𝒱₀ (c : Thread nD τ) none Set.univ (m := oM) (r := rOut) (Mk := Finset.univ) (Finset.subset_univ _)) $$ Hout; iintro Hout
  rw [write_out]
  -- the wait for the departure of copy 0: send slot 0 back
  iapply (Rounds.wp_wait_rest_token 𝒱₀ ER (rsRd m) (c : Thread nD τ) none (κ := K (c, sIdx 0)) (sm := .dma (sSem 0))
      (wpE_waitDma2_eq 𝒱₀ (c : Thread nD τ) none Set.univ) (Set.mem_univ _) () (O := 0) (W := (insert (SemLoc.dma (rSem 2), ()) (insert (SemLoc.dma (rSem 1), ()) (insert (SemLoc.dma (rSem 0), ()) (insert (SemLoc.reg barS, ()) W))))) (R := 0) (m := 0) (T := ∅)
      (by rw [Nat.zero_add]; exact (credit_s 0).trans (expect_send m c 0).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hp := (Entails.of_eq (rest_send m c 0)) $$ Hpay
  unfold sendPay
  icases Hp with ⟨%fb0, Hb0⟩
  -- the wait for the departure of copy 1: send slot 1 back
  iapply (Rounds.wp_wait_rest_token 𝒱₀ ER (rsRd m) (c : Thread nD τ) none (κ := K (c, sIdx 1)) (sm := .dma (sSem 1))
      (wpE_waitDma2_eq 𝒱₀ (c : Thread nD τ) none Set.univ) (Set.mem_univ _) () (O := 0) (W := (insert (SemLoc.dma (sSem 0), ()) (insert (SemLoc.dma (rSem 2), ()) (insert (SemLoc.dma (rSem 1), ()) (insert (SemLoc.dma (rSem 0), ()) (insert (SemLoc.reg barS, ()) W)))))) (R := 0) (m := 0) (T := ∅)
      (by rw [Nat.zero_add]; exact (credit_s 1).trans (expect_send m c 1).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hp := (Entails.of_eq (rest_send m c 1)) $$ Hpay
  unfold sendPay
  icases Hp with ⟨%fb1, Hb1⟩
  -- the wait for the departure of copy 2: send slot 2 back
  iapply (Rounds.wp_wait_rest_token 𝒱₀ ER (rsRd m) (c : Thread nD τ) none (κ := K (c, sIdx 2)) (sm := .dma (sSem 2))
      (wpE_waitDma2_eq 𝒱₀ (c : Thread nD τ) none Set.univ) (Set.mem_univ _) () (O := 0) (W := (insert (SemLoc.dma (sSem 1), ()) (insert (SemLoc.dma (sSem 0), ()) (insert (SemLoc.dma (rSem 2), ()) (insert (SemLoc.dma (rSem 1), ()) (insert (SemLoc.dma (rSem 0), ()) (insert (SemLoc.reg barS, ()) W))))))) (R := 0) (m := 0) (T := ∅)
      (by rw [Nat.zero_add]; exact (credit_s 2).trans (expect_send m c 2).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hp := (Entails.of_eq (rest_send m c 2)) $$ Hpay
  unfold sendPay
  icases Hp with ⟨%fb2, Hb2⟩
  -- the six own cells close: their counters at zero are the core's again
  imod (Rounds.cell_close ER (rsRd m) (Set.mem_univ (K (c, sIdx 0))) (fun h => h) (R := 0 + 1) (duties_later m (sendCell c 0))) $$ [HatS0] with HzS0
  · isplitr; · iexact HIs0
    iexact HatS0
  imod (Rounds.cell_close ER (rsRd m) (Set.mem_univ (K (c, sIdx 1))) (fun h => h) (R := 0 + 1) (duties_later m (sendCell c 1))) $$ [HatS1] with HzS1
  · isplitr; · iexact HIs1
    iexact HatS1
  imod (Rounds.cell_close ER (rsRd m) (Set.mem_univ (K (c, sIdx 2))) (fun h => h) (R := 0 + 1) (duties_later m (sendCell c 2))) $$ [HatS2] with HzS2
  · isplitr; · iexact HIs2
    iexact HatS2
  imod (Rounds.cell_close ER (rsRd m) (Set.mem_univ (K (c, rIdx 0))) (fun h => h) (R := 0 + 1) (duties_later m (recvCell c 0))) $$ [HatR0] with HzR0
  · isplitr; · iexact HIr0
    iexact HatR0
  imod (Rounds.cell_close ER (rsRd m) (Set.mem_univ (K (c, rIdx 1))) (fun h => h) (R := 0 + 1) (duties_later m (recvCell c 1))) $$ [HatR1] with HzR1
  · isplitr; · iexact HIr1
    iexact HatR1
  imod (Rounds.cell_close ER (rsRd m) (Set.mem_univ (K (c, rIdx 2))) (fun h => h) (R := 0 + 1) (duties_later m (recvCell c 2))) $$ [HatR2] with HzR2
  · isplitr; · iexact HIr2
    iexact HatR2
  rw [wp_ret]; imodintro
  iapply Hk
  unfold bodyPost Φ₁ Dat.owesAt Pipeline.owesWithin
  rw [show (dats m 0 c).owed t₀.succ = 0 from rfl]
  simp only [bigSep_fin3]
  isplitl [Hb0 Hb1 Hb2 Hl0 Hl1 Hl2 HzS0 HzS1 HzS2 HzR0 HzR1 HzR2]
  · isplitl [Hb0 Hb1 Hb2]
    · iapply (hg.sB_join c fb0 fb1 fb2)
      unfold sPts
      isplitl [Hb0]; · iexact Hb0
      isplitl [Hb1]; · iexact Hb1
      iexact Hb2
    isplitl [Hl0 Hl1 Hl2]
    · iapply (hg.rB_join c fl0 fl1 fl2)
      unfold rPts
      isplitl [Hl0]; · iexact Hl0
      isplitl [Hl1]; · iexact Hl1
      iexact Hl2
    isplitl [HzS0 HzS1 HzS2]
    · isplitl [HzS0]; · iexact HzS0
      isplitl [HzS1]; · iexact HzS1
      iexact HzS2
    isplitl [HzR0]; · iexact HzR0
    isplitl [HzR1]; · iexact HzR1
    iexact HzR2
  isplitl [HO]
  · iexists (insert (SemLoc.dma (sSem 2), ()) (insert (SemLoc.dma (sSem 1), ()) (insert (SemLoc.dma (sSem 0), ()) (insert (SemLoc.dma (rSem 2), ()) (insert (SemLoc.dma (rSem 1), ()) (insert (SemLoc.dma (rSem 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The pipeline's body obligation on device c, at its one grid point. -/
theorem body_obligation (hg : Geom m) (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  iintro H
  iapply (sound_body m hg c fun _ => bodyPost m c)
  isplitl [H]; · iexact H
  iintro H; iexact H

/-- info: 'Cert.Kernel.RS.body_obligation' depends on axioms: [propext, Classical.choice, Quot.sound] -/
#guard_msgs in #print axioms body_obligation

end Cert.Kernel.RS

end
-- ==== Proof.KernelGeom.lean ====
/-
  The geometry of the two 3 × 256 × 256 scratch buffers, and the one value fact about a landed copy.

  Slot j of such a buffer is the rectangle [j, j+1) × [0, 256) × [0, 256): an index lies in slot j exactly when its
  leading coordinate is j. So the three slots are pairwise disjoint and cover the buffer, and a points-to of the whole
  buffer is the three points-tos of its slots: with one contents it splits into them, and three slots held at three
  contents join into the buffer at the contents that agrees with each on its slot. A load of slot j through the whole
  buffer touches slot j's elements only. After the j-th copy from a device has landed in slot j of its peer's receive
  buffer, a load of that slot reads what the device stored into slot j of its send buffer.
-/
import proofs.«900474_g7700000000000475_dist_rs_v7x_xyz2x4x4_y_m256_n256_bf16_1_alg».proof.Proof.KernelSched
import Idealize.ShloMosaic.Rules.PointsTo
import Idealize.ShloMosaic.Lib.Pipeline.Value

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The element sets of the slots -/

theorem sSlot_set (j : Fin 3) : (sSlot j).view.set = (slotR j).set := by
  show (((View.whole cc0_scratch0 : View sig .tc _ _ _).slice (slotR j)).reshape S256x256 _).set = _
  rw [View.set_reshape, View.set_slice_whole]

theorem rSlot_set (j : Fin 3) : (rSlot j).view.set = (slotR j).set := by
  show (((View.whole cc0_scratch1 : View sig .tc _ _ _).slice (slotR j)).reshape S256x256 _).set = _
  rw [View.set_reshape, View.set_slice_whole]

/-- An index lies in slot j exactly when its leading coordinate is j. -/
theorem mem_slotR (j : Fin 3) (i : S3x256x256.Idx) : i ∈ (slotR j).set ↔ (i 0).val = j.val := by
  rw [Rect.mem_set_unit]
  constructor
  · intro h
    have h0 := h 0
    have e1 : (![j.val, 0, 0] : Fin 3 → Nat) 0 = j.val := rfl
    have e2 : S1x256x256.size 0 = 1 := rfl
    rw [e1, e2] at h0
    omega
  · intro h a
    have ha : (i a).val < S3x256x256.size a := (i a).isLt
    revert ha
    refine Fin.cases ?_ (fun a => Fin.cases ?_ (fun a => Fin.cases ?_ (fun a => a.elim0) a) a) a
    · intro _
      show j.val ≤ (i 0).val ∧ (i 0).val < j.val + 1
      omega
    · intro ha
      exact ⟨Nat.zero_le _, by simpa using ha⟩
    · intro ha
      exact ⟨Nat.zero_le _, by simpa using ha⟩

/-- Two different slots share no index. -/
theorem slotR_disjoint (j k : Fin 3) (h : j ≠ k) : Disjoint (slotR j).set (slotR k).set := by
  rw [Finset.disjoint_left]
  intro i hj hk
  rw [mem_slotR] at hj hk
  exact h (Fin.ext (hj.symm.trans hk))

/-- Every index lies in the slot its leading coordinate names. -/
theorem slotR_cover : (Finset.univ : Finset (Fin 3)).biUnion (fun j => (slotR j).set) = Finset.univ := by
  ext i
  simp only [Finset.mem_biUnion, Finset.mem_univ, true_and, iff_true]
  exact ⟨⟨(i 0).val, (i 0).isLt⟩, (mem_slotR _ i).mpr rfl⟩

/-! ## A whole buffer and its three slots -/

omit [FloatOps F] in
/-- A send slot's points-to, over the whole buffer's index type. -/
theorem sPts_eq (c : Dev nD) (j : Fin 3) (f : Buf (Elt F) ((c : Thread nD τ).loc cc0_scratch0)) :
    sPts c j f = ((((c : Thread nD τ).loc cc0_scratch0) ↦[(slotR j).set]{fullShare} f) : sProp 𝕄) :=
  congrArg (fun S => ((((c : Thread nD τ).loc cc0_scratch0) ↦[S]{fullShare} f) : sProp 𝕄)) (sSlot_set j)

omit [FloatOps F] in
/-- A whole send buffer is its three slots (same contents). -/
theorem sB_split (c : Dev nD) (f : Buf (Elt F) ((c : Thread nD τ).loc cc0_scratch0)) :
    ((((c : Thread nD τ).loc cc0_scratch0) ↦{fullShare} f) : sProp 𝕄) ⊢ iprop(sPts c 0 f ∗ sPts c 1 f ∗ sPts c 2 f) := by
  have h := pointsTo_biUnion (Val := Elt F) (Name := ℕ) (U := UU) (Lvl := ℕ) (Ix := Unit)
    (ℓ := (c : Thread nD τ).loc cc0_scratch0) (q := fullShare) (f := f)
    (Finset.univ : Finset (Fin 3)) (fun j => (slotR j).set) (fun j _ k _ hjk => slotR_disjoint j k hjk)
  rw [slotR_cover, bigSep_fin3] at h
  rw [sPts_eq c 0 f, sPts_eq c 1 f, sPts_eq c 2 f]
  exact Entails.of_eq h

omit [FloatOps F] in
/-- Three send slots, each at its own contents, are the whole send buffer at the contents that agrees with each on
    its slot. -/
theorem sB_join (c : Dev nD) (f0 f1 f2 : Buf (Elt F) ((c : Thread nD τ).loc cc0_scratch0)) :
    iprop(sPts c 0 f0 ∗ sPts c 1 f1 ∗ sPts c 2 f2)
      ⊢ (iprop(∃ f : Buf (Elt F) ((c : Thread nD τ).loc cc0_scratch0), ((c : Thread nD τ).loc cc0_scratch0) ↦{fullShare} f) : sProp 𝕄) := by
  have h := pointsTo_biUnion_join (Val := Elt F) (Name := ℕ) (U := UU) (Lvl := ℕ) (Ix := Unit)
    (ℓ := (c : Thread nD τ).loc cc0_scratch0) (q := fullShare)
    (Finset.univ : Finset (Fin 3)) (fun j => (slotR j).set) (fun j => ![f0, f1, f2] j) f0
    (fun j _ k _ hjk => slotR_disjoint j k hjk)
  rw [slotR_cover, bigSep_fin3] at h
  have e0 : (![f0, f1, f2] : Fin 3 → Buf (Elt F) ((c : Thread nD τ).loc cc0_scratch0)) 0 = f0 := rfl
  have e1 : (![f0, f1, f2] : Fin 3 → Buf (Elt F) ((c : Thread nD τ).loc cc0_scratch0)) 1 = f1 := rfl
  have e2 : (![f0, f1, f2] : Fin 3 → Buf (Elt F) ((c : Thread nD τ).loc cc0_scratch0)) 2 = f2 := rfl
  rw [e0, e1, e2] at h
  rw [sPts_eq c 0 f0, sPts_eq c 1 f1, sPts_eq c 2 f2]
  refine h.trans ?_
  iintro ⟨%g, %hg, H⟩
  iexists g
  iexact H

omit [FloatOps F] in
/-- A receive slot's points-to, over the whole buffer's index type. -/
theorem rPts_eq (c : Dev nD) (j : Fin 3) (f : Buf (Elt F) ((c : Thread nD τ).loc cc0_scratch1)) :
    rPts c j f = ((((c : Thread nD τ).loc cc0_scratch1) ↦[(slotR j).set]{fullShare} f) : sProp 𝕄) :=
  congrArg (fun S => ((((c : Thread nD τ).loc cc0_scratch1) ↦[S]{fullShare} f) : sProp 𝕄)) (rSlot_set j)

omit [FloatOps F] in
/-- A whole receive buffer is its three slots (same contents). -/
theorem rB_split (c : Dev nD) (f : Buf (Elt F) ((c : Thread nD τ).loc cc0_scratch1)) :
    ((((c : Thread nD τ).loc cc0_scratch1) ↦{fullShare} f) : sProp 𝕄) ⊢ iprop(rPts c 0 f ∗ rPts c 1 f ∗ rPts c 2 f) := by
  have h := pointsTo_biUnion (Val := Elt F) (Name := ℕ) (U := UU) (Lvl := ℕ) (Ix := Unit)
    (ℓ := (c : Thread nD τ).loc cc0_scratch1) (q := fullShare) (f := f)
    (Finset.univ : Finset (Fin 3)) (fun j => (slotR j).set) (fun j _ k _ hjk => slotR_disjoint j k hjk)
  rw [slotR_cover, bigSep_fin3] at h
  rw [rPts_eq c 0 f, rPts_eq c 1 f, rPts_eq c 2 f]
  exact Entails.of_eq h

omit [FloatOps F] in
/-- Three receive slots, each at its own contents, are the whole receive buffer at the contents that agrees with each on
    its slot. -/
theorem rB_join (c : Dev nD) (f0 f1 f2 : Buf (Elt F) ((c : Thread nD τ).loc cc0_scratch1)) :
    iprop(rPts c 0 f0 ∗ rPts c 1 f1 ∗ rPts c 2 f2)
      ⊢ (iprop(∃ f : Buf (Elt F) ((c : Thread nD τ).loc cc0_scratch1), ((c : Thread nD τ).loc cc0_scratch1) ↦{fullShare} f) : sProp 𝕄) := by
  have h := pointsTo_biUnion_join (Val := Elt F) (Name := ℕ) (U := UU) (Lvl := ℕ) (Ix := Unit)
    (ℓ := (c : Thread nD τ).loc cc0_scratch1) (q := fullShare)
    (Finset.univ : Finset (Fin 3)) (fun j => (slotR j).set) (fun j => ![f0, f1, f2] j) f0
    (fun j _ k _ hjk => slotR_disjoint j k hjk)
  rw [slotR_cover, bigSep_fin3] at h
  have e0 : (![f0, f1, f2] : Fin 3 → Buf (Elt F) ((c : Thread nD τ).loc cc0_scratch1)) 0 = f0 := rfl
  have e1 : (![f0, f1, f2] : Fin 3 → Buf (Elt F) ((c : Thread nD τ).loc cc0_scratch1)) 1 = f1 := rfl
  have e2 : (![f0, f1, f2] : Fin 3 → Buf (Elt F) ((c : Thread nD τ).loc cc0_scratch1)) 2 = f2 := rfl
  rw [e0, e1, e2] at h
  rw [rPts_eq c 0 f0, rPts_eq c 1 f1, rPts_eq c 2 f2]
  refine h.trans ?_
  iintro ⟨%g, %hg, H⟩
  iexists g
  iexact H

/-- A load of slot j through the whole receive buffer touches only slot j's elements. -/
theorem load_sub (j : Fin 3) :
    (rB : Memref sig .tc .vmem S3x256x256 .bf16).view.setOn (slotR j).toLoadRect.set ⊆ (rSlot j).view.set := by
  rw [rSlot_set]
  intro i hi
  unfold View.setOn at hi
  rw [Finset.mem_map] at hi
  obtain ⟨i', hi', rfl⟩ := hi
  exact hi'

/-! ## What a landed copy reads -/

/-- A slot index is 0, 1 or 2. -/
theorem fin3_cases (j : Fin 3) : j = 0 ∨ j = 1 ∨ j = 2 := by revert j; decide

/-- The send buffer after the three stores, at an element of slot j: what was stored into slot j (the other two
    stores go to other slots and leave it alone). -/
theorem sendBuf_slot (m : (ℓ : Loc nD τ sig) → Buf (Elt F) ℓ) (c : Dev nD)
    (f0 : Buf (Elt F) ((c : Thread nD τ).loc cc0_scratch0)) (j : Fin 3) (x : (slotR j).shape.Idx) :
    (View.whole cc0_scratch0 : View sig .tc _ _ _).read (Elt F) (sendBuf m c f0) ((slotR j).emb x) = sv m c j x := by
  have hne : ∀ k : Fin 3, k ≠ j →
      (slotR j).emb x ∉ (Finset.univ : Finset (slotR k).shape.Idx).map (slotR k).emb := by
    intro k hk hmem
    rw [Rect.map_emb_univ] at hmem
    have hx : (slotR j).emb x ∈ (slotR j).set := by
      rw [← Rect.map_emb_univ]; exact Finset.mem_map_of_mem _ (Finset.mem_univ x)
    exact Finset.disjoint_left.mp (slotR_disjoint j k (Ne.symm hk)) hx hmem
  have hj : j = 0 ∨ j = 1 ∨ j = 2 := fin3_cases j
  unfold sendBuf
  rcases hj with rfl | rfl | rfl
  · rw [View.read_slice_write_of_not_mem (slotR 2) _ _ _ (hne 2 (by decide)),
      View.read_slice_write_of_not_mem (slotR 1) _ _ _ (hne 1 (by decide))]
    exact View.read_slice_write_emb (slotR 0) _ _ (Finset.mem_univ x)
  · rw [View.read_slice_write_of_not_mem (slotR 2) _ _ _ (hne 2 (by decide))]
    exact View.read_slice_write_emb (slotR 1) _ _ (Finset.mem_univ x)
  · exact View.read_slice_write_emb (slotR 2) _ _ (Finset.mem_univ x)

/-- What a load of slot j reads after the j-th copy from device c has landed there: what c stored into its send
    slot j. Both the slot read through the squeezed slice and the load through the whole buffer see the same elements
    in the same order, so the load reads the copied payload, which is the send buffer read at slot j. -/
theorem landed_read (m : (ℓ : Loc nD τ sig) → Buf (Elt F) ℓ) (j : Fin 3) (c : Dev nD)
    (f0 : Buf (Elt F) ((c : Thread nD τ).loc cc0_scratch0))
    (fd : Buf (Elt F) ((rSlot j).view.loc ((peer j c : Dev nD) : Thread nD τ))) :
    (rB : Memref sig .tc .vmem S3x256x256 .bf16).view.readAt (Elt F) (slotR j).toLoadRect
      ((rSlot j).view.write (Elt F) fd ((sSlot j).view.read (Elt F) (sendBuf m c f0)) Finset.univ) = sv m c j := by
  have hA : (rSlot j).view.read (Elt F)
      ((rSlot j).view.write (Elt F) fd ((sSlot j).view.read (Elt F) (sendBuf m c f0)) Finset.univ)
        = (sSlot j).view.read (Elt F) (sendBuf m c f0) := View.read_write_univ _ _
  have hR := Memref.read_squeeze_slice (Val := Elt F) (rB : Memref sig .tc .vmem S3x256x256 .bf16) (slotR j) (fun _ => rfl)
    squeezes_S1x256x256_S256x256 shapeCasts_S1x256x256_S256x256
    ((rSlot j).view.write (Elt F) fd ((sSlot j).view.read (Elt F) (sendBuf m c f0)) Finset.univ)
  have hS := Memref.read_squeeze_slice (Val := Elt F) (sB : Memref sig .tc .vmem S3x256x256 .bf16) (slotR j) (fun _ => rfl)
    squeezes_S1x256x256_S256x256 shapeCasts_S1x256x256_S256x256 (sendBuf m c f0)
  have hC := hR.symm.trans (hA.trans hS)
  have hB := congrArg (fun v => shapeCast S1x256x256 v shapeCasts_S256x256_S1x256x256) hC
  refine ((shapeCast_shapeCast _ shapeCasts_S1x256x256_S256x256 shapeCasts_S256x256_S1x256x256).symm.trans
    (hB.trans (shapeCast_shapeCast _ shapeCasts_S1x256x256_S256x256 shapeCasts_S256x256_S1x256x256))).trans ?_
  funext x
  exact sendBuf_slot m c f0 j x

end Cert.Kernel.RS

end

namespace Cert.Kernel.RS

/-- info: 'Cert.Kernel.RS.sB_split' depends on axioms: [propext, Classical.choice, Quot.sound] -/
#guard_msgs in #print axioms sB_split

/-- info: 'Cert.Kernel.RS.sB_join' depends on axioms: [propext, Classical.choice, Quot.sound] -/
#guard_msgs in #print axioms sB_join

/-- info: 'Cert.Kernel.RS.rB_split' depends on axioms: [propext, Classical.choice, Quot.sound] -/
#guard_msgs in #print axioms rB_split

/-- info: 'Cert.Kernel.RS.rB_join' depends on axioms: [propext, Classical.choice, Quot.sound] -/
#guard_msgs in #print axioms rB_join

/-- info: 'Cert.Kernel.RS.load_sub' depends on axioms: [propext, Classical.choice, Quot.sound] -/
#guard_msgs in #print axioms load_sub

/-- info: 'Cert.Kernel.RS.landed_read' depends on axioms: [propext, Classical.choice, Quot.sound] -/
#guard_msgs in #print axioms landed_read

end Cert.Kernel.RS
-- ==== Proof.KernelLaunch.lean ====
/-
  The launch of the reduce-scatter: from the proof of one device's body to the run of the whole mesh.

  The launch mints, per device, the round state, positions and duty tokens of its seven cells; allocates the cells'
  invariants for all devices at once; deals each device the tokens of the duties it pays (duty j of its j-th peer's
  barrier cell, the duty of its j-th peer's j-th receive cell, the duty of its own j-th send cell); and hands each
  device the credit for what the others owe its barrier cell (three units) and its three receive cells (a slot each).
-/
import proofs.«900474_g7700000000000475_dist_rs_v7x_xyz2x4x4_y_m256_n256_bf16_1_alg».proof.Proof.KernelData
import proofs.«900474_g7700000000000475_dist_rs_v7x_xyz2x4x4_y_m256_n256_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens the launch mints -/

/-- The six semaphores of the kernel's own: the three send and the three receive semaphores. -/
abbrev osem : Fin 3 ⊕ Fin 3 → SemLoc sig := Sum.elim (fun j => .dma (sSem j)) (fun j => .dma (rSem j))

theorem ownSemFacts : Pipeline.OwnSemFacts cfg0.spec osem := by decide

theorem share_eq (c : Dev nD) (w : Fin cfg0.W) : (dats m 0 c).share w = fullShare := by unfold Dat.share; split <;> rfl

theorem csem_injective : ∀ k k' : Fin 7, csem k = csem k' → k = k' := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective k k' h2
  subst this; rfl
def rsCells : Finset (GSem nD τ sig) := Finset.univ.map ⟨kcell, kcell_injective⟩

/-- The duty tokens of a device's own cells, by kind (0: the barrier cell's duty j; 1: the j-th send cell's duty;
    2: the j-th receive cell's duty). -/
abbrev tokKey (kj : Fin 3 × Fin 3) : SemLoc sig × Fin 3 := match kj.1 with
  | 0 => (.reg barS, kj.2) | 1 => (.dma (sSem kj.2), 0) | 2 => (.dma (rSem kj.2), 0)
theorem tokKey_injective : ∀ a b : Fin 3 × Fin 3, tokKey a = tokKey b → a = b := by decide
abbrev tokOf (cj : Dev nD × Fin 3 × Fin 3) : GSem nD τ sig × ℕ × Fin 3 := (((cj.1 : Thread nD τ), (tokKey cj.2).1), 0, (tokKey cj.2).2)
theorem tokOf_injective : Function.Injective (tokOf : Dev nD × Fin 3 × Fin 3 → GSem nD τ sig × ℕ × Fin 3) := by
  rintro ⟨c, kj⟩ ⟨c', kj'⟩ h
  have h1 : c = c' := by have := congrArg (fun x : GSem nD τ sig × ℕ × Fin 3 => x.1.1.1) h; exact this
  subst h1
  have h2 : tokKey kj = tokKey kj' :=
    Prod.ext (congrArg (fun x : GSem nD τ sig × ℕ × Fin 3 => x.1.2) h) (congrArg (fun x : GSem nD τ sig × ℕ × Fin 3 => x.2.2) h)
  have : kj = kj' := tokKey_injective kj kj' h2
  subst this; rfl
def rsToks : Finset (GSem nD τ sig × ℕ × Fin 3) := Finset.univ.map ⟨tokOf, tokOf_injective⟩

def u₀ : UU :=
  (initOf (Pipeline.cells cfgs cellOf_inj) (Pipeline.launchToks cfgs cellOf_inj), initOf rsCells rsToks)

/-- The duty tokens of device c's own cells. -/
def toks (c : Dev nD) : sProp 𝕄 :=
  iprop((bigSep Finset.univ fun j : Fin 3 => dutyTok ER (barCell c) 0 j)
    ∗ (bigSep Finset.univ fun j : Fin 3 => dutyTok ER (sendCell c j) 0 0)
    ∗ (bigSep Finset.univ fun j : Fin 3 => dutyTok ER (recvCell c j) 0 0))

/-- What the launch element deals device c. -/
def G (c : Dev nD) : sProp 𝕄 :=
  iprop((bigSep Finset.univ fun k : Fin 7 => roundState ER (rsRd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_rs : BI.own (ER (initOf rsCells rsToks)) ⊢ (|==> bigSep Finset.univ (G m) : sProp 𝕄) := by
  have hX (Φ : GSem nD τ sig → sProp 𝕄) : bigSep rsCells Φ = bigSep Finset.univ fun c : Dev nD => bigSep Finset.univ fun k : Fin 7 => Φ (kcell (c, k)) := by
    unfold rsCells; rw [bigSep_map, bigSep_univ_prod]; rfl
  have hT : bigSep rsToks (fun x => (dutyTok ER x.1 x.2.1 x.2.2 : sProp 𝕄)) = bigSep Finset.univ fun c : Dev nD => toks c := by
    unfold rsToks; rw [bigSep_map, bigSep_univ_prod]
    exact bigSep_congr fun c _ => by unfold toks; rw [bigSep_univ_prod, bigSep_fin3]; rfl
  iintro HX
  imod (Rounds.fund ER (rsRd m) rsCells rsToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants, allocated for all devices at once -/

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 3 => semVal (sendCell c j) 0) ∗ (bigSep Finset.univ fun j : Fin 3 => semVal (recvCell c j) 0)) := by
  unfold Pipeline.ownSems0; rw [bigSep_univ_sum]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7, bigSep_fin3, bigSep_fin3]
  iintro ⟨⟨⟨S0, S1, S2⟩, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rsRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rsRd m) (kcell (c, k)) 0)
      ⊢ (|={Set.univ}=> bigSep Finset.univ fun k => iprop(∃ κ : ℕ, cellInv ER (rsRd m) κ (kcell (c, k))) : sProp 𝕄) from by
        rw [← bigSep_sep']
        exact (bigSep_mono fun k _ => (Rounds.body_intro ER (rsRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of all cells under the names K, and that every cell has reached round 0. -/
def records (K : Dev nD × Fin 7 → ℕ) : sProp 𝕄 :=
  iprop((bigSep Finset.univ fun ck : Dev nD × Fin 7 => cellInv ER (rsRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (rsRd m) (K ck) (kcell ck) : sProp 𝕄)) ⊢ cellInv ER (rsRd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: its positions, and the tokens of the duties it pays. -/
def linear (c : Dev nD) : sProp 𝕄 := iprop(posns c ∗ payToks c)

theorem ghost_intro (K : Dev nD × Fin 7 → ℕ) (c : Dev nD) : iprop(records m K ∗ linear c) ⊢ G' m c := by
  unfold records linear G' ghost invs marks
  simp only [bigSep_fin3]
  iintro ⟨⟨#HI, #HR⟩, Hp, Ht⟩
  iexists K
  isplitr
  · isplitr; · iapply (inv_at m K (c, 0)); iexact HI
    isplitr
    · isplitr; · iapply (inv_at m K (c, sIdx 0)); iexact HI
      isplitr; · iapply (inv_at m K (c, sIdx 1)); iexact HI
      iapply (inv_at m K (c, sIdx 2)); iexact HI
    isplitr
    · isplitr; · iapply (inv_at m K (c, rIdx 0)); iexact HI
      isplitr; · iapply (inv_at m K (c, rIdx 1)); iexact HI
      iapply (inv_at m K (c, rIdx 2)); iexact HI
    isplitr
    · isplitr; · iapply (inv_at m K (peer 0 c, 0)); iexact HI
      isplitr; · iapply (inv_at m K (peer 1 c, 0)); iexact HI
      iapply (inv_at m K (peer 2 c, 0)); iexact HI
    · isplitr; · iapply (inv_at m K (peer 0 c, rIdx 0)); iexact HI
      isplitr; · iapply (inv_at m K (peer 1 c, rIdx 1)); iexact HI
      iapply (inv_at m K (peer 2 c, rIdx 2)); iexact HI
  isplitr
  · isplitr
    · isplitr; · iapply (reached_at (F := F) (peer 0 c, 0)); iexact HR
      isplitr; · iapply (reached_at (F := F) (peer 1 c, 0)); iexact HR
      iapply (reached_at (F := F) (peer 2 c, 0)); iexact HR
    isplitr
    · isplitr; · iapply (reached_at (F := F) (peer 0 c, rIdx 0)); iexact HR
      isplitr; · iapply (reached_at (F := F) (peer 1 c, rIdx 1)); iexact HR
      iapply (reached_at (F := F) (peer 2 c, rIdx 2)); iexact HR
    isplitr
    · isplitr; · iapply (reached_at (F := F) (c, sIdx 0)); iexact HR
      isplitr; · iapply (reached_at (F := F) (c, sIdx 1)); iexact HR
      iapply (reached_at (F := F) (c, sIdx 2)); iexact HR
    · isplitr; · iapply (reached_at (F := F) (c, rIdx 0)); iexact HR
      isplitr; · iapply (reached_at (F := F) (c, rIdx 1)); iexact HR
      iapply (reached_at (F := F) (c, rIdx 2)); iexact HR
  isplitl [Hp]; · iexact Hp
  iexact Ht

omit [FloatOps F] in
/-- The tokens dealt to their payers: duty j of a device's barrier cell goes to the device whose j-th peer it is, and
    so does the duty of its j-th receive cell; the send duties stay. -/
theorem toks_around : (bigSep Finset.univ fun c : Dev nD => (toks c : sProp 𝕄)) ⊢ bigSep Finset.univ fun c : Dev nD => payToks c := by
  unfold toks payToks
  simp only [bigSep_fin3, bigSep_sep']
  rw [bigSep_univ_equiv (peerEquiv 0) (fun c : Dev nD => (dutyTok ER (barCell c) 0 (0 : Fin 3) : sProp 𝕄)),
    bigSep_univ_equiv (peerEquiv 1) (fun c : Dev nD => (dutyTok ER (barCell c) 0 (1 : Fin 3) : sProp 𝕄)),
    bigSep_univ_equiv (peerEquiv 2) (fun c : Dev nD => (dutyTok ER (barCell c) 0 (2 : Fin 3) : sProp 𝕄)),
    bigSep_univ_equiv (peerEquiv 0) (fun c : Dev nD => (dutyTok ER (recvCell c 0) 0 (0 : Fin 3) : sProp 𝕄)),
    bigSep_univ_equiv (peerEquiv 1) (fun c : Dev nD => (dutyTok ER (recvCell c 1) 0 (0 : Fin 3) : sProp 𝕄)),
    bigSep_univ_equiv (peerEquiv 2) (fun c : Dev nD => (dutyTok ER (recvCell c 2) 0 (0 : Fin 3) : sProp 𝕄))]
  iintro ⟨⟨B0, B1, B2⟩, ⟨S0, S1, S2⟩, R0, R1, R2⟩
  isplitl [B0 B1 B2]
  · isplitl [B0]; · iexact B0
    isplitl [B1]; · iexact B1
    iexact B2
  isplitl [R0 R1 R2]
  · isplitl [R0]; · iexact R0
    isplitl [R1]; · iexact R1
    iexact R2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) :
    iprop((bigSep Finset.univ fun k : Fin 7 => (atPos ER (kcell (c, k)) 0 ∅ 0 : sProp 𝕄)) ∗ payToks c) ⊢ linear c := by
  unfold linear posns
  rw [bigSep_fin7, bigSep_fin3, bigSep_fin3]
  iintro ⟨⟨A0, A1, A2, A3, A4, A5, A6⟩, Ht⟩
  isplitr [Ht]
  · isplitl [A0]; · iexact A0
    isplitl [A1 A2 A3]
    · isplitl [A1]; · iexact A1
      isplitl [A2]; · iexact A2
      iexact A3
    isplitl [A4]; · iexact A4
    isplitl [A5]; · iexact A5
    iexact A6
  iexact Ht

theorem regroup :
    (bigSep Finset.univ fun c : Dev nD => iprop((bigSep Finset.univ fun k => iprop(∃ κ : ℕ, cellInv ER (rsRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (rsRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rsRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => linear_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem O₀_eq : (O₀ : Dev nD → CellTallies nD τ sig Unit) = fun d =>
    tallyAt (recvCell (peer 2 d) 2) () N + tallyAt (recvCell (peer 1 d) 1) () N + tallyAt (recvCell (peer 0 d) 0) () N
      + tallyAt (barCell (peer 2 d)) () 1 + tallyAt (barCell (peer 1 d)) () 1 + tallyAt (barCell (peer 0 d)) () 1 := rfl

omit [FloatOps F] in
/-- Three single units on one cell are its credit of three. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

omit [FloatOps F] in
/-- Each device is the j-th peer of exactly one device, for each j: so the others owe its barrier cell three units
    and each of its receive cells one slot's credit. -/
theorem creds (c : Dev nD) :
    (Pipeline.launchCred O₀ c : sProp 𝕄)
      ⊢ iprop(cred (tallyAt (barCell c) () 3) ∗ bigSep Finset.univ fun j : Fin 3 => cred (tallyAt (recvCell c j) () N)) := by
  rw [O₀_eq, Pipeline.launchCred_add, Pipeline.launchCred_add, Pipeline.launchCred_add, Pipeline.launchCred_add, Pipeline.launchCred_add, bigSep_fin3]
  iintro ⟨⟨⟨⟨⟨R2, R1⟩, R0⟩, B2⟩, B1⟩, B0⟩
  ihave r2 := (Pipeline.launchCred_tallyAt (.dma (rSem 2)) (peer 2) (peer (rev 2)) (rev_peer 2) (peer_rev 2) () N c) $$ R2
  ihave r1 := (Pipeline.launchCred_tallyAt (.dma (rSem 1)) (peer 1) (peer (rev 1)) (rev_peer 1) (peer_rev 1) () N c) $$ R1
  ihave r0 := (Pipeline.launchCred_tallyAt (.dma (rSem 0)) (peer 0) (peer (rev 0)) (rev_peer 0) (peer_rev 0) () N c) $$ R0
  ihave b2 := (Pipeline.launchCred_tallyAt (.reg barS) (peer 2) (peer (rev 2)) (rev_peer 2) (peer_rev 2) () 1 c) $$ B2
  ihave b1 := (Pipeline.launchCred_tallyAt (.reg barS) (peer 1) (peer (rev 1)) (rev_peer 1) (peer_rev 1) () 1 c) $$ B1
  ihave b0 := (Pipeline.launchCred_tallyAt (.reg barS) (peer 0) (peer (rev 0)) (rev_peer 0) (peer_rev 0) () 1 c) $$ B0
  isplitl [b0 b1 b2]
  · iapply (cred_three (F := F) (barCell c))
    isplitl [b0]; · iexact b0
    isplitl [b1]; · iexact b1
    iexact b2
  isplitl [r0]; · iexact r0
  isplitl [r1]; · iexact r1
  iexact r2

/-! ## The levels: the pipeline's own waits -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl
omit [FloatOps F] in
theorem lv_bar (c : Dev nD) (u : Unit) : lv (barCell c) u = 1 := rfl
omit [FloatOps F] in
theorem lv_recv (c : Dev nD) (j : Fin 3) (u : Unit) : lv (recvCell c j) u = 2 := by
  dsimp only [lv]; exact if_pos (by show 5 ≤ j.val + 5; omega)

omit [FloatOps F] in
/-- Whatever a device owes at launch it owes to a receive cell or a barrier cell of a peer. -/
theorem O₀_pos {c : Dev nD} {g : GSem nD τ sig} {u : Unit} (h : 0 < O₀ c g u) :
    (∃ j, g = recvCell (peer j c) j) ∨ (∃ j, g = barCell (peer j c)) := by
  rw [O₀_eq] at h
  simp only [Pi.add_apply, Finsupp.add_apply, tallyAt_apply] at h
  by_contra hn
  rw [not_or, not_exists, not_exists] at hn
  rw [if_neg (fun h' => hn.1 2 h'.1), if_neg (fun h' => hn.1 1 h'.1), if_neg (fun h' => hn.1 0 h'.1),
    if_neg (fun h' => hn.2 2 h'.1), if_neg (fun h' => hn.2 1 h'.1), if_neg (fun h' => hn.2 0 h'.1)] at h
  exact absurd h (by decide)

omit [FloatOps F] in
/-- A staging cell sits at level 0, below every cell a device owes to. -/
theorem mayWait_stage (c : Dev nD) (q : DmaSem sig) (hq : ¬ 5 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; dsimp only [lv]; rw [if_neg hq])
      (fun g u hg => by
        rcases O₀_pos hg with ⟨j, rfl⟩ | ⟨j, rfl⟩
        · rw [lv_recv]; decide
        · rw [lv_bar]; decide)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨H0, H1, HS, HR⟩
  isplitr; · iempintro
  isplitl [HS HR]
  · isplitl [HS] <;> iassumption
  isplitl [H0] <;> iassumption

/-! ## The run -/

/-- The arrays of device c after the run, as the proof data name them. -/
def finalA (c : Dev nD) (w : Fin cfg0.W) : Buf (Elt F) ((cfg0.win w).arr.view.loc (c : Thread nD τ)) := (dats m 0 c).arrAt w cfg0.N

set_option maxRecDepth 8000 in
/-- At the compiled mesh of thirty-two devices, for any float values, from any memory with zero counters: given the
    body's proof at every device, every weakly fair execution of @main terminates, and every final state has each
    device's arrays at the contents the proof data name. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_rs m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m c (0 : Fin 2) = m ((c : Thread nD τ).loc main_arg0) :=
  (dats (F := F) m 0 c).arrAt_in (0 : Fin 2) rfl _

/-- The result array after the run holds the body's result: the output window is written back once, whole. -/
theorem finalA_out (c : Dev nD) : finalA m c (1 : Fin 2) = outAt m c := by
  have h : finalA m c (1 : Fin 2) = _ := (dats (F := F) m 0 c).arrAt_succ (1 : Fin 2) t₀
  rw [flush0_1 t₀, if_pos rfl] at h
  have hr := View.read_write_univ (Val := Elt F) (v := ((cfg0.win (1 : Fin 2)).blk t₀).view) ((dats (F := F) m 0 c).arrAt (1 : Fin 2) t₀.val) ((dats (F := F) m 0 c).flushed (1 : Fin 2) t₀)
  rw [← h] at hr
  have hz : ((cfg0.win (1 : Fin 2)).blk t₀).view.read (Elt F) (finalA m c (1 : Fin 2)) = finalA m c (1 : Fin 2) :=
    Memref.read_access_unit_zero (Elt F) main_v1 (funext fun a => Nat.zero_mul _) _ (finalA m c (1 : Fin 2))
  exact hz.symm.trans hr

/-- info: 'Cert.Kernel.RS.run_main' depends on axioms: [propext, Classical.choice, Quot.sound] -/
#guard_msgs in #print axioms run_main
/-- info: 'Cert.Kernel.RS.finalA_x' depends on axioms: [propext, Classical.choice, Quot.sound] -/
#guard_msgs in #print axioms finalA_x
/-- info: 'Cert.Kernel.RS.finalA_out' depends on axioms: [propext, Classical.choice, Quot.sound] -/
#guard_msgs in #print axioms finalA_out

end Cert.Kernel.RS

end
-- ==== Proof.RefValue.lean ====
/-
  The reference side of the reduce-scatter, and the bridge from the kernel's result to it, at the ideal instance
  (floats are extended reals, every operation exact, a change of float format the identity).

  The reference holds the whole array X : f32[4, 256, 1024] and returns its sum over the leading axis,
  refOut X (r, q) = X(0, r, q) + X(1, r, q) + X(2, r, q) + X(3, r, q). On the mesh (x, y, z) = (2, 4, 4) device c holds row
  y(c) of X, and its result is to be the block of 256 columns [256 y(c), 256 y(c) + 256) of refOut X.

  The kernel's result on c, at (r, k), is c's own row at column q = 256 y(c) + k plus what its three receive slots hold
  there. Slot j of c was written by the device s whose j-th peer is c; s stored its row at the columns of its j-th
  peer, that is at c's columns, so the slot holds X(y(s), r, q) (the rounding to bf16 on the way is the identity here).
  The y coordinates of c and of its three senders are y, y + 3, y + 2, y + 1 modulo 4: the four rows, each once. The two
  sides are then two orders of one sum of four extended reals, equal by commutativity and associativity of +, which
  hold on the extended reals with no finiteness assumption.
-/
import proofs.«900474_g7700000000000475_dist_rs_v7x_xyz2x4x4_y_m256_n256_bf16_1_alg».proof.Proof.Gen.ReferenceIdeal.Run
import proofs.«900474_g7700000000000475_dist_rs_v7x_xyz2x4x4_y_m256_n256_bf16_1_alg».proof.Proof.Gen.ReferenceIdeal.Read
import proofs.«900474_g7700000000000475_dist_rs_v7x_xyz2x4x4_y_m256_n256_bf16_1_alg».proof.Proof.KernelIdealData
import proofs.«900474_g7700000000000475_dist_rs_v7x_xyz2x4x4_y_m256_n256_bf16_1_alg».proof.Defs
import proofs.«900474_g7700000000000475_dist_rs_v7x_xyz2x4x4_y_m256_n256_bf16_1_alg».proof.Proof.Gen.Pre_finite_inputs_ReferenceIdeal
import Idealize.ShloMosaic.Lib.ValueLayout

noncomputable section

namespace Cert.RefValue

open Idealize.ShloMosaic
open Idealize.ShloMosaic.TcCoe
open Idealize.SL.Sem
open Idealize.ShloMosaic.ValueIdx

open Cert.KernelIdeal Cert.KernelIdeal.Gen Cert.KernelIdeal.RS

/-! ## The reference's frame -/

/-- The reference runs and leaves its argument array as it found it: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The payloads at an index -/

theorem pay1_apply (v : FVec Ideal S1x256x256 .f32) (u : Fin 1) (r k : Fin 256) :
    k0_pay1 (F := Ideal) v (ix3 u r k) = v (ix3 (0 : Fin 1) r k) := by
  unfold k0_pay1
  rw [shapeCast_ab_1ab_apply, truncf_apply, shapeCast_1ab_ab_apply]

theorem pay4_apply (v : FVec Ideal S1x256x256 .f32) (r k : Fin 256) :
    k0_pay4 (F := Ideal) v (ix2 r k) = v (ix3 (0 : Fin 1) r k) := by
  unfold k0_pay4
  rw [shapeCast_1ab_ab_apply]

theorem pay5_apply (a : FVec Ideal S256x256 .f32) (v1 v2 : FVec Ideal S1x256x256 .bf16) (r k : Fin 256) :
    k0_pay5 (F := Ideal) a v1 v2 (ix2 r k) = a (ix2 r k) + v1 (ix3 (0 : Fin 1) r k) + v2 (ix3 (0 : Fin 1) r k) := by
  unfold k0_pay5
  rw [addf_apply, addf_apply, extf_apply, extf_apply, shapeCast_1ab_ab_apply, shapeCast_1ab_ab_apply]

theorem pay6_apply (a : FVec Ideal S256x256 .f32) (v : FVec Ideal S1x256x256 .bf16) (r k : Fin 256) :
    k0_pay6 (F := Ideal) a v (ix2 r k) = a (ix2 r k) + v (ix3 (0 : Fin 1) r k) := by
  unfold k0_pay6
  rw [addf_apply, extf_apply, shapeCast_1ab_ab_apply]

/-! ## Loads through the staged block -/

/-- A load of a rectangle of 256 columns from column o of the staged block reads the block at column o + k. -/
theorem readAt_cols (X : (cc0_stg0_0 : Ref sig .tc).ty.Contents (Elt Ideal)) (off : Fin 3 → ℕ) (o : ℕ) (ho : off = ![0, 0, o])
    (inb : ∀ a, off a + S1x256x256.size a ≤ S1x256x1024.size a)
    (u : Fin 1) (r k : Fin 256) (q : Fin 1024) (hq : q.val = o + k.val) :
    (xM : Memref sig .tc .vmem S1x256x1024 .f32).view.readAt (Elt Ideal) (Rect.unit (s := S1x256x1024) off S1x256x256.size inb).toLoadRect X (ix3 u r k)
      = X (ix3 (0 : Fin 1) r q) := by
  subst ho
  show X _ = X _
  refine congrArg X (funext fun a => Fin.ext ?_)
  match a with
  | ⟨0, _⟩ => show 0 + 1 * u.val = 0; omega
  | ⟨1, _⟩ => show 0 + 1 * r.val = r.val; omega
  | ⟨2, _⟩ => show o + 1 * k.val = q.val; omega

/-- The staged block is the device's argument buffer. -/
theorem xstg_apply (m : (ℓ : Loc nD τ sig) → Buf (Elt Ideal) ℓ) (c : Dev nD) (u : Fin 1) (r : Fin 256) (q : Fin 1024) :
    xstg (F := Ideal) m c (ix3 u r q) = m ((c.tc : Thread nD τ).loc main_arg0) (ix3 u r q) := by
  unfold xstg
  show m _ _ = m _ _
  refine congrArg (m ((c.tc : Thread nD τ).loc main_arg0)) (funext fun a => Fin.ext ?_)
  match a with
  | ⟨0, _⟩ => show 0 * 1 + 1 * u.val = u.val; omega
  | ⟨1, _⟩ => show 0 * 256 + 1 * r.val = r.val; omega
  | ⟨2, _⟩ => show 0 * 1024 + 1 * q.val = q.val; omega

/-! ## The reference's result as one function of its argument -/

/-- The sum of the four rows of the whole array, entry by entry. -/
def refOut (X : FVec Ideal Cert.ReferenceIdeal.S4x256x1024 .f32) : FVec Ideal Cert.ReferenceIdeal.S256x1024 .f32 := fun i =>
  X (ix3 (0 : Fin 4) (⟨(i 0).val, idx2_lt0 i⟩ : Fin 256) (⟨(i 1).val, idx2_lt1 i⟩ : Fin 1024))
    + X (ix3 (1 : Fin 4) (⟨(i 0).val, idx2_lt0 i⟩ : Fin 256) (⟨(i 1).val, idx2_lt1 i⟩ : Fin 1024))
    + X (ix3 (2 : Fin 4) (⟨(i 0).val, idx2_lt0 i⟩ : Fin 256) (⟨(i 1).val, idx2_lt1 i⟩ : Fin 1024))
    + X (ix3 (3 : Fin 4) (⟨(i 0).val, idx2_lt0 i⟩ : Fin 256) (⟨(i 1).val, idx2_lt1 i⟩ : Fin 1024))

theorem refOut_apply (X : FVec Ideal Cert.ReferenceIdeal.S4x256x1024 .f32) (r : Fin 256) (q : Fin 1024) :
    refOut X (ix2 r q) = X (ix3 (0 : Fin 4) r q) + X (ix3 (1 : Fin 4) r q) + X (ix3 (2 : Fin 4) r q) + X (ix3 (3 : Fin 4) r q) := rfl

/-! ## Blocks of the whole arrays -/

/-- Along the mesh's second axis a device's block number is its y coordinate. -/
theorem meshLin_y (s : Dev nD) : Layout.meshLin [2, 4, 4] s.val [1] = (ycoord s).val := by revert s; decide

/-- A device's argument buffer is row y of the whole array. -/
theorem arg_apply (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 256, 1024]⟩ ⟨3, ![4, 256, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0)))
    (s : Dev Cert.KernelIdeal.nD) (u : Fin 1) (r : Fin 256) (q : Fin 1024) :
    m ((s.tc : Thread Cert.KernelIdeal.nD Cert.KernelIdeal.τ).loc Cert.KernelIdeal.main_arg0) (ix3 u r q)
      = (m' (((0 : Dev Cert.ReferenceIdeal.nD).tc : Thread Cert.ReferenceIdeal.nD Cert.ReferenceIdeal.τ).loc Cert.ReferenceIdeal.main_arg0)) (ix3 (ycoord s) r q) := by
  rw [hagree s, Layout.blockN_apply]
  refine congrArg (m' (((0 : Dev Cert.ReferenceIdeal.nD).tc : Thread Cert.ReferenceIdeal.nD Cert.ReferenceIdeal.τ).loc Cert.ReferenceIdeal.main_arg0)) (funext fun a => Fin.ext ?_)
  match a with
  | ⟨0, _⟩ =>
    show Layout.meshLin [2, 4, 4] s.val [1] * 1 + u.val = (ycoord s).val
    rw [meshLin_y]; omega
  | ⟨1, _⟩ => show 0 * 256 + r.val = r.val; omega
  | ⟨2, _⟩ => show 0 * 1024 + q.val = q.val; omega

/-- A device's block of the result: its 256 columns from column 256 y. -/
theorem block_out_apply (V : FVec Ideal Cert.ReferenceIdeal.S256x1024 .f32) (c : Dev Cert.KernelIdeal.nD) (r k : Fin 256) (q : Fin 1024)
    (hq : q.val = 256 * (ycoord c).val + k.val) :
    (Layout.blockN ⟨2, ![256, 256]⟩ ⟨2, ![256, 1024]⟩ (Layout.meshBlock [2, 4, 4] ![[], [1]] c) V) (ix2 r k) = V (ix2 r q) := by
  rw [Layout.blockN_apply]
  refine congrArg V (funext fun a => Fin.ext ?_)
  match a with
  | ⟨0, _⟩ => show 0 * 256 + r.val = r.val; omega
  | ⟨1, _⟩ =>
    show Layout.meshLin [2, 4, 4] c.val [1] * 256 + k.val = q.val
    rw [meshLin_y]; omega

/-! ## The four senders hold the four rows -/

theorem ysum (g : Fin 4 → EReal) (c : Dev nD) :
    g (ycoord c) + g (ycoord (peer (rev 0) c)) + g (ycoord (peer (rev 1) c)) + g (ycoord (peer (rev 2) c)) = g 0 + g 1 + g 2 + g 3 := by
  have h : ∀ c : Dev nD,
      (ycoord c = 0 ∧ ycoord (peer (rev 0) c) = 3 ∧ ycoord (peer (rev 1) c) = 2 ∧ ycoord (peer (rev 2) c) = 1)
      ∨ (ycoord c = 1 ∧ ycoord (peer (rev 0) c) = 0 ∧ ycoord (peer (rev 1) c) = 3 ∧ ycoord (peer (rev 2) c) = 2)
      ∨ (ycoord c = 2 ∧ ycoord (peer (rev 0) c) = 1 ∧ ycoord (peer (rev 1) c) = 0 ∧ ycoord (peer (rev 2) c) = 3)
      ∨ (ycoord c = 3 ∧ ycoord (peer (rev 0) c) = 2 ∧ ycoord (peer (rev 1) c) = 1 ∧ ycoord (peer (rev 2) c) = 0) := by decide
  rcases h c with ⟨h0, h1, h2, h3⟩ | ⟨h0, h1, h2, h3⟩ | ⟨h0, h1, h2, h3⟩ | ⟨h0, h1, h2, h3⟩ <;> rw [h0, h1, h2, h3] <;> ac_rfl

/-! ## The kernel's result at an entry -/

/-- What lands in receive slot j of device c: the sender's block of x at the columns of c. -/
theorem rv_apply (m : (ℓ : Loc nD τ sig) → Buf (Elt Ideal) ℓ) (c : Dev nD) (j : Fin 3) (r k : Fin 256) (q : Fin 1024)
    (hq : q.val = 256 * (ycoord c).val + k.val) :
    rv (F := Ideal) m c j (ix3 (0 : Fin 1) r k) = xstg (F := Ideal) m (peer (rev j) c) (ix3 (0 : Fin 1) r q) := by
  unfold rv sv
  rw [pay1_apply]
  exact readAt_cols _ _ (256 * (ycoord (peer j (peer (rev j) c))).val) (off1_eq _ j) _ 0 r k q (by rw [rev_peer]; exact hq)

/-- The device's own block of columns of its x. -/
theorem own_apply (m : (ℓ : Loc nD τ sig) → Buf (Elt Ideal) ℓ) (c : Dev nD) (r k : Fin 256) (q : Fin 1024)
    (hq : q.val = 256 * (ycoord c).val + k.val) :
    (xM : Memref sig .tc .vmem S1x256x1024 .f32).view.readAt (Elt Ideal) (xOwn c).toLoadRect (xstg (F := Ideal) m c) (ix3 (0 : Fin 1) r k)
      = xstg (F := Ideal) m c (ix3 (0 : Fin 1) r q) :=
  readAt_cols _ _ (256 * (ycoord c).val) (off2_eq c) _ 0 r k q hq

/-- THE BRIDGE: from memories where every device holds its row of the whole array, the kernel's result on device c is
    c's block of columns of the sum of the four rows. The receive slots of c hold, from the three other devices of its
    line, their rows at c's columns; with c's own row these are the four rows, in an order that depends on c, and a sum
    of four extended reals does not depend on the order. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 256, 1024]⟩ ⟨3, ![4, 256, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.RS.outAt (F := Ideal) m c = Layout.blockN ⟨2, ![256, 256]⟩ ⟨2, ![256, 1024]⟩ (Layout.meshBlock [2, 4, 4] ![[], [1]] c) (refOut (m' (((0 : Dev Cert.ReferenceIdeal.nD).tc : Thread Cert.ReferenceIdeal.nD Cert.ReferenceIdeal.τ).loc Cert.ReferenceIdeal.main_arg0))) := by
  funext i
  obtain ⟨r, k, rfl⟩ : ∃ (r k : Fin 256), i = ix2 r k := ⟨i 0, i 1, eq_ix2 i⟩
  have hlt : 256 * (ycoord c).val + k.val < 1024 := by have := (ycoord c).isLt; have := k.isLt; omega
  rw [block_out_apply _ c r k ⟨256 * (ycoord c).val + k.val, hlt⟩ rfl, refOut_apply]
  unfold outAt
  rw [pay6_apply, pay5_apply, pay4_apply, own_apply m c r k ⟨256 * (ycoord c).val + k.val, hlt⟩ rfl,
    rv_apply m c 0 r k ⟨256 * (ycoord c).val + k.val, hlt⟩ rfl, rv_apply m c 1 r k ⟨256 * (ycoord c).val + k.val, hlt⟩ rfl,
    rv_apply m c 2 r k ⟨256 * (ycoord c).val + k.val, hlt⟩ rfl,
    xstg_apply, xstg_apply, xstg_apply, xstg_apply,
    arg_apply m m' hagree, arg_apply m m' hagree, arg_apply m m' hagree, arg_apply m m' hagree]
  exact ysum (fun a => (m' (((0 : Dev Cert.ReferenceIdeal.nD).tc : Thread Cert.ReferenceIdeal.nD Cert.ReferenceIdeal.τ).loc Cert.ReferenceIdeal.main_arg0)) (ix3 a r ⟨256 * (ycoord c).val + k.val, hlt⟩)) c

/-! ## The reference computes that function -/

/-- The reference's reduction over the leading axis, from the zero word, is the sum of the four rows. -/
theorem val_eq_refOut (X : (⟨Cert.ReferenceIdeal.S4x256x1024, .f32⟩ : BufTy).Contents (Elt Ideal)) :
    Cert.ReferenceIdeal.Read.val_main_v0 (F := Ideal) X = refOut X := by
  funext i
  have hidx : ∀ k : Fin 4, Cert.ReferenceIdeal.Read.idx_main_v0 i k
      = ix3 k (⟨(i 0).val, idx2_lt0 i⟩ : Fin 256) (⟨(i 1).val, idx2_lt1 i⟩ : Fin 1024) := fun k =>
    funext fun a => by match a with | ⟨0, _⟩ => rfl | ⟨1, _⟩ => rfl | ⟨2, _⟩ => rfl
  rw [Cert.ReferenceIdeal.Read.val_main_v0_apply, Cert.ReferenceIdeal.Read.val_main_cst_apply, Fin.sum_univ_four,
    hidx 0, hidx 1, hidx 2, hidx 3]
  show Ideal.ofBits .f32 0x00000000#32 + _ = _
  rw [Ideal.ofBits_zero_f32, zero_add]
  rfl

/-- The reference's run, with its result named as that function of its argument array. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v0) = refOut (m' (((0 : Dev Cert.ReferenceIdeal.nD).tc : Thread Cert.ReferenceIdeal.nD Cert.ReferenceIdeal.τ).loc Cert.ReferenceIdeal.main_arg0))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans ((Cert.ReferenceIdeal.Read.val_main_v0_eq _).trans (val_eq_refOut _)), (h 0).2⟩)
    (Cert.ReferenceIdeal.Value.run (F := Ideal) m' ρ')

/-- info: 'Cert.RefValue.frame_ri' depends on axioms: [propext, Classical.choice, Quot.sound] -/
#guard_msgs in #print axioms frame_ri
/-- info: 'Cert.RefValue.ref_run' depends on axioms: [propext, Classical.choice, Quot.sound] -/
#guard_msgs in #print axioms ref_run
/-- info: 'Cert.RefValue.out_eq' depends on axioms: [propext, Classical.choice, Quot.sound] -/
#guard_msgs in #print axioms out_eq

end Cert.RefValue

end
-- ==== Proof.lean ====
/-
  A reduce-scatter over the y axis of a 2 × 4 × 4 mesh, against the sum over the leading axis on one device.

  The whole input x has four rows x[0..3], each 256 × 1024; the device at mesh coordinate y holds row y. Every
  device cuts its row into four blocks of 256 columns, keeps block y, and sends block y' (rounded to bf16, which is
  the identity over the extended reals) to the device of its (x, z) line at coordinate y', for the three y' ≠ y. It
  ends with its own block plus the three blocks it received: the column block y of x[0] + x[1] + x[2] + x[3], the
  terms taken in the order y, y - 1, y - 2, y - 3 modulo 4. Addition of extended reals is commutative and
  associative, so this is column block y of the reference's sum, whatever the inputs.

  The devices meet through a handshake on the barrier semaphore (each signals its three peers and waits for three
  units: a peer's unit brings the slot of that peer's receive buffer to copy into) and three remote copies, each
  with a send and a receive semaphore. The protocol is a schedule of rounds (Proof/KernelIdealSched.lean), the body
  of one device is stepped against it (Proof/KernelIdealBody.lean), the launch turns the per-device bodies into
  the run of the whole mesh (Proof/KernelIdealLaunch.lean), the geometry of the two three-slot buffers is
  Proof/KernelIdealGeom.lean, and the value of the result against the reference's is Proof/RefValue.lean. The
  word-level program has the same protocol: its modules are the same texts read at the word-level instance.
-/
import proofs.«900474_g7700000000000475_dist_rs_v7x_xyz2x4x4_y_m256_n256_bf16_1_alg».proof.Defs
import proofs.«900474_g7700000000000475_dist_rs_v7x_xyz2x4x4_y_m256_n256_bf16_1_alg».proof.Proof.Gen.Kernel
import proofs.«900474_g7700000000000475_dist_rs_v7x_xyz2x4x4_y_m256_n256_bf16_1_alg».proof.Proof.Gen.Kernel.Skeleton
import proofs.«900474_g7700000000000475_dist_rs_v7x_xyz2x4x4_y_m256_n256_bf16_1_alg».proof.Proof.Gen.Kernel.Launch
import proofs.«900474_g7700000000000475_dist_rs_v7x_xyz2x4x4_y_m256_n256_bf16_1_alg».proof.Proof.Gen.Kernel.Points
import proofs.«900474_g7700000000000475_dist_rs_v7x_xyz2x4x4_y_m256_n256_bf16_1_alg».proof.Proof.Gen.Kernel.Frame
import proofs.«900474_g7700000000000475_dist_rs_v7x_xyz2x4x4_y_m256_n256_bf16_1_alg».proof.Proof.Gen.KernelIdeal
import proofs.«900474_g7700000000000475_dist_rs_v7x_xyz2x4x4_y_m256_n256_bf16_1_alg».proof.Proof.Gen.KernelIdeal.Skeleton
import proofs.«900474_g7700000000000475_dist_rs_v7x_xyz2x4x4_y_m256_n256_bf16_1_alg».proof.Proof.Gen.KernelIdeal.Launch
import proofs.«900474_g7700000000000475_dist_rs_v7x_xyz2x4x4_y_m256_n256_bf16_1_alg».proof.Proof.Gen.KernelIdeal.Points
import proofs.«900474_g7700000000000475_dist_rs_v7x_xyz2x4x4_y_m256_n256_bf16_1_alg».proof.Proof.Gen.KernelIdeal.Frame
import proofs.«900474_g7700000000000475_dist_rs_v7x_xyz2x4x4_y_m256_n256_bf16_1_alg».proof.Proof.Gen.ReferenceIdeal
import proofs.«900474_g7700000000000475_dist_rs_v7x_xyz2x4x4_y_m256_n256_bf16_1_alg».proof.Proof.Gen.Pre_finite_inputs_Kernel
import proofs.«900474_g7700000000000475_dist_rs_v7x_xyz2x4x4_y_m256_n256_bf16_1_alg».proof.Proof.Gen.Pre_finite_inputs_ReferenceIdeal
import proofs.«900474_g7700000000000475_dist_rs_v7x_xyz2x4x4_y_m256_n256_bf16_1_alg».proof.Proof.KernelIdealBody
import proofs.«900474_g7700000000000475_dist_rs_v7x_xyz2x4x4_y_m256_n256_bf16_1_alg».proof.Proof.KernelIdealGeom
import proofs.«900474_g7700000000000475_dist_rs_v7x_xyz2x4x4_y_m256_n256_bf16_1_alg».proof.Proof.KernelIdealLaunch
import proofs.«900474_g7700000000000475_dist_rs_v7x_xyz2x4x4_y_m256_n256_bf16_1_alg».proof.Proof.KernelBody
import proofs.«900474_g7700000000000475_dist_rs_v7x_xyz2x4x4_y_m256_n256_bf16_1_alg».proof.Proof.KernelGeom
import proofs.«900474_g7700000000000475_dist_rs_v7x_xyz2x4x4_y_m256_n256_bf16_1_alg».proof.Proof.KernelLaunch
import proofs.«900474_g7700000000000475_dist_rs_v7x_xyz2x4x4_y_m256_n256_bf16_1_alg».proof.Proof.RefValue
import Idealize.ShloMosaic.Adequacy
import Idealize.ShloMosaic.Init

noncomputable section

namespace Cert.Proof

open Idealize.ShloMosaic Idealize.SL.Sem

/-- The geometry of the two scratch buffers, at the idealized program and at the word-level one. -/
theorem geomI {F : FTy → Type} [FloatOps F] (m : (ℓ : Loc Cert.KernelIdeal.nD Cert.KernelIdeal.τ Cert.KernelIdeal.sig) → Buf (Elt F) ℓ) :
    Cert.KernelIdeal.RS.Geom m :=
  ⟨fun c f => Cert.KernelIdeal.RS.sB_split c f, fun c f0 f1 f2 => Cert.KernelIdeal.RS.sB_join c f0 f1 f2,
   fun c f => Cert.KernelIdeal.RS.rB_split c f, fun c f0 f1 f2 => Cert.KernelIdeal.RS.rB_join c f0 f1 f2,
   fun j => Cert.KernelIdeal.RS.load_sub j, fun j c f0 fd => Cert.KernelIdeal.RS.landed_read m j c f0 fd⟩
theorem geomK {F : FTy → Type} [FloatOps F] (m : (ℓ : Loc Cert.Kernel.nD Cert.Kernel.τ Cert.Kernel.sig) → Buf (Elt F) ℓ) :
    Cert.Kernel.RS.Geom m :=
  ⟨fun c f => Cert.Kernel.RS.sB_split c f, fun c f0 f1 f2 => Cert.Kernel.RS.sB_join c f0 f1 f2,
   fun c f => Cert.Kernel.RS.rB_split c f, fun c f0 f1 f2 => Cert.Kernel.RS.rB_join c f0 f1 f2,
   fun j => Cert.Kernel.RS.load_sub j, fun j c f0 fd => Cert.Kernel.RS.landed_read m j c f0 fd⟩

/-- Every execution of the word-level program on the mesh ends, and each device's row of x is as it was. -/
theorem frame_k : Cert.frame_Kernel := fun m ρ _ =>
  (θ_run Cert.Kernel.defs _ _).mono (fun r h c => ((h c) 0).trans (Cert.Kernel.RS.finalA_x m c))
    (Cert.Kernel.RS.run_main (F := Bits) m ρ (Cert.Kernel.RS.body_obligation m (geomK m)))

/-- The same of the idealized program. -/
theorem frame_ki : Cert.frame_KernelIdeal := fun m ρ _ =>
  (θ_run Cert.KernelIdeal.defs _ _).mono (fun r h c => ((h c) 0).trans (Cert.KernelIdeal.RS.finalA_x m c))
    (Cert.KernelIdeal.RS.run_main (F := Ideal) m ρ (Cert.KernelIdeal.RS.body_obligation m (geomI m)))

/-- Over the extended reals each device's result ends as its block of columns of the sum of the four rows, which is
    what the reference ends with on the whole array. -/
theorem algebraic : Cert.algebraic_KernelIdeal_ReferenceIdeal := fun m ρ m' ρ' _ hagree =>
  ⟨Cert.RefValue.refOut (m' (((0 : Dev Cert.ReferenceIdeal.nD).tc : Thread Cert.ReferenceIdeal.nD Cert.ReferenceIdeal.τ).loc Cert.ReferenceIdeal.main_arg0)),
   (θ_run Cert.KernelIdeal.defs _ _).mono
     (fun r h c => ⟨((h c) 1).trans ((Cert.KernelIdeal.RS.finalA_out m c).trans (Cert.RefValue.out_eq m m' hagree c)),
       ((h c) 0).trans (Cert.KernelIdeal.RS.finalA_x m c)⟩)
     (Cert.KernelIdeal.RS.run_main (F := Ideal) m ρ (Cert.KernelIdeal.RS.body_obligation m (geomI m))),
   Cert.RefValue.ref_run m' ρ'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefValue.frame_ri, trivial, algebraic⟩

end Cert.Proof

end
